-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v126)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v126) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S65536x4096 : Shape := ⟨2, ![65536, 4096]⟩
abbrev S131072 : Shape := ⟨1, ![131072]⟩
abbrev S20480 : Shape := ⟨1, ![20480]⟩
abbrev S256x256 : Shape := ⟨2, ![256, 256]⟩
abbrev S256 : Shape := ⟨1, ![256]⟩
abbrev S_ : Shape := ⟨0, ![]⟩
abbrev S4096 : Shape := ⟨1, ![4096]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S65536x4096 : S_.BroadcastsInDim S65536x4096 (![] : Fin 0 → Fin S65536x4096.rank)
  reducesTo_S65536x4096_S_d0_1 : S65536x4096.ReducesTo [0, 1] S_
  bcast_S_S131072 : S_.BroadcastsInDim S131072 (![] : Fin 0 → Fin S131072.rank)
  reducesTo_S131072_S_d0 : S131072.ReducesTo [0] S_
  bcast_S_S20480 : S_.BroadcastsInDim S20480 (![] : Fin 0 → Fin S20480.rank)
  reducesTo_S20480_S_d0 : S20480.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  reducesTo_S65536x4096_S4096_d0 : S65536x4096.ReducesTo [0] S4096
  bcast_S_S4096 : S_.BroadcastsInDim S4096 (![] : Fin 0 → Fin S4096.rank)
  reducesTo_S4096_S_d0 : S4096.ReducesTo [0] S_

variable [Facts]

def fn_part3 {F : FTy → Type} [FloatOps F] (main_arg1 : FVec F S65536x4096 .f32) (main_arg15 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg15
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_cst_22 : FVec F S_ .f32 := constant S_ .f32 0x00000000#32
  let main_v59 : FVec F S4096 .f32 := (fun x v => Host.reduceAdd x v reducesTo_S65536x4096_S4096_d0 h_S_) main_arg1 main_cst_22
  let main_cst_23 : FVec F S_ .f32 := constant S_ .f32 0x00000000#32
  let main_v60 : FVec F S4096 .f32 := broadcastInDim S4096 ![] bcast_S_S4096 main_cst_23
  let main_v61 : IVec S4096 1 := cmpf .une main_v59 main_v60
  let main_c_24 : IVec S_ 1 := constantI S_ 1 1#1
  let main_v62 : IVec S_ 1 := (fun x v => Host.reduce IntOp.andi x v reducesTo_S4096_S_d0 h_S_) main_v61 main_c_24
  let main_v63 : IVec S_ 1 := andi main_v58 main_v62
  main_v63

def fn_part2 {F : FTy → Type} [FloatOps F] (main_arg1 : FVec F S65536x4096 .f32) (main_arg11 : FVec F S256 .f32) (main_arg12 : FVec F S256x256 .f32) (main_arg13 : FVec F S256 .f32) (main_arg14 : FVec F S256 .f32) (main_arg15 : FVec F S256 .f32) (main_v33 : IVec S_ 1) : IVec S_ 1 :=
  let main_v34 : FVec F S256 .f32 := Host.absf main_arg11
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg12
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg13
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg14
  let main_cst_18 : FVec F S_ .f32 := constant S_ .f32 0x7F800000#32
  let main_v50 : FVec F S256 .f32 := broadcastInDim S256 ![] bcast_S_S256 main_cst_18
  fn_part3 (F := F) main_arg1 main_arg15 main_v48 main_v49 main_v50

def fn_part1 {F : FTy → Type} [FloatOps F] (main_arg1 : FVec F S65536x4096 .f32) (main_arg8 : FVec F S256x256 .f32) (main_arg9 : FVec F S256 .f32) (main_arg10 : FVec F S256 .f32) (main_arg11 : FVec F S256 .f32) (main_arg12 : FVec F S256x256 .f32) (main_arg13 : FVec F S256 .f32) (main_arg14 : FVec F S256 .f32) (main_arg15 : FVec F S256 .f32) (main_v13 : IVec S_ 1) (main_v16 : IVec S20480 1) : IVec S_ 1 :=
  let main_c_5 : IVec S_ 1 := constantI S_ 1 1#1
  let main_v17 : IVec S_ 1 := (fun x v => Host.reduce IntOp.andi x v reducesTo_S20480_S_d0 h_S_) main_v16 main_c_5
  let main_v18 : IVec S_ 1 := andi main_v13 main_v17
  let main_v19 : FVec F S256x256 .f32 := Host.absf main_arg8
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg9
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg10
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_arg11 main_arg12 main_arg13 main_arg14 main_arg15 main_v33

def fn {F : FTy → Type} [FloatOps F] (main_arg0 : FVec F S65536x256 .f32) (main_arg1 : FVec F S65536x4096 .f32) (main_arg2 : IVec S131072 32) (main_arg3 : IVec S131072 32) (main_arg4 : FVec F S131072 .f32) (main_arg5 : IVec S20480 32) (main_arg6 : IVec S20480 32) (main_arg7 : FVec F S20480 .f32) (main_arg8 : FVec F S256x256 .f32) (main_arg9 : FVec F S256 .f32) (main_arg10 : FVec F S256 .f32) (main_arg11 : FVec F S256 .f32) (main_arg12 : FVec F S256x256 .f32) (main_arg13 : FVec F S256 .f32) (main_arg14 : FVec F S256 .f32) (main_arg15 : FVec F S256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x4096 .f32 := Host.absf main_arg1
  let main_cst_0 : FVec F S_ .f32 := constant S_ .f32 0x7F800000#32
  let main_v5 : FVec F S65536x4096 .f32 := broadcastInDim S65536x4096 ![] bcast_S_S65536x4096 main_cst_0
  let main_v6 : IVec S65536x4096 1 := cmpf .olt main_v4 main_v5
  let main_c_1 : IVec S_ 1 := constantI S_ 1 1#1
  let main_v7 : IVec S_ 1 := (fun x v => Host.reduce IntOp.andi x v reducesTo_S65536x4096_S_d0_1 h_S_) main_v6 main_c_1
  let main_v8 : IVec S_ 1 := andi main_v3 main_v7
  let main_v9 : FVec F S131072 .f32 := Host.absf main_arg4
  let main_cst_2 : FVec F S_ .f32 := constant S_ .f32 0x7F800000#32
  let main_v10 : FVec F S131072 .f32 := broadcastInDim S131072 ![] bcast_S_S131072 main_cst_2
  let main_v11 : IVec S131072 1 := cmpf .olt main_v9 main_v10
  let main_c_3 : IVec S_ 1 := constantI S_ 1 1#1
  let main_v12 : IVec S_ 1 := (fun x v => Host.reduce IntOp.andi x v reducesTo_S131072_S_d0 h_S_) main_v11 main_c_3
  let main_v13 : IVec S_ 1 := andi main_v8 main_v12
  let main_v14 : FVec F S20480 .f32 := Host.absf main_arg7
  let main_cst_4 : FVec F S_ .f32 := constant S_ .f32 0x7F800000#32
  let main_v15 : FVec F S20480 .f32 := broadcastInDim S20480 ![] bcast_S_S20480 main_cst_4
  let main_v16 : IVec S20480 1 := cmpf .olt main_v14 main_v15
  fn_part1 (F := F) main_arg1 main_arg8 main_arg9 main_arg10 main_arg11 main_arg12 main_arg13 main_arg14 main_arg15 main_v13 main_v16
-- ==== Kernel.lean ====
abbrev S65536x256 : Shape := ⟨2, ![65536, 256]⟩
abbrev S65536x4096 : Shape := ⟨2, ![65536, 4096]⟩
abbrev S131072 : Shape := ⟨1, ![131072]⟩
abbrev S20480 : Shape := ⟨1, ![20480]⟩
abbrev S256x256 : Shape := ⟨2, ![256, 256]⟩
abbrev S256 : Shape := ⟨1, ![256]⟩
abbrev S4096x256 : Shape := ⟨2, ![4096, 256]⟩
abbrev S1x4096 : Shape := ⟨2, ![1, 4096]⟩
abbrev S512x4096 : Shape := ⟨2, ![512, 4096]⟩
abbrev S512x256 : Shape := ⟨2, ![512, 256]⟩
abbrev S4096 : Shape := ⟨1, ![4096]⟩
abbrev S4096x1 : Shape := ⟨2, ![4096, 1]⟩
abbrev S1x256 : Shape := ⟨2, ![1, 256]⟩
abbrev S131072x1 : Shape := ⟨2, ![131072, 1]⟩
abbrev S_ : Shape := ⟨0, ![]⟩
abbrev S131072x256 : Shape := ⟨2, ![131072, 256]⟩
abbrev S20480x1 : Shape := ⟨2, ![20480, 1]⟩
abbrev S20480x256 : Shape := ⟨2, ![20480, 256]⟩

abbrev nBuf : Space → Nat
  | .hbm => 170
  | .vmem => 13
  | .smem => 0
  | _ => 0

abbrev hbmTy0_0 (i : Nat) : BufTy := match i % 128 with
  | 0 => ⟨S65536x256, .f32⟩
  | 1 => ⟨S65536x4096, .f32⟩
  | 2 => ⟨S131072, .i32⟩
  | 3 => ⟨S131072, .i32⟩
  | 4 => ⟨S131072, .f32⟩
  | 5 => ⟨S20480, .i32⟩
  | 6 => ⟨S20480, .i32⟩
  | 7 => ⟨S20480, .f32⟩
  | 8 => ⟨S256x256, .f32⟩
  | 9 => ⟨S256, .f32⟩
  | 10 => ⟨S256, .f32⟩
  | 11 => ⟨S256, .f32⟩
  | 12 => ⟨S256x256, .f32⟩
  | 13 => ⟨S256, .f32⟩
  | 14 => ⟨S256, .f32⟩
  | 15 => ⟨S256, .f32⟩
  | 16 => ⟨S4096x256, .f32⟩
  | 17 => ⟨S1x4096, .f32⟩
  | 18 => ⟨S4096x1, .f32⟩
  | 19 => ⟨S4096x256, .f32⟩
  | 20 => ⟨S4096x256, .f32⟩
  | 21 => ⟨S4096x256, .f32⟩
  | 22 => ⟨S1x256, .f32⟩
  | 23 => ⟨S4096x256, .f32⟩
  | 24 => ⟨S4096x256, .f32⟩
  | 25 => ⟨S131072x1, .f32⟩
  | 26 => ⟨S_, .i32⟩
  | 27 => ⟨S131072, .i32⟩
  | 28 => ⟨S131072, .i1⟩
  | 29 => ⟨S_, .i32⟩
  | 30 => ⟨S131072, .i32⟩
  | 31 => ⟨S131072, .i32⟩
  | 32 => ⟨S131072, .i32⟩
  | 33 => ⟨S131072x1, .i32⟩
  | 34 => ⟨S131072x256, .f32⟩
  | 35 => ⟨S131072x256, .f32⟩
  | 36 => ⟨S131072x256, .f32⟩
  | 37 => ⟨S_, .f32⟩
  | 38 => ⟨S4096x256, .f32⟩
  | 39 => ⟨S131072x1, .i32⟩
  | 40 => ⟨S4096x256, .f32⟩
  | 41 => ⟨S20480x1, .f32⟩
  | 42 => ⟨S_, .i32⟩
  | 43 => ⟨S20480, .i32⟩
  | 44 => ⟨S20480, .i1⟩
  | 45 => ⟨S_, .i32⟩
  | 46 => ⟨S20480, .i32⟩
  | 47 => ⟨S20480, .i32⟩
  | 48 => ⟨S20480, .i32⟩
  | 49 => ⟨S20480x1, .i32⟩
  | 50 => ⟨S20480x256, .f32⟩
  | 51 => ⟨S20480x256, .f32⟩
  | 52 => ⟨S20480x256, .f32⟩
  | 53 => ⟨S_, .f32⟩
  | 54 => ⟨S4096x256, .f32⟩
  | 55 => ⟨S20480x1, .i32⟩
  | 56 => ⟨S4096x256, .f32⟩
  | 57 => ⟨S4096x256, .f32⟩
  | 58 => ⟨S_, .f32⟩
  | 59 => ⟨S256, .f32⟩
  | 60 => ⟨S_, .f32⟩
  | 61 => ⟨S256, .f32⟩
  | 62 => ⟨S256, .f32⟩
  | 63 => ⟨S1x256, .f32⟩
  | 64 => ⟨S4096x256, .f32⟩
  | 65 => ⟨S4096x256, .f32⟩
  | 66 => ⟨S4096x256, .f32⟩
  | 67 => ⟨S_, .f32⟩
  | 68 => ⟨S256, .f32⟩
  | 69 => ⟨S_, .f32⟩
  | 70 => ⟨S256, .f32⟩
  | 71 => ⟨S256, .f32⟩
  | 72 => ⟨S1x256, .f32⟩
  | 73 => ⟨S4096x256, .f32⟩
  | 74 => ⟨S4096x256, .f32⟩
  | 75 => ⟨S_, .f32⟩
  | 76 => ⟨S256, .f32⟩
  | 77 => ⟨S256, .f32⟩
  | 78 => ⟨S256, .f32⟩
  | 79 => ⟨S1x256, .f32⟩
  | 80 => ⟨S4096x256, .f32⟩
  | 81 => ⟨S4096x256, .f32⟩
  | 82 => ⟨S1x256, .f32⟩
  | 83 => ⟨S4096x256, .f32⟩
  | 84 => ⟨S4096x256, .f32⟩
  | 85 => ⟨S1x256, .f32⟩
  | 86 => ⟨S4096x256, .f32⟩
  | 87 => ⟨S4096x256, .f32⟩
  | 88 => ⟨S_, .f32⟩
  | 89 => ⟨S4096x256, .f32⟩
  | 90 => ⟨S4096x256, .i1⟩
  | 91 => ⟨S_, .f32⟩
  | 92 => ⟨S4096x256, .f32⟩
  | 93 => ⟨S4096x256, .f32⟩
  | 94 => ⟨S4096x256, .f32⟩
  | 95 => ⟨S4096x256, .f32⟩
  | 96 => ⟨S1x256, .f32⟩
  | 97 => ⟨S4096x256, .f32⟩
  | 98 => ⟨S4096x256, .f32⟩
  | 99 => ⟨S131072x1, .f32⟩
  | 100 => ⟨S_, .i32⟩
  | 101 => ⟨S131072, .i32⟩
  | 102 => ⟨S131072, .i1⟩
  | 103 => ⟨S_, .i32⟩
  | 104 => ⟨S131072, .i32⟩
  | 105 => ⟨S131072, .i32⟩
  | 106 => ⟨S131072, .i32⟩
  | 107 => ⟨S131072x1, .i32⟩
  | 108 => ⟨S131072x256, .f32⟩
  | 109 => ⟨S131072x256, .f32⟩
  | 110 => ⟨S131072x256, .f32⟩
  | 111 => ⟨S_, .f32⟩
  | 112 => ⟨S4096x256, .f32⟩
  | 113 => ⟨S131072x1, .i32⟩
  | 114 => ⟨S4096x256, .f32⟩
  | 115 => ⟨S20480x1, .f32⟩
  | 116 => ⟨S_, .i32⟩
  | 117 => ⟨S20480, .i32⟩
  | 118 => ⟨S20480, .i1⟩
  | 119 => ⟨S_, .i32⟩
  | 120 => ⟨S20480, .i32⟩
  | 121 => ⟨S20480, .i32⟩
  | 122 => ⟨S20480, .i32⟩
  | 123 => ⟨S20480x1, .i32⟩
  | 124 => ⟨S20480x256, .f32⟩
  | 125 => ⟨S20480x256, .f32⟩
  | 126 => ⟨S20480x256, .f32⟩
  | 127 => ⟨S_, .f32⟩
  | _ => ⟨S65536x256, .f32⟩

abbrev hbmTy0_1 (i : Nat) : BufTy := match i % 128 with
  | 0 => ⟨S4096x256, .f32⟩
  | 1 => ⟨S20480x1, .i32⟩
  | 2 => ⟨S4096x256, .f32⟩
  | 3 => ⟨S4096x256, .f32⟩
  | 4 => ⟨S_, .f32⟩
  | 5 => ⟨S256, .f32⟩
  | 6 => ⟨S_, .f32⟩
  | 7 => ⟨S256, .f32⟩
  | 8 => ⟨S256, .f32⟩
  | 9 => ⟨S1x256, .f32⟩
  | 10 => ⟨S4096x256, .f32⟩
  | 11 => ⟨S4096x256, .f32⟩
  | 12 => ⟨S4096x256, .f32⟩
  | 13 => ⟨S_, .f32⟩
  | 14 => ⟨S256, .f32⟩
  | 15 => ⟨S_, .f32⟩
  | 16 => ⟨S256, .f32⟩
  | 17 => ⟨S256, .f32⟩
  | 18 => ⟨S1x256, .f32⟩
  | 19 => ⟨S4096x256, .f32⟩
  | 20 => ⟨S4096x256, .f32⟩
  | 21 => ⟨S_, .f32⟩
  | 22 => ⟨S256, .f32⟩
  | 23 => ⟨S256, .f32⟩
  | 24 => ⟨S256, .f32⟩
  | 25 => ⟨S1x256, .f32⟩
  | 26 => ⟨S4096x256, .f32⟩
  | 27 => ⟨S4096x256, .f32⟩
  | 28 => ⟨S1x256, .f32⟩
  | 29 => ⟨S4096x256, .f32⟩
  | 30 => ⟨S4096x256, .f32⟩
  | 31 => ⟨S1x256, .f32⟩
  | 32 => ⟨S4096x256, .f32⟩
  | 33 => ⟨S4096x256, .f32⟩
  | 34 => ⟨S_, .f32⟩
  | 35 => ⟨S4096x256, .f32⟩
  | 36 => ⟨S4096x256, .i1⟩
  | 37 => ⟨S_, .f32⟩
  | 38 => ⟨S4096x256, .f32⟩
  | 39 => ⟨S4096x256, .f32⟩
  | 40 => ⟨S4096x256, .f32⟩
  | 41 => ⟨S65536x256, .f32⟩
  | _ => ⟨S65536x256, .f32⟩

abbrev hbmTy (i : Nat) : BufTy := match i / 128 with
  | 0 => hbmTy0_0 i
  | 1 => hbmTy0_1 i
  | _ => ⟨S65536x256, .f32⟩

abbrev bufTy : (tb : Table) → Fin (tcTables nBuf tb) → BufTy
  | .hbm, ⟨i, _⟩ => hbmTy i
  | .local _ .vmem, ⟨0, _⟩ => ⟨S512x4096, .f32⟩
  | .local _ .vmem, ⟨1, _⟩ => ⟨S512x4096, .f32⟩
  | .local _ .vmem, ⟨2, _⟩ => ⟨S512x256, .f32⟩
  | .local _ .vmem, ⟨3, _⟩ => ⟨S512x256, .f32⟩
  | .local _ .vmem, ⟨4, _⟩ => ⟨S4096x256, .f32⟩
  | .local _ .vmem, ⟨5, _⟩ => ⟨S1x4096, .f32⟩
  | .local _ .vmem, ⟨6, _⟩ => ⟨S4096x256, .f32⟩
  | .local _ .vmem, ⟨7, _⟩ => ⟨S1x4096, .f32⟩
  | .local _ .vmem, ⟨8, _⟩ => ⟨S512x4096, .f32⟩
  | .local _ .vmem, ⟨9, _⟩ => ⟨S512x4096, .f32⟩
  | .local _ .vmem, ⟨10, _⟩ => ⟨S4096x256, .f32⟩
  | .local _ .vmem, ⟨11, _⟩ => ⟨S512x256, .f32⟩
  | .local _ .vmem, ⟨12, _⟩ => ⟨S512x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c : Ref sig .tc := ⟨.hbm, 26, rfl⟩
abbrev main_v9 : Ref sig .tc := ⟨.hbm, 27, rfl⟩
abbrev main_v10 : Ref sig .tc := ⟨.hbm, 28, rfl⟩
abbrev main_c_0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_1 : Ref sig .tc := ⟨.hbm, 42, rfl⟩
abbrev main_v22 : Ref sig .tc := ⟨.hbm, 43, rfl⟩
abbrev main_v23 : Ref sig .tc := ⟨.hbm, 44, rfl⟩
abbrev main_c_2 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_3 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_4 : Ref sig .tc := ⟨.hbm, 58, rfl⟩
abbrev main_v35 : Ref sig .tc := ⟨.hbm, 59, rfl⟩
abbrev main_cst_5 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_6 : Ref sig .tc := ⟨.hbm, 67, rfl⟩
abbrev main_v42 : Ref sig .tc := ⟨.hbm, 68, rfl⟩
abbrev main_cst_7 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_8 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_9 : Ref sig .tc := ⟨.hbm, 88, rfl⟩
abbrev main_v60 : Ref sig .tc := ⟨.hbm, 89, rfl⟩
abbrev main_v61 : Ref sig .tc := ⟨.hbm, 90, rfl⟩
abbrev main_cst_10 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_11 : Ref sig .tc := ⟨.hbm, 100, rfl⟩
abbrev main_v70 : Ref sig .tc := ⟨.hbm, 101, rfl⟩
abbrev main_v71 : Ref sig .tc := ⟨.hbm, 102, rfl⟩
abbrev main_c_12 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_13 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_c_14 : Ref sig .tc := ⟨.hbm, 116, rfl⟩
abbrev main_v83 : Ref sig .tc := ⟨.hbm, 117, rfl⟩
abbrev main_v84 : Ref sig .tc := ⟨.hbm, 118, rfl⟩
abbrev main_c_15 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_16 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_17 : Ref sig .tc := ⟨.hbm, 132, rfl⟩
abbrev main_v96 : Ref sig .tc := ⟨.hbm, 133, rfl⟩
abbrev main_cst_18 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_19 : Ref sig .tc := ⟨.hbm, 141, rfl⟩
abbrev main_v103 : Ref sig .tc := ⟨.hbm, 142, rfl⟩
abbrev main_cst_20 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_cst_21 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_cst_22 : Ref sig .tc := ⟨.hbm, 162, rfl⟩
abbrev main_v121 : Ref sig .tc := ⟨.hbm, 163, rfl⟩
abbrev main_v122 : Ref sig .tc := ⟨.hbm, 164, rfl⟩
abbrev main_cst_23 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S512x4096_S512x4096_0_0 : ∀ a, (![0, 0] : Fin 2 → Nat) a + S512x4096.size a ≤ S512x4096.size a
  h_S512x4096 : 0 < S512x4096.numel
  inb_S512x256_S512x256_0_0 : ∀ a, (![0, 0] : Fin 2 → Nat) a + S512x256.size a ≤ S512x256.size a
  h_S512x256 : 0 < S512x256.numel
  bitsLt_bf16_f32 : FTy.bits .bf16 < FTy.bits .f32
  reduces_S512x4096_S4096 : S512x4096.Reduces [0] S4096
  shapeCasts_S4096_S1x4096 : S4096.ShapeCasts S1x4096
  transposes_S1x4096_S4096x1_1_0 : S1x4096.Transposes [1, 0] S4096x1
  bcast_S4096x1_S4096x256_0_1 : S4096x1.BroadcastsInDim S4096x256 (![0, 1] : Fin 2 → Fin S4096x256.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S131072_S131072x1_0 : S131072.BroadcastsInDim S131072x1 (![0] : Fin 1 → Fin S131072x1.rank)
  bcast_S_S131072 : S_.BroadcastsInDim S131072 (![] : Fin 0 → Fin S131072.rank)
  bcast_S131072x1_S131072x256_0_1 : S131072x1.BroadcastsInDim S131072x256 (![0, 1] : Fin 2 → Fin S131072x256.rank)
  bcast_S_S4096x256 : S_.BroadcastsInDim S4096x256 (![] : Fin 0 → Fin S4096x256.rank)
  bcast_S20480_S20480x1_0 : S20480.BroadcastsInDim S20480x1 (![0] : Fin 1 → Fin S20480x1.rank)
  bcast_S_S20480 : S_.BroadcastsInDim S20480 (![] : Fin 0 → Fin S20480.rank)
  bcast_S20480x1_S20480x256_0_1 : S20480x1.BroadcastsInDim S20480x256 (![0, 1] : Fin 2 → Fin S20480x256.rank)
  reducesTo_S4096x256_S256_d0 : S4096x256.ReducesTo [0] S256
  h_S_ : 0 < S_.numel
  bcast_S_S256 : S_.BroadcastsInDim S256 (![] : Fin 0 → Fin S256.rank)
  dot_S512x4096_S512x256_S4096x256_0_0_1_1_n_n_wf : DotDims.WF S512x4096 S512x256 S4096x256 [0] [0] [1] [1] [] []
  dot_S4096x256_S256x256_S4096x256_1_0_0_1_n_n_wf : DotDims.WF S4096x256 S256x256 S4096x256 [1] [0] [0] [1] [] []
  gather_S4096x256_S131072x1_S131072x256_1_0_n_n_0_1_1256_wf : GatherDims.WF S4096x256 S131072x1 S131072x256 [1] [0] [] [0] [] 1 ![1, 256]
  scatter_S4096x256_S131072x1_S131072x256_1_0_0_1_wf : ScatterDims.WF S4096x256 S131072x1 S131072x256 [1] [0] [0] 1
  gather_S4096x256_S20480x1_S20480x256_1_0_n_n_0_1_1256_wf : GatherDims.WF S4096x256 S20480x1 S20480x256 [1] [0] [] [0] [] 1 ![1, 256]
  scatter_S4096x256_S20480x1_S20480x256_1_0_0_1_wf : ScatterDims.WF S4096x256 S20480x1 S20480x256 [1] [0] [0] 1
  dot_S512x4096_S4096x256_S512x256_1_0_0_1_n_n_wf : DotDims.WF S512x4096 S4096x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S65536x4096.size a
  hwx0_0 : ∀ i : grid0.Coords, EltTy.bits .f32 = 32 ∨ (Rect.block (s := S65536x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S65536x256.size a
  hwx0_1 : ∀ i : grid0.Coords, EltTy.bits .f32 = 32 ∨ (Rect.block (s := S65536x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S4096x256.size a
  hwx0_2 : ∀ i : grid0.Coords, EltTy.bits .f32 = 32 ∨ (Rect.block (s := S4096x256) S4096x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S65536x4096.size a
  hwx1_0 : ∀ i : grid1.Coords, EltTy.bits .f32 = 32 ∨ (Rect.block (s := S65536x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x256.size a
  hwx1_1 : ∀ i : grid1.Coords, EltTy.bits .f32 = 32 ∨ (Rect.block (s := S4096x256) S4096x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S65536x256.size a
  hwx1_2 : ∀ i : grid1.Coords, EltTy.bits .f32 = 32 ∨ (Rect.block (s := S65536x256) S512x256.size (cc1_transform_2 i) (hinb1_2 i)).WholeWords (EltTy.packing .f32)

variable [Facts₀]

def dot_S512x4096_S512x256_S4096x256_0_0_1_1_n_n : DotDims S512x4096 S512x256 S4096x256 where
  lhsContracting := [0]
  rhsContracting := [0]
  lhsNonContracting := [1]
  rhsNonContracting := [1]
  lhsBatch := []
  rhsBatch := []
  wf := dot_S512x4096_S512x256_S4096x256_0_0_1_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def gather_S4096x256_S131072x1_S131072x256_1_0_n_n_0_1_1256 : GatherDims S4096x256 S131072x1 S131072x256 where
  offsetDims := [1]
  collapsedSliceDims := [0]
  operandBatchingDims := []
  startIndicesBatchingDims := []
  startIndexMap := [0]
  indexVectorDim := 1
  sliceSizes := ![1, 256]
  wf := gather_S4096x256_S131072x1_S131072x256_1_0_n_n_0_1_1256_wf
def scatter_S4096x256_S131072x1_S131072x256_1_0_0_1 : ScatterDims S4096x256 S131072x1 S131072x256 where
  updateWindowDims := [1]
  insertedWindowDims := [0]
  scatterDimsToOperandDims := [0]
  indexVectorDim := 1
  wf := scatter_S4096x256_S131072x1_S131072x256_1_0_0_1_wf
def gather_S4096x256_S20480x1_S20480x256_1_0_n_n_0_1_1256 : GatherDims S4096x256 S20480x1 S20480x256 where
  offsetDims := [1]
  collapsedSliceDims := [0]
  operandBatchingDims := []
  startIndicesBatchingDims := []
  startIndexMap := [0]
  indexVectorDim := 1
  sliceSizes := ![1, 256]
  wf := gather_S4096x256_S20480x1_S20480x256_1_0_n_n_0_1_1256_wf
def scatter_S4096x256_S20480x1_S20480x256_1_0_0_1 : ScatterDims S4096x256 S20480x1 S20480x256 where
  updateWindowDims := [1]
  insertedWindowDims := [0]
  scatterDimsToOperandDims := [0]
  indexVectorDim := 1
  wf := scatter_S4096x256_S20480x1_S20480x256_1_0_0_1_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S4096x256.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x4096.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v125) S4096x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v126) S512x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S65536x256 : Shape := ⟨2, ![65536, 256]⟩
abbrev S65536x4096 : Shape := ⟨2, ![65536, 4096]⟩
abbrev S131072 : Shape := ⟨1, ![131072]⟩
abbrev S20480 : Shape := ⟨1, ![20480]⟩
abbrev S256x256 : Shape := ⟨2, ![256, 256]⟩
abbrev S256 : Shape := ⟨1, ![256]⟩
abbrev S_ : Shape := ⟨0, ![]⟩
abbrev S4096 : Shape := ⟨1, ![4096]⟩
abbrev S1x4096 : Shape := ⟨2, ![1, 4096]⟩
abbrev S4096x65536 : Shape := ⟨2, ![4096, 65536]⟩
abbrev S4096x256 : Shape := ⟨2, ![4096, 256]⟩
abbrev S1x256 : Shape := ⟨2, ![1, 256]⟩
abbrev S131072x1 : Shape := ⟨2, ![131072, 1]⟩
abbrev S131072x256 : Shape := ⟨2, ![131072, 256]⟩
abbrev S20480x1 : Shape := ⟨2, ![20480, 1]⟩
abbrev S20480x256 : Shape := ⟨2, ![20480, 256]⟩

abbrev nBuf : Space → Nat
  | .hbm => 172
  | .vmem => 0
  | .smem => 0
  | _ => 0

abbrev hbmTy0_0 (i : Nat) : BufTy := match i % 128 with
  | 0 => ⟨S65536x256, .f32⟩
  | 1 => ⟨S65536x4096, .f32⟩
  | 2 => ⟨S131072, .i32⟩
  | 3 => ⟨S131072, .i32⟩
  | 4 => ⟨S131072, .f32⟩
  | 5 => ⟨S20480, .i32⟩
  | 6 => ⟨S20480, .i32⟩
  | 7 => ⟨S20480, .f32⟩
  | 8 => ⟨S256x256, .f32⟩
  | 9 => ⟨S256, .f32⟩
  | 10 => ⟨S256, .f32⟩
  | 11 => ⟨S256, .f32⟩
  | 12 => ⟨S256x256, .f32⟩
  | 13 => ⟨S256, .f32⟩
  | 14 => ⟨S256, .f32⟩
  | 15 => ⟨S256, .f32⟩
  | 16 => ⟨S_, .f32⟩
  | 17 => ⟨S4096, .f32⟩
  | 18 => ⟨S1x4096, .f32⟩
  | 19 => ⟨S65536x4096, .f32⟩
  | 20 => ⟨S65536x4096, .f32⟩
  | 21 => ⟨S4096x65536, .f32⟩
  | 22 => ⟨S4096x256, .f32⟩
  | 23 => ⟨S4096x256, .f32⟩
  | 24 => ⟨S1x256, .f32⟩
  | 25 => ⟨S4096x256, .f32⟩
  | 26 => ⟨S4096x256, .f32⟩
  | 27 => ⟨S131072x1, .f32⟩
  | 28 => ⟨S_, .i32⟩
  | 29 => ⟨S131072, .i32⟩
  | 30 => ⟨S131072, .i1⟩
  | 31 => ⟨S_, .i32⟩
  | 32 => ⟨S131072, .i32⟩
  | 33 => ⟨S131072, .i32⟩
  | 34 => ⟨S131072, .i32⟩
  | 35 => ⟨S131072x1, .i32⟩
  | 36 => ⟨S131072x256, .f32⟩
  | 37 => ⟨S131072x256, .f32⟩
  | 38 => ⟨S131072x256, .f32⟩
  | 39 => ⟨S_, .f32⟩
  | 40 => ⟨S4096x256, .f32⟩
  | 41 => ⟨S131072x1, .i32⟩
  | 42 => ⟨S4096x256, .f32⟩
  | 43 => ⟨S20480x1, .f32⟩
  | 44 => ⟨S_, .i32⟩
  | 45 => ⟨S20480, .i32⟩
  | 46 => ⟨S20480, .i1⟩
  | 47 => ⟨S_, .i32⟩
  | 48 => ⟨S20480, .i32⟩
  | 49 => ⟨S20480, .i32⟩
  | 50 => ⟨S20480, .i32⟩
  | 51 => ⟨S20480x1, .i32⟩
  | 52 => ⟨S20480x256, .f32⟩
  | 53 => ⟨S20480x256, .f32⟩
  | 54 => ⟨S20480x256, .f32⟩
  | 55 => ⟨S_, .f32⟩
  | 56 => ⟨S4096x256, .f32⟩
  | 57 => ⟨S20480x1, .i32⟩
  | 58 => ⟨S4096x256, .f32⟩
  | 59 => ⟨S4096x256, .f32⟩
  | 60 => ⟨S_, .f32⟩
  | 61 => ⟨S256, .f32⟩
  | 62 => ⟨S_, .f32⟩
  | 63 => ⟨S256, .f32⟩
  | 64 => ⟨S256, .f32⟩
  | 65 => ⟨S1x256, .f32⟩
  | 66 => ⟨S4096x256, .f32⟩
  | 67 => ⟨S4096x256, .f32⟩
  | 68 => ⟨S4096x256, .f32⟩
  | 69 => ⟨S_, .f32⟩
  | 70 => ⟨S256, .f32⟩
  | 71 => ⟨S_, .f32⟩
  | 72 => ⟨S256, .f32⟩
  | 73 => ⟨S256, .f32⟩
  | 74 => ⟨S1x256, .f32⟩
  | 75 => ⟨S4096x256, .f32⟩
  | 76 => ⟨S4096x256, .f32⟩
  | 77 => ⟨S_, .f32⟩
  | 78 => ⟨S256, .f32⟩
  | 79 => ⟨S256, .f32⟩
  | 80 => ⟨S256, .f32⟩
  | 81 => ⟨S1x256, .f32⟩
  | 82 => ⟨S4096x256, .f32⟩
  | 83 => ⟨S4096x256, .f32⟩
  | 84 => ⟨S1x256, .f32⟩
  | 85 => ⟨S4096x256, .f32⟩
  | 86 => ⟨S4096x256, .f32⟩
  | 87 => ⟨S1x256, .f32⟩
  | 88 => ⟨S4096x256, .f32⟩
  | 89 => ⟨S4096x256, .f32⟩
  | 90 => ⟨S_, .f32⟩
  | 91 => ⟨S4096x256, .f32⟩
  | 92 => ⟨S4096x256, .i1⟩
  | 93 => ⟨S_, .f32⟩
  | 94 => ⟨S4096x256, .f32⟩
  | 95 => ⟨S4096x256, .f32⟩
  | 96 => ⟨S4096x256, .f32⟩
  | 97 => ⟨S4096x256, .f32⟩
  | 98 => ⟨S1x256, .f32⟩
  | 99 => ⟨S4096x256, .f32⟩
  | 100 => ⟨S4096x256, .f32⟩
  | 101 => ⟨S131072x1, .f32⟩
  | 102 => ⟨S_, .i32⟩
  | 103 => ⟨S131072, .i32⟩
  | 104 => ⟨S131072, .i1⟩
  | 105 => ⟨S_, .i32⟩
  | 106 => ⟨S131072, .i32⟩
  | 107 => ⟨S131072, .i32⟩
  | 108 => ⟨S131072, .i32⟩
  | 109 => ⟨S131072x1, .i32⟩
  | 110 => ⟨S131072x256, .f32⟩
  | 111 => ⟨S131072x256, .f32⟩
  | 112 => ⟨S131072x256, .f32⟩
  | 113 => ⟨S_, .f32⟩
  | 114 => ⟨S4096x256, .f32⟩
  | 115 => ⟨S131072x1, .i32⟩
  | 116 => ⟨S4096x256, .f32⟩
  | 117 => ⟨S20480x1, .f32⟩
  | 118 => ⟨S_, .i32⟩
  | 119 => ⟨S20480, .i32⟩
  | 120 => ⟨S20480, .i1⟩
  | 121 => ⟨S_, .i32⟩
  | 122 => ⟨S20480, .i32⟩
  | 123 => ⟨S20480, .i32⟩
  | 124 => ⟨S20480, .i32⟩
  | 125 => ⟨S20480x1, .i32⟩
  | 126 => ⟨S20480x256, .f32⟩
  | 127 => ⟨S20480x256, .f32⟩
  | _ => ⟨S65536x256, .f32⟩

abbrev hbmTy0_1 (i : Nat) : BufTy := match i % 128 with
  | 0 => ⟨S20480x256, .f32⟩
  | 1 => ⟨S_, .f32⟩
  | 2 => ⟨S4096x256, .f32⟩
  | 3 => ⟨S20480x1, .i32⟩
  | 4 => ⟨S4096x256, .f32⟩
  | 5 => ⟨S4096x256, .f32⟩
  | 6 => ⟨S_, .f32⟩
  | 7 => ⟨S256, .f32⟩
  | 8 => ⟨S_, .f32⟩
  | 9 => ⟨S256, .f32⟩
  | 10 => ⟨S256, .f32⟩
  | 11 => ⟨S1x256, .f32⟩
  | 12 => ⟨S4096x256, .f32⟩
  | 13 => ⟨S4096x256, .f32⟩
  | 14 => ⟨S4096x256, .f32⟩
  | 15 => ⟨S_, .f32⟩
  | 16 => ⟨S256, .f32⟩
  | 17 => ⟨S_, .f32⟩
  | 18 => ⟨S256, .f32⟩
  | 19 => ⟨S256, .f32⟩
  | 20 => ⟨S1x256, .f32⟩
  | 21 => ⟨S4096x256, .f32⟩
  | 22 => ⟨S4096x256, .f32⟩
  | 23 => ⟨S_, .f32⟩
  | 24 => ⟨S256, .f32⟩
  | 25 => ⟨S256, .f32⟩
  | 26 => ⟨S256, .f32⟩
  | 27 => ⟨S1x256, .f32⟩
  | 28 => ⟨S4096x256, .f32⟩
  | 29 => ⟨S4096x256, .f32⟩
  | 30 => ⟨S1x256, .f32⟩
  | 31 => ⟨S4096x256, .f32⟩
  | 32 => ⟨S4096x256, .f32⟩
  | 33 => ⟨S1x256, .f32⟩
  | 34 => ⟨S4096x256, .f32⟩
  | 35 => ⟨S4096x256, .f32⟩
  | 36 => ⟨S_, .f32⟩
  | 37 => ⟨S4096x256, .f32⟩
  | 38 => ⟨S4096x256, .i1⟩
  | 39 => ⟨S_, .f32⟩
  | 40 => ⟨S4096x256, .f32⟩
  | 41 => ⟨S4096x256, .f32⟩
  | 42 => ⟨S4096x256, .f32⟩
  | 43 => ⟨S65536x256, .f32⟩
  | _ => ⟨S65536x256, .f32⟩

abbrev hbmTy (i : Nat) : BufTy := match i / 128 with
  | 0 => hbmTy0_0 i
  | 1 => hbmTy0_1 i
  | _ => ⟨S65536x256, .f32⟩

abbrev bufTy : (tb : Table) → Fin (tcTables nBuf tb) → BufTy
  | .hbm, ⟨i, _⟩ => hbmTy i
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_c_0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_1 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_2 : Ref sig .tc := ⟨.hbm, 44, rfl⟩
abbrev main_v24 : Ref sig .tc := ⟨.hbm, 45, rfl⟩
abbrev main_v25 : Ref sig .tc := ⟨.hbm, 46, rfl⟩
abbrev main_c_3 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_4 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_5 : Ref sig .tc := ⟨.hbm, 60, rfl⟩
abbrev main_v37 : Ref sig .tc := ⟨.hbm, 61, rfl⟩
abbrev main_cst_6 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_7 : Ref sig .tc := ⟨.hbm, 69, rfl⟩
abbrev main_v44 : Ref sig .tc := ⟨.hbm, 70, rfl⟩
abbrev main_cst_8 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_9 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_10 : Ref sig .tc := ⟨.hbm, 90, rfl⟩
abbrev main_v62 : Ref sig .tc := ⟨.hbm, 91, rfl⟩
abbrev main_v63 : Ref sig .tc := ⟨.hbm, 92, rfl⟩
abbrev main_cst_11 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_12 : Ref sig .tc := ⟨.hbm, 102, rfl⟩
abbrev main_v72 : Ref sig .tc := ⟨.hbm, 103, rfl⟩
abbrev main_v73 : Ref sig .tc := ⟨.hbm, 104, rfl⟩
abbrev main_c_13 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_14 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_c_15 : Ref sig .tc := ⟨.hbm, 118, rfl⟩
abbrev main_v85 : Ref sig .tc := ⟨.hbm, 119, rfl⟩
abbrev main_v86 : Ref sig .tc := ⟨.hbm, 120, rfl⟩
abbrev main_c_16 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_17 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_18 : Ref sig .tc := ⟨.hbm, 134, rfl⟩
abbrev main_v98 : Ref sig .tc := ⟨.hbm, 135, rfl⟩
abbrev main_cst_19 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_cst_20 : Ref sig .tc := ⟨.hbm, 143, rfl⟩
abbrev main_v105 : Ref sig .tc := ⟨.hbm, 144, rfl⟩
abbrev main_cst_21 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_cst_22 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_cst_23 : Ref sig .tc := ⟨.hbm, 164, rfl⟩
abbrev main_v123 : Ref sig .tc := ⟨.hbm, 165, rfl⟩
abbrev main_v124 : Ref sig .tc := ⟨.hbm, 166, rfl⟩
abbrev main_cst_24 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩

abbrev nD : Nat := 1
abbrev τ : Topo := Topo.v7x

variable {F : FTy → Type} [FloatOps F]

class Facts₀ : Prop where
  reducesTo_S65536x4096_S4096_d0 : S65536x4096.ReducesTo [0] S4096
  h_S_ : 0 < S_.numel
  bcast_S4096_S1x4096_1 : S4096.BroadcastsInDim S1x4096 (![1] : Fin 1 → Fin S1x4096.rank)
  bcast_S1x4096_S65536x4096_0_1 : S1x4096.BroadcastsInDim S65536x4096 (![0, 1] : Fin 2 → Fin S65536x4096.rank)
  transposes_S65536x4096_S4096x65536_1_0 : S65536x4096.Transposes [1, 0] S4096x65536
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S131072_S131072x1_0 : S131072.BroadcastsInDim S131072x1 (![0] : Fin 1 → Fin S131072x1.rank)
  bcast_S_S131072 : S_.BroadcastsInDim S131072 (![] : Fin 0 → Fin S131072.rank)
  bcast_S131072x1_S131072x256_0_1 : S131072x1.BroadcastsInDim S131072x256 (![0, 1] : Fin 2 → Fin S131072x256.rank)
  bcast_S_S4096x256 : S_.BroadcastsInDim S4096x256 (![] : Fin 0 → Fin S4096x256.rank)
  bcast_S20480_S20480x1_0 : S20480.BroadcastsInDim S20480x1 (![0] : Fin 1 → Fin S20480x1.rank)
  bcast_S_S20480 : S_.BroadcastsInDim S20480 (![] : Fin 0 → Fin S20480.rank)
  bcast_S20480x1_S20480x256_0_1 : S20480x1.BroadcastsInDim S20480x256 (![0, 1] : Fin 2 → Fin S20480x256.rank)
  reducesTo_S4096x256_S256_d0 : S4096x256.ReducesTo [0] S256
  bcast_S_S256 : S_.BroadcastsInDim S256 (![] : Fin 0 → Fin S256.rank)
  dot_S4096x65536_S65536x256_S4096x256_1_0_0_1_n_n_wf : DotDims.WF S4096x65536 S65536x256 S4096x256 [1] [0] [0] [1] [] []
  dot_S4096x256_S256x256_S4096x256_1_0_0_1_n_n_wf : DotDims.WF S4096x256 S256x256 S4096x256 [1] [0] [0] [1] [] []
  gather_S4096x256_S131072x1_S131072x256_1_0_n_n_0_1_1256_wf : GatherDims.WF S4096x256 S131072x1 S131072x256 [1] [0] [] [0] [] 1 ![1, 256]
  scatter_S4096x256_S131072x1_S131072x256_1_0_0_1_wf : ScatterDims.WF S4096x256 S131072x1 S131072x256 [1] [0] [0] 1
  gather_S4096x256_S20480x1_S20480x256_1_0_n_n_0_1_1256_wf : GatherDims.WF S4096x256 S20480x1 S20480x256 [1] [0] [] [0] [] 1 ![1, 256]
  scatter_S4096x256_S20480x1_S20480x256_1_0_0_1_wf : ScatterDims.WF S4096x256 S20480x1 S20480x256 [1] [0] [0] 1
  dot_S65536x4096_S4096x256_S65536x256_1_0_0_1_n_n_wf : DotDims.WF S65536x4096 S4096x256 S65536x256 [1] [0] [0] [1] [] []

variable [Facts₀]

def dot_S4096x65536_S65536x256_S4096x256_1_0_0_1_n_n : DotDims S4096x65536 S65536x256 S4096x256 where
  lhsContracting := [1]
  rhsContracting := [0]
  lhsNonContracting := [0]
  rhsNonContracting := [1]
  lhsBatch := []
  rhsBatch := []
  wf := dot_S4096x65536_S65536x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def gather_S4096x256_S131072x1_S131072x256_1_0_n_n_0_1_1256 : GatherDims S4096x256 S131072x1 S131072x256 where
  offsetDims := [1]
  collapsedSliceDims := [0]
  operandBatchingDims := []
  startIndicesBatchingDims := []
  startIndexMap := [0]
  indexVectorDim := 1
  sliceSizes := ![1, 256]
  wf := gather_S4096x256_S131072x1_S131072x256_1_0_n_n_0_1_1256_wf
def scatter_S4096x256_S131072x1_S131072x256_1_0_0_1 : ScatterDims S4096x256 S131072x1 S131072x256 where
  updateWindowDims := [1]
  insertedWindowDims := [0]
  scatterDimsToOperandDims := [0]
  indexVectorDim := 1
  wf := scatter_S4096x256_S131072x1_S131072x256_1_0_0_1_wf
def gather_S4096x256_S20480x1_S20480x256_1_0_n_n_0_1_1256 : GatherDims S4096x256 S20480x1 S20480x256 where
  offsetDims := [1]
  collapsedSliceDims := [0]
  operandBatchingDims := []
  startIndicesBatchingDims := []
  startIndexMap := [0]
  indexVectorDim := 1
  sliceSizes := ![1, 256]
  wf := gather_S4096x256_S20480x1_S20480x256_1_0_n_n_0_1_1256_wf
def scatter_S4096x256_S20480x1_S20480x256_1_0_0_1 : ScatterDims S4096x256 S20480x1 S20480x256 where
  updateWindowDims := [1]
  insertedWindowDims := [0]
  scatterDimsToOperandDims := [0]
  indexVectorDim := 1
  wf := scatter_S4096x256_S20480x1_S20480x256_1_0_0_1_wf
def dot_S65536x4096_S4096x256_S65536x256_1_0_0_1_n_n : DotDims S65536x4096 S4096x256 S65536x256 where
  lhsContracting := [1]
  rhsContracting := [0]
  lhsNonContracting := [0]
  rhsNonContracting := [1]
  lhsBatch := []
  rhsBatch := []
  wf := dot_S65536x4096_S4096x256_S65536x256_1_0_0_1_n_n_wf

class Facts : Prop extends Facts₀ where

variable [Facts]
-- ==== Proof.KBase.lean ====
/-
  The two kernels of the program, seen from their launches: what the pipeline hands each body (the
  windows' blocks of the arrays as a region finds them), when the first kernel's branch is taken (at
  the first grid point only: there the two accumulators are zeroed), the staging and scratch memrefs
  by name, and the region invariant opened into the two scratch accumulators and the generator
  register.
-/
import proofs.«165815_j54073638257172_1_alg».proof.Proof.Gen.Kernel.Launch
import proofs.«165815_j54073638257172_1_alg».proof.Proof.Gen.Kernel.Skeleton
import proofs.«165815_j54073638257172_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The first kernel: column sums and the transposed product, accumulated over 128 row blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The second kernel: one row block of the final product per point -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## The first kernel's branch: taken at the first point only -/

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 128 = 0 :=
  (by decide +kernel : ∀ t : Fin grid0.N, cond0_0 (grid0.coords t) ↔ t.val % 128 = 0)

/-- No window of the first kernel is ever idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

/-! ## Memrefs by name -/

abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4096 .f32 := win0_3.stage (cfg0.slots t 3)
abbrev hs0_3 (t : Fin cfg0.N) : (ms0_3 t).IsWhole := hstage0_3 ((cfg0.slots t 3).cast nbuf0_3)
abbrev scM0_0 : Memref sig .tc .vmem S4096x256 .f32 := Memref.whole cc0_scratch0
abbrev scM0_1 : Memref sig .tc .vmem S1x4096 .f32 := Memref.whole cc0_scratch1
abbrev VO0_2 : View sig .tc .vmem S4096x256 .f32 := (Memref.whole cc0_stg2_0 : Memref sig .tc .vmem S4096x256 .f32).view
abbrev VO0_3 : View sig .tc .vmem S1x4096 .f32 := (Memref.whole cc0_stg3_0 : Memref sig .tc .vmem S1x4096 .f32).view
abbrev VS0_0 : View sig .tc .vmem S4096x256 .f32 := scM0_0.view
abbrev VS0_1 : View sig .tc .vmem S1x4096 .f32 := scM0_1.view

/-- The scoped buffers the first kernel never names: the second kernel's staging buffers, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class invariant of the first region, opened: the two scratch accumulators at some contents, the
    buffers the kernel never names, the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 c) ∗ (∃ r, prngReg c r)) := by
  unfold Pipeline.ΦA rest0; rw [scopedRest0_eq]; simp only [scM0_0, scM0_1, owns_whole]; try rfl

end Cert.Kernel.Hand

end
-- ==== Proof.KRun0A.lean ====
/-
  The first kernel's body run once in the case "first grid point: the accumulators are zeroed, then added to": what its stores leave in the two output staging
  buffers and the two scratch accumulators, as pieces found by running the body.
-/
import proofs.«165815_j54073638257172_1_alg».proof.Proof.KBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first point (the branch taken): the scratch accumulators may hold anything; they are zeroed, the block's
    contribution added, and the results copied to the outputs' buffers. -/
noncomputable def kernelRun0_A (c : Dev nD) (i : grid0.Coords) (arg1 : Memref sig .tc .vmem S512x4096 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S4096x256 .f32) (harg5 : arg5.IsWhole) (arg6 : Memref sig .tc .vmem S1x4096 .f32) (harg6 : arg6.IsWhole) (hc0 : cond0_0 i)
    (x0 : Vec F S512x4096 .f32) (x1 : Vec F S512x256 .f32) :
    Σ' (L2 : List (View.Piece (Elt F) S4096x256 .f32)) (L3 : List (View.Piece (Elt F) S1x4096 .f32)) (LS0 : List (View.Piece (Elt F) S4096x256 .f32)), { LS1 : List (View.Piece (Elt F) S1x4096 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__hp_kernel i arg1 harg1 arg2 harg2 arg3 harg3 arg4 harg4 arg5 harg5 arg6 harg6) K } := by
  refine ⟨?_, ?_, ?_, ?_, fun E K => ?run⟩
  case run =>
    simp only [cc0__hp_kernel_eq_skeleton]; unfold cc0__hp_kernel_skel
    unfold owns
    iintro ⟨⟨%f0, %hf0, H0⟩, ⟨%f1, %hf1, H1⟩, ⟨%d2, %f2, -, H2⟩, ⟨%d3, %f3, -, H3⟩, ⟨%ds0, %fs0, -, HS0⟩, ⟨%ds1, %fs1, -, HS1⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.Kernel.Hand

end
-- ==== Proof.KRun0B.lean ====
/-
  The first kernel's body run once in the case "a later grid point: the accumulators hold what the point before left": what its stores leave in the two output staging
  buffers and the two scratch accumulators, as pieces found by running the body.
-/
import proofs.«165815_j54073638257172_1_alg».proof.Proof.KBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a later point (the branch not taken): the scratch accumulators hold `xs0`, `xs1`; the block's contribution is
    added and the results copied to the outputs' buffers. -/
noncomputable def kernelRun0_B (c : Dev nD) (i : grid0.Coords) (arg1 : Memref sig .tc .vmem S512x4096 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S4096x256 .f32) (harg5 : arg5.IsWhole) (arg6 : Memref sig .tc .vmem S1x4096 .f32) (harg6 : arg6.IsWhole) (hc0 : ¬cond0_0 i)
    (x0 : Vec F S512x4096 .f32) (x1 : Vec F S512x256 .f32) (xs0 : Vec F S4096x256 .f32) (xs1 : Vec F S1x4096 .f32) :
    Σ' (L2 : List (View.Piece (Elt F) S4096x256 .f32)) (L3 : List (View.Piece (Elt F) S1x4096 .f32)) (LS0 : List (View.Piece (Elt F) S4096x256 .f32)), { LS1 : List (View.Piece (Elt F) S1x4096 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__hp_kernel i arg1 harg1 arg2 harg2 arg3 harg3 arg4 harg4 arg5 harg5 arg6 harg6) K } := by
  refine ⟨?_, ?_, ?_, ?_, fun E K => ?run⟩
  case run =>
    simp only [cc0__hp_kernel_eq_skeleton]; unfold cc0__hp_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1; obtain rfl := harg5.eq_unread hfs0; obtain rfl := harg6.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.Kernel.Hand

end
-- ==== Proof.KFrame0.lean ====
/-
  The first region's proof data. After the body at grid point n the two output staging buffers and the two
  scratch accumulators hold the running sums over row blocks 0 … n: at point 0 the zeroed accumulators plus the
  first block's contribution, at point n+1 what point n left plus that block's. The region invariant carries the
  two scratch accumulators at those contents from one point to the next.
-/
import proofs.«165815_j54073638257172_1_alg».proof.Proof.KRun0A
import proofs.«165815_j54073638257172_1_alg».proof.Proof.KRun0B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem cover0_A_2 (c : Dev nD) (i : grid0.Coords) (arg1 : Memref sig .tc .vmem S512x4096 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S4096x256 .f32) (harg5 : arg5.IsWhole) (arg6 : Memref sig .tc .vmem S1x4096 .f32) (harg6 : arg6.IsWhole) (hc0 : cond0_0 i) (x0 : Vec F S512x4096 .f32) (x1 : Vec F S512x256 .f32) (y : S4096x256.Idx) :
    ∃ pc ∈ (kernelRun0_A c i arg1 harg1 arg2 harg2 arg3 harg3 arg4 harg4 arg5 harg5 arg6 harg6 hc0 x0 x1).1, y ∈ pc.1.set :=
  View.cover_of_tiledL (kernelRun0_A c i arg1 harg1 arg2 harg2 arg3 harg3 arg4 harg4 arg5 harg5 arg6 harg6 hc0 x0 x1).1 S4096x256.size (by sl_kernel_rfl) y

def out0_A_2 (c : Dev nD) (i : grid0.Coords) (arg1 : Memref sig .tc .vmem S512x4096 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S4096x256 .f32) (harg5 : arg5.IsWhole) (arg6 : Memref sig .tc .vmem S1x4096 .f32) (harg6 : arg6.IsWhole) (hc0 : cond0_0 i) (x0 : Vec F S512x4096 .f32) (x1 : Vec F S512x256 .f32) : Vec F S4096x256 .f32 :=
  VO0_2.read (Elt F) (VO0_2.writes (Elt F) VO0_2.junk (kernelRun0_A c i arg1 harg1 arg2 harg2 arg3 harg3 arg4 harg4 arg5 harg5 arg6 harg6 hc0 x0 x1).1)

theorem cover0_A_3 (c : Dev nD) (i : grid0.Coords) (arg1 : Memref sig .tc .vmem S512x4096 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S4096x256 .f32) (harg5 : arg5.IsWhole) (arg6 : Memref sig .tc .vmem S1x4096 .f32) (harg6 : arg6.IsWhole) (hc0 : cond0_0 i) (x0 : Vec F S512x4096 .f32) (x1 : Vec F S512x256 .f32) (y : S1x4096.Idx) :
    ∃ pc ∈ (kernelRun0_A c i arg1 harg1 arg2 harg2 arg3 harg3 arg4 harg4 arg5 harg5 arg6 harg6 hc0 x0 x1).2.1, y ∈ pc.1.set :=
  View.cover_of_tiledL (kernelRun0_A c i arg1 harg1 arg2 harg2 arg3 harg3 arg4 harg4 arg5 harg5 arg6 harg6 hc0 x0 x1).2.1 S1x4096.size (by sl_kernel_rfl) y

def out0_A_3 (c : Dev nD) (i : grid0.Coords) (arg1 : Memref sig .tc .vmem S512x4096 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S4096x256 .f32) (harg5 : arg5.IsWhole) (arg6 : Memref sig .tc .vmem S1x4096 .f32) (harg6 : arg6.IsWhole) (hc0 : cond0_0 i) (x0 : Vec F S512x4096 .f32) (x1 : Vec F S512x256 .f32) : Vec F S1x4096 .f32 :=
  VO0_3.read (Elt F) (VO0_3.writes (Elt F) VO0_3.junk (kernelRun0_A c i arg1 harg1 arg2 harg2 arg3 harg3 arg4 harg4 arg5 harg5 arg6 harg6 hc0 x0 x1).2.1)

theorem scover0_A_0 (c : Dev nD) (i : grid0.Coords) (arg1 : Memref sig .tc .vmem S512x4096 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S4096x256 .f32) (harg5 : arg5.IsWhole) (arg6 : Memref sig .tc .vmem S1x4096 .f32) (harg6 : arg6.IsWhole) (hc0 : cond0_0 i) (x0 : Vec F S512x4096 .f32) (x1 : Vec F S512x256 .f32) (y : S4096x256.Idx) :
    ∃ pc ∈ (kernelRun0_A c i arg1 harg1 arg2 harg2 arg3 harg3 arg4 harg4 arg5 harg5 arg6 harg6 hc0 x0 x1).2.2.1, y ∈ pc.1.set :=
  View.cover_of_tiledL (kernelRun0_A c i arg1 harg1 arg2 harg2 arg3 harg3 arg4 harg4 arg5 harg5 arg6 harg6 hc0 x0 x1).2.2.1 S4096x256.size (by sl_kernel_rfl) y

def sout0_A_0 (c : Dev nD) (i : grid0.Coords) (arg1 : Memref sig .tc .vmem S512x4096 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S4096x256 .f32) (harg5 : arg5.IsWhole) (arg6 : Memref sig .tc .vmem S1x4096 .f32) (harg6 : arg6.IsWhole) (hc0 : cond0_0 i) (x0 : Vec F S512x4096 .f32) (x1 : Vec F S512x256 .f32) : Vec F S4096x256 .f32 :=
  VS0_0.read (Elt F) (VS0_0.writes (Elt F) VS0_0.junk (kernelRun0_A c i arg1 harg1 arg2 harg2 arg3 harg3 arg4 harg4 arg5 harg5 arg6 harg6 hc0 x0 x1).2.2.1)

theorem scover0_A_1 (c : Dev nD) (i : grid0.Coords) (arg1 : Memref sig .tc .vmem S512x4096 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S4096x256 .f32) (harg5 : arg5.IsWhole) (arg6 : Memref sig .tc .vmem S1x4096 .f32) (harg6 : arg6.IsWhole) (hc0 : cond0_0 i) (x0 : Vec F S512x4096 .f32) (x1 : Vec F S512x256 .f32) (y : S1x4096.Idx) :
    ∃ pc ∈ (kernelRun0_A c i arg1 harg1 arg2 harg2 arg3 harg3 arg4 harg4 arg5 harg5 arg6 harg6 hc0 x0 x1).2.2.2.1, y ∈ pc.1.set :=
  View.cover_of_tiledL (kernelRun0_A c i arg1 harg1 arg2 harg2 arg3 harg3 arg4 harg4 arg5 harg5 arg6 harg6 hc0 x0 x1).2.2.2.1 S1x4096.size (by sl_kernel_rfl) y

def sout0_A_1 (c : Dev nD) (i : grid0.Coords) (arg1 : Memref sig .tc .vmem S512x4096 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S4096x256 .f32) (harg5 : arg5.IsWhole) (arg6 : Memref sig .tc .vmem S1x4096 .f32) (harg6 : arg6.IsWhole) (hc0 : cond0_0 i) (x0 : Vec F S512x4096 .f32) (x1 : Vec F S512x256 .f32) : Vec F S1x4096 .f32 :=
  VS0_1.read (Elt F) (VS0_1.writes (Elt F) VS0_1.junk (kernelRun0_A c i arg1 harg1 arg2 harg2 arg3 harg3 arg4 harg4 arg5 harg5 arg6 harg6 hc0 x0 x1).2.2.2.1)

theorem cover0_B_2 (c : Dev nD) (i : grid0.Coords) (arg1 : Memref sig .tc .vmem S512x4096 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S4096x256 .f32) (harg5 : arg5.IsWhole) (arg6 : Memref sig .tc .vmem S1x4096 .f32) (harg6 : arg6.IsWhole) (hc0 : ¬cond0_0 i) (x0 : Vec F S512x4096 .f32) (x1 : Vec F S512x256 .f32) (xs0 : Vec F S4096x256 .f32) (xs1 : Vec F S1x4096 .f32) (y : S4096x256.Idx) :
    ∃ pc ∈ (kernelRun0_B c i arg1 harg1 arg2 harg2 arg3 harg3 arg4 harg4 arg5 harg5 arg6 harg6 hc0 x0 x1 xs0 xs1).1, y ∈ pc.1.set :=
  View.cover_of_tiledL (kernelRun0_B c i arg1 harg1 arg2 harg2 arg3 harg3 arg4 harg4 arg5 harg5 arg6 harg6 hc0 x0 x1 xs0 xs1).1 S4096x256.size (by sl_kernel_rfl) y

def out0_B_2 (c : Dev nD) (i : grid0.Coords) (arg1 : Memref sig .tc .vmem S512x4096 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S4096x256 .f32) (harg5 : arg5.IsWhole) (arg6 : Memref sig .tc .vmem S1x4096 .f32) (harg6 : arg6.IsWhole) (hc0 : ¬cond0_0 i) (x0 : Vec F S512x4096 .f32) (x1 : Vec F S512x256 .f32) (xs0 : Vec F S4096x256 .f32) (xs1 : Vec F S1x4096 .f32) : Vec F S4096x256 .f32 :=
  VO0_2.read (Elt F) (VO0_2.writes (Elt F) VO0_2.junk (kernelRun0_B c i arg1 harg1 arg2 harg2 arg3 harg3 arg4 harg4 arg5 harg5 arg6 harg6 hc0 x0 x1 xs0 xs1).1)

theorem cover0_B_3 (c : Dev nD) (i : grid0.Coords) (arg1 : Memref sig .tc .vmem S512x4096 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S4096x256 .f32) (harg5 : arg5.IsWhole) (arg6 : Memref sig .tc .vmem S1x4096 .f32) (harg6 : arg6.IsWhole) (hc0 : ¬cond0_0 i) (x0 : Vec F S512x4096 .f32) (x1 : Vec F S512x256 .f32) (xs0 : Vec F S4096x256 .f32) (xs1 : Vec F S1x4096 .f32) (y : S1x4096.Idx) :
    ∃ pc ∈ (kernelRun0_B c i arg1 harg1 arg2 harg2 arg3 harg3 arg4 harg4 arg5 harg5 arg6 harg6 hc0 x0 x1 xs0 xs1).2.1, y ∈ pc.1.set :=
  View.cover_of_tiledL (kernelRun0_B c i arg1 harg1 arg2 harg2 arg3 harg3 arg4 harg4 arg5 harg5 arg6 harg6 hc0 x0 x1 xs0 xs1).2.1 S1x4096.size (by sl_kernel_rfl) y

def out0_B_3 (c : Dev nD) (i : grid0.Coords) (arg1 : Memref sig .tc .vmem S512x4096 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S4096x256 .f32) (harg5 : arg5.IsWhole) (arg6 : Memref sig .tc .vmem S1x4096 .f32) (harg6 : arg6.IsWhole) (hc0 : ¬cond0_0 i) (x0 : Vec F S512x4096 .f32) (x1 : Vec F S512x256 .f32) (xs0 : Vec F S4096x256 .f32) (xs1 : Vec F S1x4096 .f32) : Vec F S1x4096 .f32 :=
  VO0_3.read (Elt F) (VO0_3.writes (Elt F) VO0_3.junk (kernelRun0_B c i arg1 harg1 arg2 harg2 arg3 harg3 arg4 harg4 arg5 harg5 arg6 harg6 hc0 x0 x1 xs0 xs1).2.1)

theorem scover0_B_0 (c : Dev nD) (i : grid0.Coords) (arg1 : Memref sig .tc .vmem S512x4096 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S4096x256 .f32) (harg5 : arg5.IsWhole) (arg6 : Memref sig .tc .vmem S1x4096 .f32) (harg6 : arg6.IsWhole) (hc0 : ¬cond0_0 i) (x0 : Vec F S512x4096 .f32) (x1 : Vec F S512x256 .f32) (xs0 : Vec F S4096x256 .f32) (xs1 : Vec F S1x4096 .f32) (y : S4096x256.Idx) :
    ∃ pc ∈ (kernelRun0_B c i arg1 harg1 arg2 harg2 arg3 harg3 arg4 harg4 arg5 harg5 arg6 harg6 hc0 x0 x1 xs0 xs1).2.2.1, y ∈ pc.1.set :=
  View.cover_of_tiledL (kernelRun0_B c i arg1 harg1 arg2 harg2 arg3 harg3 arg4 harg4 arg5 harg5 arg6 harg6 hc0 x0 x1 xs0 xs1).2.2.1 S4096x256.size (by sl_kernel_rfl) y

def sout0_B_0 (c : Dev nD) (i : grid0.Coords) (arg1 : Memref sig .tc .vmem S512x4096 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S4096x256 .f32) (harg5 : arg5.IsWhole) (arg6 : Memref sig .tc .vmem S1x4096 .f32) (harg6 : arg6.IsWhole) (hc0 : ¬cond0_0 i) (x0 : Vec F S512x4096 .f32) (x1 : Vec F S512x256 .f32) (xs0 : Vec F S4096x256 .f32) (xs1 : Vec F S1x4096 .f32) : Vec F S4096x256 .f32 :=
  VS0_0.read (Elt F) (VS0_0.writes (Elt F) VS0_0.junk (kernelRun0_B c i arg1 harg1 arg2 harg2 arg3 harg3 arg4 harg4 arg5 harg5 arg6 harg6 hc0 x0 x1 xs0 xs1).2.2.1)

theorem scover0_B_1 (c : Dev nD) (i : grid0.Coords) (arg1 : Memref sig .tc .vmem S512x4096 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S4096x256 .f32) (harg5 : arg5.IsWhole) (arg6 : Memref sig .tc .vmem S1x4096 .f32) (harg6 : arg6.IsWhole) (hc0 : ¬cond0_0 i) (x0 : Vec F S512x4096 .f32) (x1 : Vec F S512x256 .f32) (xs0 : Vec F S4096x256 .f32) (xs1 : Vec F S1x4096 .f32) (y : S1x4096.Idx) :
    ∃ pc ∈ (kernelRun0_B c i arg1 harg1 arg2 harg2 arg3 harg3 arg4 harg4 arg5 harg5 arg6 harg6 hc0 x0 x1 xs0 xs1).2.2.2.1, y ∈ pc.1.set :=
  View.cover_of_tiledL (kernelRun0_B c i arg1 harg1 arg2 harg2 arg3 harg3 arg4 harg4 arg5 harg5 arg6 harg6 hc0 x0 x1 xs0 xs1).2.2.2.1 S1x4096.size (by sl_kernel_rfl) y

def sout0_B_1 (c : Dev nD) (i : grid0.Coords) (arg1 : Memref sig .tc .vmem S512x4096 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S4096x256 .f32) (harg5 : arg5.IsWhole) (arg6 : Memref sig .tc .vmem S1x4096 .f32) (harg6 : arg6.IsWhole) (hc0 : ¬cond0_0 i) (x0 : Vec F S512x4096 .f32) (x1 : Vec F S512x256 .f32) (xs0 : Vec F S4096x256 .f32) (xs1 : Vec F S1x4096 .f32) : Vec F S1x4096 .f32 :=
  VS0_1.read (Elt F) (VS0_1.writes (Elt F) VS0_1.junk (kernelRun0_B c i arg1 harg1 arg2 harg2 arg3 harg3 arg4 harg4 arg5 harg5 arg6 harg6 hc0 x0 x1 xs0 xs1).2.2.2.1)

section Regions
variable (V : (c : Dev nD) → (b : Ref sig .tc) → Buf (Elt F) ((c : Thread nD τ).loc b))

theorem N0_eq : cfg0.N = 128 := N_0

theorem hcA (t : Fin cfg0.N) (h0 : t.val % 128 = 0) : cond0_0 (grid0.coords t) := (hcond0_0 t).mpr h0
theorem hcB (t : Fin cfg0.N) (h0 : ¬ t.val % 128 = 0) : ¬ cond0_0 (grid0.coords t) := fun h => h0 ((hcond0_0 t).mp h)

/-- THE ACCUMULATION: the outputs' staging buffers (first two components) and the scratch accumulators (last two)
    after the body at position `n`. -/
def outsAt0 (c : Dev nD) : (n : ℕ) → n < cfg0.N → Vec F S4096x256 .f32 × Vec F S1x4096 .f32 × Vec F S4096x256 .f32 × Vec F S1x4096 .f32
  | 0, hn =>
    (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) (hcA ⟨0, hn⟩ (Nat.zero_mod _)) (iblk0 V c 0 ⟨0, hn⟩) (iblk0 V c 1 ⟨0, hn⟩),
     out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) (hcA ⟨0, hn⟩ (Nat.zero_mod _)) (iblk0 V c 0 ⟨0, hn⟩) (iblk0 V c 1 ⟨0, hn⟩),
     sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) (hcA ⟨0, hn⟩ (Nat.zero_mod _)) (iblk0 V c 0 ⟨0, hn⟩) (iblk0 V c 1 ⟨0, hn⟩),
     sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) (hcA ⟨0, hn⟩ (Nat.zero_mod _)) (iblk0 V c 0 ⟨0, hn⟩) (iblk0 V c 1 ⟨0, hn⟩))
  | n + 1, hn =>
    have hB : ¬ (⟨n + 1, hn⟩ : Fin cfg0.N).val % 128 = 0 := by
      have hN : n + 1 < 128 := lt_of_lt_of_eq hn N0_eq
      show ¬ (n + 1) % 128 = 0
      omega
    (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (hcB ⟨n + 1, hn⟩ hB) (iblk0 V c 0 ⟨n + 1, hn⟩) (iblk0 V c 1 ⟨n + 1, hn⟩) (outsAt0 c n (Nat.lt_of_succ_lt hn)).2.2.1 (outsAt0 c n (Nat.lt_of_succ_lt hn)).2.2.2,
     out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (hcB ⟨n + 1, hn⟩ hB) (iblk0 V c 0 ⟨n + 1, hn⟩) (iblk0 V c 1 ⟨n + 1, hn⟩) (outsAt0 c n (Nat.lt_of_succ_lt hn)).2.2.1 (outsAt0 c n (Nat.lt_of_succ_lt hn)).2.2.2,
     sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (hcB ⟨n + 1, hn⟩ hB) (iblk0 V c 0 ⟨n + 1, hn⟩) (iblk0 V c 1 ⟨n + 1, hn⟩) (outsAt0 c n (Nat.lt_of_succ_lt hn)).2.2.1 (outsAt0 c n (Nat.lt_of_succ_lt hn)).2.2.2,
     sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (hcB ⟨n + 1, hn⟩ hB) (iblk0 V c 0 ⟨n + 1, hn⟩) (iblk0 V c 1 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 128 = 0) :
    outsAt0 V c t.val t.isLt =
      (out0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (hcA t h0) (iblk0 V c 0 t) (iblk0 V c 1 t),
       out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (hcA t h0) (iblk0 V c 0 t) (iblk0 V c 1 t),
       sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (hcA t h0) (iblk0 V c 0 t) (iblk0 V c 1 t),
       sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (hcA t h0) (iblk0 V c 0 t) (iblk0 V c 1 t)) := by
  obtain ⟨n, hn⟩ := t
  cases n with
  | zero => exact rfl
  | succ n => exfalso; have hN : n + 1 < 128 := lt_of_lt_of_eq hn N0_eq; (try dsimp only at h0); omega

theorem outsAt0_B (c : Dev nD) (t : Fin cfg0.N) (h0 : ¬ t.val % 128 = 0) :
    outsAt0 V c t.val t.isLt =
      (out0_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (hcB t h0) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2,
       out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (hcB t h0) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2,
       sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (hcB t h0) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2,
       sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (hcB t h0) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact absurd (Nat.zero_mod _) h0
  | succ n => exact rfl

/-- The region invariant before position `n`: before the first point the class's (every scratch at anything);
    afterwards the two scratch accumulators at what the point before left, the rest untouched. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ rest0 c) ∗ (∃ r, prngReg c r)) := by
  cases n with
  | zero => exact absurd rfl hz
  | succ n => rfl

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare ((outsAt0 V c t.val t.isLt).1) := by
  unfold Dat.leavesExact; rw [liveAt0_2 t, after0_2]
theorem leaves0_3 (c : Dev nD) (t : Fin cfg0.N) : (dat0 V c).leavesExact 3 t = owns (c : Thread nD τ) (ms0_3 t) fullShare ((outsAt0 V c t.val t.isLt).2.1) := by
  unfold Dat.leavesExact; rw [liveAt0_3 t, after0_3]

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2, leaves0_3]
  have hN : t.val < 128 := lt_of_lt_of_eq t.isLt N0_eq
  by_cases h0 : t.val % 128 = 0
  · have hz : t.val = 0 := by omega
    rw [outsAt0_A V c t h0]
    unfold out0_A_2 out0_A_3 sout0_A_0 sout0_A_1; (try dsimp only)
    rw [PhiS_castSucc V c t, PhiS_zero V c _ _ hz, PhiA0_eq]
    iintro ⟨⟨⟨HS0, HS1, Hrest⟩, Hg⟩, Ho, ⟨%d0, H0⟩, ⟨%d1, H1⟩, ⟨%d2, H2⟩, ⟨%d3, H3⟩⟩
    iapply ((kernelRun0_A c (grid0.coords t) _ _ _ _ _ _ _ _ _ _ _ _ (hcA t h0) (iblk0 V c 0 t) (iblk0 V c 1 t)).2.2.2.2 Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, ⟨%e2, H2⟩, ⟨%e3, H3⟩, ⟨%es0, HS0⟩, ⟨%es1, HS1⟩⟩
    isplitl [HS0 HS1 Hrest Hg]
    · isplitl [HS0 HS1 Hrest]
      · isplitl [HS0]
        · unfold owns; iexists _; isplitr
          swap; · iexact HS0
          ipureintro; exact View.read_writes_of_cover _ _ _ _ _ (scover0_A_0 c _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _)
        iexact Hrest
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _ _ _)
    unfold owns; iexists _; isplitr
    swap; · iexact H3
    ipureintro; exact View.read_writes_of_cover _ _ _ _ _ (cover0_A_3 c _ _ _ _ _ _ _ _ _ _ _ _ _ _ _ _)
  · have hz : t.val ≠ 0 := by intro h; rw [h] at h0; exact h0 (Nat.zero_mod _)
    rw [outsAt0_B V c t h0]
    unfold out0_B_2 out0_B_3 sout0_B_0 sout0_B_1; (try dsimp only)
    rw [PhiS_castSucc V c t, PhiS_pos V c _ _ hz]
    iintro ⟨⟨⟨HS0, HS1, Hrest⟩, Hg⟩, Ho, ⟨%d0, H0⟩, ⟨%d1, H1⟩, ⟨%d2, H2⟩, ⟨%d3, H3⟩⟩
    iapply ((kernelRun0_B c (grid0.coords t) _ _ _ _ _ _ _ _ _ _ _ _ (hcB t h0) (iblk0 V c 0 t) (iblk0 V c 1 t) _ _).2.2.2.2 Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, ⟨%e2, H2⟩, ⟨%e3, H3⟩, ⟨%es0, HS0⟩, ⟨%es1, HS1⟩⟩
    isplitl [HS0 HS1 Hrest Hg]
    · isplitl [HS0 HS1 Hrest]
      · isplitl [HS0]
        · unfold owns; iexists _; isplitr
          swap; · iexact HS0
          ipureintro; exact View.read_writes_of_cover _ _ _ _ _ (scover0_B_0 c _ _ _ _ _ _ _ _ _ _ _ _ _ _ _ _ _ _)
        isplitl [HS1]
        · unfold owns; iexists _; isplitr
          swap; · iexact HS1
          ipureintro; exact View.read_writes_of_cover _ _ _ _ _ (scover0_B_1 c _ _ _ _ _ _ _ _ _ _ _ _ _ _ _ _ _ _)
        iexact Hrest
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _ _ _)
    unfold owns; iexists _; isplitr
    swap; · iexact H3
    ipureintro; exact View.read_writes_of_cover _ _ _ _ _ (cover0_B_3 c _ _ _ _ _ _ _ _ _ _ _ _ _ _ _ _ _ _)

set_option maxHeartbeats 4000000 in
theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hrest⟩, Hg⟩
  isplitl [HS0 HS1 Hrest]
  · isplitl [HS0]; · iexists _; iexact HS0
    isplitl [HS1]; · iexists _; iexact HS1
    iexact Hrest
  iexact Hg

theorem hout0 (c : Dev nD) : (dat0 V c).Φ (Fin.last cfg0.N) ⊢ Pipeline.ΦA spec0 c :=
  Phi_out0 V c _ (by rw [Fin.val_last]; have : cfg0.N = 128 := N_0; omega)

end Regions

end Cert.Kernel.Hand

end
-- ==== Proof.KRun1.lean ====
/-
  The second kernel's body run once: what its store leaves in the output staging buffer, as a piece found by
  running the body (one row block of Q times the whole of h).
-/
import proofs.«165815_j54073638257172_1_alg».proof.Proof.KBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1 (c : Dev nD) (i : grid1.Coords) (arg1 : Memref sig .tc .vmem S512x4096 .f32) (harg1 : arg1.IsWhole) (arg2 : Memref sig .tc .vmem S4096x256 .f32) (harg2 : arg2.IsWhole) (arg3 : Memref sig .tc .vmem S512x256 .f32) (harg3 : arg3.IsWhole)
    (x0 : Vec F S512x4096 .f32) (x1 : Vec F S4096x256 .f32) :
    { L2 : List (View.Piece (Elt F) S512x256 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc1__proj_kernel i arg1 harg1 arg2 harg2 arg3 harg3) K } := by
  refine ⟨?_, fun E K => ?run⟩
  case run =>
    simp only [cc1__proj_kernel_eq_skeleton]; unfold cc1__proj_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Hand

end
-- ==== Proof.KFrame1.lean ====
/-
  The second region's proof data: at each grid point the output staging buffer holds the product of that
  point's row block of Q with the whole of h.
-/
import proofs.«165815_j54073638257172_1_alg».proof.Proof.KRun1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev ms1_0 (t : Fin cfg1.N) : Memref sig .tc .vmem S512x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x256 .f32 := win1_2.stage (cfg1.slots t 2)
abbrev hs1_2 (t : Fin cfg1.N) : (ms1_2 t).IsWhole := hstage1_2 ((cfg1.slots t 2).cast nbuf1_2)
abbrev VO1_2 : View sig .tc .vmem S512x256 .f32 := (Memref.whole cc1_stg2_0 : Memref sig .tc .vmem S512x256 .f32).view

theorem cover1_2 (c : Dev nD) (i : grid1.Coords) (arg1 : Memref sig .tc .vmem S512x4096 .f32) (harg1 : arg1.IsWhole) (arg2 : Memref sig .tc .vmem S4096x256 .f32) (harg2 : arg2.IsWhole) (arg3 : Memref sig .tc .vmem S512x256 .f32) (harg3 : arg3.IsWhole)
    (x0 : Vec F S512x4096 .f32) (x1 : Vec F S4096x256 .f32) (y : S512x256.Idx) :
    ∃ pc ∈ (kernelRun1 c i arg1 harg1 arg2 harg2 arg3 harg3 x0 x1).1, y ∈ pc.1.set :=
  View.cover_of_tiledL (kernelRun1 c i arg1 harg1 arg2 harg2 arg3 harg3 x0 x1).1 S512x256.size (by sl_kernel_rfl) y

def out1_2 (c : Dev nD) (i : grid1.Coords) (arg1 : Memref sig .tc .vmem S512x4096 .f32) (harg1 : arg1.IsWhole) (arg2 : Memref sig .tc .vmem S4096x256 .f32) (harg2 : arg2.IsWhole) (arg3 : Memref sig .tc .vmem S512x256 .f32) (harg3 : arg3.IsWhole)
    (x0 : Vec F S512x4096 .f32) (x1 : Vec F S4096x256 .f32) : Vec F S512x256 .f32 :=
  VO1_2.read (Elt F) (VO1_2.writes (Elt F) VO1_2.junk (kernelRun1 c i arg1 harg1 arg2 harg2 arg3 harg3 x0 x1).1)

section Regions
variable (V : (c : Dev nD) → (b : Ref sig .tc) → Buf (Elt F) ((c : Thread nD τ).loc b))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 c (grid1.coords t) (ms1_0 t) (hs1_0 t) (ms1_1 t) (hs1_1 t) (ms1_2 t) (hs1_2 t) (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 c (grid1.coords t) (ms1_0 t) (hs1_0 t) (ms1_1 t) (hs1_1 t) (ms1_2 t) (hs1_2 t) (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (out1_2 c (grid1.coords t) (ms1_0 t) (hs1_0 t) (ms1_1 t) (hs1_1 t) (ms1_2 t) (hs1_2 t) (iblk1 V c 0 t) (iblk1 V c 1 t)) := by
  unfold Dat.leavesExact; rw [liveAt1_2 t, after1_2]

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl]
  rw [leaves1_0, leaves1_1, leaves1_2]
  unfold out1_2; (try dsimp only)
  iintro ⟨HΦ, Ho, ⟨%d0, H0⟩, ⟨%d1, H1⟩, ⟨%d2, H2⟩⟩
  iapply ((kernelRun1 c (grid1.coords t) _ _ _ _ _ _ (iblk1 V c 0 t) (iblk1 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover1_2 c _ _ _ _ _ _ _ _ _)

set_option maxHeartbeats 4000000 in
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.KMain.lean ====
/-
  The whole program's run. @main is: the first region (column sums and the transposed product), four stretches
  of host operations (the quotient, then the two message-passing layers), the second region (the final product).
  The buffer contents at each boundary are a fold from the launch memory; each region is entered from every
  unscoped buffer at the boundary's contents and left with its arrays at what its write-backs leave. At the end
  every unscoped buffer holds the last boundary's contents, and no step writes an argument array.
-/
import proofs.«165815_j54073638257172_1_alg».proof.Proof.KFrame0
import proofs.«165815_j54073638257172_1_alg».proof.Proof.KFrame1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After each stretch of host operations. -/
abbrev W2 : Dev nD → Valuation τ sig (Elt F) := fun c => StableHlo.after hostOps1 (W1 m ρ c)
abbrev W3 : Dev nD → Valuation τ sig (Elt F) := fun c => StableHlo.after hostOps1_1 (W2 m ρ c)
abbrev W4 : Dev nD → Valuation τ sig (Elt F) := fun c => StableHlo.after hostOps1_2 (W3 m ρ c)
abbrev W5 : Dev nD → Valuation τ sig (Elt F) := fun c => StableHlo.after hostOps1_3 (W4 m ρ c)
abbrev V5 : (c : Dev nD) → (b : Ref sig .tc) → Buf (Elt F) ((c : Thread nD τ).loc b) := fun c b => W5 m ρ c b
/-- At the second region's exit. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-! ### No host operation writes an argument array (arguments are the first sixteen HBM buffers) -/

/-- An argument of @main: one of the first sixteen buffers in HBM. -/
def isArg (b : Ref sig .tc) : Bool := decide (b.space = .hbm) && decide (b.idx.val < 16)
theorem ne_of_isArg {b b' : Ref sig .tc} (h : isArg b = true) (h' : isArg b' = false) : b ≠ b' :=
  fun e => by subst e; rw [h] at h'; exact Bool.noConfusion h'

set_option maxHeartbeats 4000000 in
theorem nw1 (b : Ref sig .tc) (hb : isArg b = true) : ∀ op ∈ (hostOps1 : List (HloOp τ sig (Elt F))), Proc.devRef .tc b ∉ op.writes := by
  refine (List.forall_iff_forall_mem (p := fun op : HloOp τ sig (Elt F) => Proc.devRef .tc b ∉ op.writes)).mp ?_
  simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (ne_of_isArg hb (by decide))
set_option maxHeartbeats 4000000 in
theorem nw1_1 (b : Ref sig .tc) (hb : isArg b = true) : ∀ op ∈ (hostOps1_1 : List (HloOp τ sig (Elt F))), Proc.devRef .tc b ∉ op.writes := by
  refine (List.forall_iff_forall_mem (p := fun op : HloOp τ sig (Elt F) => Proc.devRef .tc b ∉ op.writes)).mp ?_
  simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (ne_of_isArg hb (by decide))
set_option maxHeartbeats 4000000 in
theorem nw1_2 (b : Ref sig .tc) (hb : isArg b = true) : ∀ op ∈ (hostOps1_2 : List (HloOp τ sig (Elt F))), Proc.devRef .tc b ∉ op.writes := by
  refine (List.forall_iff_forall_mem (p := fun op : HloOp τ sig (Elt F) => Proc.devRef .tc b ∉ op.writes)).mp ?_
  simp only [hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (ne_of_isArg hb (by decide))
set_option maxHeartbeats 4000000 in
theorem nw1_3 (b : Ref sig .tc) (hb : isArg b = true) : ∀ op ∈ (hostOps1_3 : List (HloOp τ sig (Elt F))), Proc.devRef .tc b ∉ op.writes := by
  refine (List.forall_iff_forall_mem (p := fun op : HloOp τ sig (Elt F) => Proc.devRef .tc b ∉ op.writes)).mp ?_
  simp only [hostOps1_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (ne_of_isArg hb (by decide))

/-- An argument no window of the second region stages and no host operation writes: as at the first region's exit. -/
theorem W5_arg (c : Dev nD) (b : Ref sig .tc) (hb : isArg b = true) : W5 m ρ c (Proc.devRef .tc b) = W1 m ρ c (Proc.devRef .tc b) :=
  calc W5 m ρ c (Proc.devRef .tc b)
    _ = W4 m ρ c (Proc.devRef .tc b) := StableHlo.after_of_forall_not_mem (b := Proc.devRef .tc b) _ _ (nw1_3 b hb)
    _ = W3 m ρ c (Proc.devRef .tc b) := StableHlo.after_of_forall_not_mem (b := Proc.devRef .tc b) _ _ (nw1_2 b hb)
    _ = W2 m ρ c (Proc.devRef .tc b) := StableHlo.after_of_forall_not_mem (b := Proc.devRef .tc b) _ _ (nw1_1 b hb)
    _ = W1 m ρ c (Proc.devRef .tc b) := StableHlo.after_of_forall_not_mem (b := Proc.devRef .tc b) _ _ (nw1 b hb)

/-- The two staged arguments (x through window 1 and Q through window 0 of the first region; Q again through
    window 0 of the second) end as launched: an input window's array is never written. -/
theorem W1_main_arg1 (c : Dev nD) : W1 m ρ c (Proc.devRef .tc main_arg1) = m ((c : Thread nD τ).loc main_arg1) :=
  (W1_arr m ρ c 0).trans (((dat0 (V0 m ρ) c).arrAt_in 0 rfl _).trans (A_eq0 (V0 m ρ) c 0))
theorem W1_main_arg0 (c : Dev nD) : W1 m ρ c (Proc.devRef .tc main_arg0) = m ((c : Thread nD τ).loc main_arg0) :=
  (W1_arr m ρ c 1).trans (((dat0 (V0 m ρ) c).arrAt_in 1 rfl _).trans (A_eq0 (V0 m ρ) c 1))
theorem W1_other (c : Dev nD) (b : Ref sig .tc) (hb : ∀ w, Pipeline.arrRef spec0 w ≠ b) : W1 m ρ c (Proc.devRef .tc b) = m ((c : Thread nD τ).loc b) :=
  W1_of_ne m ρ c b hb

theorem W6_main_arg1 (c : Dev nD) : W6 m ρ c (Proc.devRef .tc main_arg1) = m ((c : Thread nD τ).loc main_arg1) :=
  (W6_arr m ρ c 0).trans (((dat1 (V5 m ρ) c).arrAt_in 0 rfl _).trans ((A_eq1 (V5 m ρ) c 0).trans ((W5_arg m ρ c main_arg1 (by decide)).trans (W1_main_arg1 m ρ c))))
theorem W6_main_arg0 (c : Dev nD) : W6 m ρ c (Proc.devRef .tc main_arg0) = m ((c : Thread nD τ).loc main_arg0) :=
  (W6_of_ne m ρ c main_arg0 (by decide)).trans ((W5_arg m ρ c main_arg0 (by decide)).trans (W1_main_arg0 m ρ c))
theorem W6_main_arg2 (c : Dev nD) : W6 m ρ c (Proc.devRef .tc main_arg2) = m ((c : Thread nD τ).loc main_arg2) :=
  (W6_of_ne m ρ c main_arg2 (by decide)).trans ((W5_arg m ρ c main_arg2 (by decide)).trans (W1_other m ρ c main_arg2 (by decide)))
theorem W6_main_arg3 (c : Dev nD) : W6 m ρ c (Proc.devRef .tc main_arg3) = m ((c : Thread nD τ).loc main_arg3) :=
  (W6_of_ne m ρ c main_arg3 (by decide)).trans ((W5_arg m ρ c main_arg3 (by decide)).trans (W1_other m ρ c main_arg3 (by decide)))
theorem W6_main_arg4 (c : Dev nD) : W6 m ρ c (Proc.devRef .tc main_arg4) = m ((c : Thread nD τ).loc main_arg4) :=
  (W6_of_ne m ρ c main_arg4 (by decide)).trans ((W5_arg m ρ c main_arg4 (by decide)).trans (W1_other m ρ c main_arg4 (by decide)))
theorem W6_main_arg5 (c : Dev nD) : W6 m ρ c (Proc.devRef .tc main_arg5) = m ((c : Thread nD τ).loc main_arg5) :=
  (W6_of_ne m ρ c main_arg5 (by decide)).trans ((W5_arg m ρ c main_arg5 (by decide)).trans (W1_other m ρ c main_arg5 (by decide)))
theorem W6_main_arg6 (c : Dev nD) : W6 m ρ c (Proc.devRef .tc main_arg6) = m ((c : Thread nD τ).loc main_arg6) :=
  (W6_of_ne m ρ c main_arg6 (by decide)).trans ((W5_arg m ρ c main_arg6 (by decide)).trans (W1_other m ρ c main_arg6 (by decide)))
theorem W6_main_arg7 (c : Dev nD) : W6 m ρ c (Proc.devRef .tc main_arg7) = m ((c : Thread nD τ).loc main_arg7) :=
  (W6_of_ne m ρ c main_arg7 (by decide)).trans ((W5_arg m ρ c main_arg7 (by decide)).trans (W1_other m ρ c main_arg7 (by decide)))
theorem W6_main_arg8 (c : Dev nD) : W6 m ρ c (Proc.devRef .tc main_arg8) = m ((c : Thread nD τ).loc main_arg8) :=
  (W6_of_ne m ρ c main_arg8 (by decide)).trans ((W5_arg m ρ c main_arg8 (by decide)).trans (W1_other m ρ c main_arg8 (by decide)))
theorem W6_main_arg9 (c : Dev nD) : W6 m ρ c (Proc.devRef .tc main_arg9) = m ((c : Thread nD τ).loc main_arg9) :=
  (W6_of_ne m ρ c main_arg9 (by decide)).trans ((W5_arg m ρ c main_arg9 (by decide)).trans (W1_other m ρ c main_arg9 (by decide)))
theorem W6_main_arg10 (c : Dev nD) : W6 m ρ c (Proc.devRef .tc main_arg10) = m ((c : Thread nD τ).loc main_arg10) :=
  (W6_of_ne m ρ c main_arg10 (by decide)).trans ((W5_arg m ρ c main_arg10 (by decide)).trans (W1_other m ρ c main_arg10 (by decide)))
theorem W6_main_arg11 (c : Dev nD) : W6 m ρ c (Proc.devRef .tc main_arg11) = m ((c : Thread nD τ).loc main_arg11) :=
  (W6_of_ne m ρ c main_arg11 (by decide)).trans ((W5_arg m ρ c main_arg11 (by decide)).trans (W1_other m ρ c main_arg11 (by decide)))
theorem W6_main_arg12 (c : Dev nD) : W6 m ρ c (Proc.devRef .tc main_arg12) = m ((c : Thread nD τ).loc main_arg12) :=
  (W6_of_ne m ρ c main_arg12 (by decide)).trans ((W5_arg m ρ c main_arg12 (by decide)).trans (W1_other m ρ c main_arg12 (by decide)))
theorem W6_main_arg13 (c : Dev nD) : W6 m ρ c (Proc.devRef .tc main_arg13) = m ((c : Thread nD τ).loc main_arg13) :=
  (W6_of_ne m ρ c main_arg13 (by decide)).trans ((W5_arg m ρ c main_arg13 (by decide)).trans (W1_other m ρ c main_arg13 (by decide)))
theorem W6_main_arg14 (c : Dev nD) : W6 m ρ c (Proc.devRef .tc main_arg14) = m ((c : Thread nD τ).loc main_arg14) :=
  (W6_of_ne m ρ c main_arg14 (by decide)).trans ((W5_arg m ρ c main_arg14 (by decide)).trans (W1_other m ρ c main_arg14 (by decide)))
theorem W6_main_arg15 (c : Dev nD) : W6 m ρ c (Proc.devRef .tc main_arg15) = m ((c : Thread nD τ).loc main_arg15) :=
  (W6_of_ne m ρ c main_arg15 (by decide)).trans ((W5_arg m ρ c main_arg15 (by decide)).trans (W1_other m ρ c main_arg15 (by decide)))

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V5 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
set_option maxHeartbeats 4000000 in
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .host (hseg hostOps1_3 hostOps1_3_sub hostOps1_3_fresh (W4 m ρ)),
    .region (reg1 m ρ) ]

set_option maxHeartbeats 4000000 in
theorem main_run (c : Dev nD) : main (F := F) c = Pipeline.Seg.run (segs m ρ) := (main_chain c).trans (by chain_rfl)

set_option backward.isDefEq.respectTransparency.types false in
set_option maxHeartbeats 4000000 in
/-- THE RUN: every weakly fair execution of @main terminates, nothing faulting, and every final state has every
    unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)
      ∧       r.2.mem ((c.tc : Thread nD τ).loc main_arg14) = m ((c.tc : Thread nD τ).loc main_arg14)
      ∧       r.2.mem ((c.tc : Thread nD τ).loc main_arg15) = m ((c.tc : Thread nD τ).loc main_arg15)) :=
  (θ_run defs _ _).mono (fun s h c => ⟨(h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c),
      (h c _ (mem_uc main_arg9 (by decide))).trans (W6_main_arg9 m ρ c),
      (h c _ (mem_uc main_arg10 (by decide))).trans (W6_main_arg10 m ρ c),
      (h c _ (mem_uc main_arg11 (by decide))).trans (W6_main_arg11 m ρ c),
      (h c _ (mem_uc main_arg12 (by decide))).trans (W6_main_arg12 m ρ c),
      (h c _ (mem_uc main_arg13 (by decide))).trans (W6_main_arg13 m ρ c),
      (h c _ (mem_uc main_arg14 (by decide))).trans (W6_main_arg14 m ρ c),
      (h c _ (mem_uc main_arg15 (by decide))).trans (W6_main_arg15 m ρ c)⟩) (run_main m ρ)

/-- The run with the result named: the output array ends at what the second region's write-backs leave. -/
theorem run_value : θ_run defs (onTc (τ := τ) (main (F := F))) ⟨m, fun _ => 0, ρ⟩ (fun r => ∀ c : Dev nD,
      r.2.mem ((c.tc : Thread nD τ).loc main_v126) = (dat1 (V5 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun s h c => ⟨(h c _ (mem_uc main_v126 (by decide))).trans (W6_arr m ρ c 2),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c),
      (h c _ (mem_uc main_arg9 (by decide))).trans (W6_main_arg9 m ρ c),
      (h c _ (mem_uc main_arg10 (by decide))).trans (W6_main_arg10 m ρ c),
      (h c _ (mem_uc main_arg11 (by decide))).trans (W6_main_arg11 m ρ c),
      (h c _ (mem_uc main_arg12 (by decide))).trans (W6_main_arg12 m ρ c),
      (h c _ (mem_uc main_arg13 (by decide))).trans (W6_main_arg13 m ρ c),
      (h c _ (mem_uc main_arg14 (by decide))).trans (W6_main_arg14 m ρ c),
      (h c _ (mem_uc main_arg15 (by decide))).trans (W6_main_arg15 m ρ c)⟩) (run_main m ρ)

end Cert.Kernel.Hand

end
-- ==== Proof.KIBase.lean ====
/-
  The two kernels of the program, seen from their launches: what the pipeline hands each body (the
  windows' blocks of the arrays as a region finds them), when the first kernel's branch is taken (at
  the first grid point only: there the two accumulators are zeroed), the staging and scratch memrefs
  by name, and the region invariant opened into the two scratch accumulators and the generator
  register.
-/
import proofs.«165815_j54073638257172_1_alg».proof.Proof.Gen.KernelIdeal.Launch
import proofs.«165815_j54073638257172_1_alg».proof.Proof.Gen.KernelIdeal.Skeleton
import proofs.«165815_j54073638257172_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The first kernel: column sums and the transposed product, accumulated over 128 row blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The second kernel: one row block of the final product per point -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## The first kernel's branch: taken at the first point only -/

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 128 = 0 :=
  (by decide +kernel : ∀ t : Fin grid0.N, cond0_0 (grid0.coords t) ↔ t.val % 128 = 0)

/-- No window of the first kernel is ever idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

/-! ## Memrefs by name -/

abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4096 .f32 := win0_3.stage (cfg0.slots t 3)
abbrev hs0_3 (t : Fin cfg0.N) : (ms0_3 t).IsWhole := hstage0_3 ((cfg0.slots t 3).cast nbuf0_3)
abbrev scM0_0 : Memref sig .tc .vmem S4096x256 .f32 := Memref.whole cc0_scratch0
abbrev scM0_1 : Memref sig .tc .vmem S1x4096 .f32 := Memref.whole cc0_scratch1
abbrev VO0_2 : View sig .tc .vmem S4096x256 .f32 := (Memref.whole cc0_stg2_0 : Memref sig .tc .vmem S4096x256 .f32).view
abbrev VO0_3 : View sig .tc .vmem S1x4096 .f32 := (Memref.whole cc0_stg3_0 : Memref sig .tc .vmem S1x4096 .f32).view
abbrev VS0_0 : View sig .tc .vmem S4096x256 .f32 := scM0_0.view
abbrev VS0_1 : View sig .tc .vmem S1x4096 .f32 := scM0_1.view

/-- The scoped buffers the first kernel never names: the second kernel's staging buffers, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class invariant of the first region, opened: the two scratch accumulators at some contents, the
    buffers the kernel never names, the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 c) ∗ (∃ r, prngReg c r)) := by
  unfold Pipeline.ΦA rest0; rw [scopedRest0_eq]; simp only [scM0_0, scM0_1, owns_whole]; try rfl

end Cert.KernelIdeal.Hand

end
-- ==== Proof.KIRun0A.lean ====
/-
  The first kernel's body run once in the case "first grid point: the accumulators are zeroed, then added to": what its stores leave in the two output staging
  buffers and the two scratch accumulators, as pieces found by running the body.
-/
import proofs.«165815_j54073638257172_1_alg».proof.Proof.KIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first point (the branch taken): the scratch accumulators may hold anything; they are zeroed, the block's
    contribution added, and the results copied to the outputs' buffers. -/
noncomputable def kernelRun0_A (c : Dev nD) (i : grid0.Coords) (arg1 : Memref sig .tc .vmem S512x4096 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S4096x256 .f32) (harg5 : arg5.IsWhole) (arg6 : Memref sig .tc .vmem S1x4096 .f32) (harg6 : arg6.IsWhole) (hc0 : cond0_0 i)
    (x0 : Vec F S512x4096 .f32) (x1 : Vec F S512x256 .f32) :
    Σ' (L2 : List (View.Piece (Elt F) S4096x256 .f32)) (L3 : List (View.Piece (Elt F) S1x4096 .f32)) (LS0 : List (View.Piece (Elt F) S4096x256 .f32)), { LS1 : List (View.Piece (Elt F) S1x4096 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__hp_kernel i arg1 harg1 arg2 harg2 arg3 harg3 arg4 harg4 arg5 harg5 arg6 harg6) K } := by
  refine ⟨?_, ?_, ?_, ?_, fun E K => ?run⟩
  case run =>
    simp only [cc0__hp_kernel_eq_skeleton]; unfold cc0__hp_kernel_skel
    unfold owns
    iintro ⟨⟨%f0, %hf0, H0⟩, ⟨%f1, %hf1, H1⟩, ⟨%d2, %f2, -, H2⟩, ⟨%d3, %f3, -, H3⟩, ⟨%ds0, %fs0, -, HS0⟩, ⟨%ds1, %fs1, -, HS1⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.KernelIdeal.Hand

end
-- ==== Proof.KIRun0B.lean ====
/-
  The first kernel's body run once in the case "a later grid point: the accumulators hold what the point before left": what its stores leave in the two output staging
  buffers and the two scratch accumulators, as pieces found by running the body.
-/
import proofs.«165815_j54073638257172_1_alg».proof.Proof.KIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a later point (the branch not taken): the scratch accumulators hold `xs0`, `xs1`; the block's contribution is
    added and the results copied to the outputs' buffers. -/
noncomputable def kernelRun0_B (c : Dev nD) (i : grid0.Coords) (arg1 : Memref sig .tc .vmem S512x4096 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S4096x256 .f32) (harg5 : arg5.IsWhole) (arg6 : Memref sig .tc .vmem S1x4096 .f32) (harg6 : arg6.IsWhole) (hc0 : ¬cond0_0 i)
    (x0 : Vec F S512x4096 .f32) (x1 : Vec F S512x256 .f32) (xs0 : Vec F S4096x256 .f32) (xs1 : Vec F S1x4096 .f32) :
    Σ' (L2 : List (View.Piece (Elt F) S4096x256 .f32)) (L3 : List (View.Piece (Elt F) S1x4096 .f32)) (LS0 : List (View.Piece (Elt F) S4096x256 .f32)), { LS1 : List (View.Piece (Elt F) S1x4096 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__hp_kernel i arg1 harg1 arg2 harg2 arg3 harg3 arg4 harg4 arg5 harg5 arg6 harg6) K } := by
  refine ⟨?_, ?_, ?_, ?_, fun E K => ?run⟩
  case run =>
    simp only [cc0__hp_kernel_eq_skeleton]; unfold cc0__hp_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1; obtain rfl := harg5.eq_unread hfs0; obtain rfl := harg6.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.KernelIdeal.Hand

end
-- ==== Proof.KIFrame0.lean ====
/-
  The first region's proof data. After the body at grid point n the two output staging buffers and the two
  scratch accumulators hold the running sums over row blocks 0 … n: at point 0 the zeroed accumulators plus the
  first block's contribution, at point n+1 what point n left plus that block's. The region invariant carries the
  two scratch accumulators at those contents from one point to the next.
-/
import proofs.«165815_j54073638257172_1_alg».proof.Proof.KIRun0A
import proofs.«165815_j54073638257172_1_alg».proof.Proof.KIRun0B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem cover0_A_2 (c : Dev nD) (i : grid0.Coords) (arg1 : Memref sig .tc .vmem S512x4096 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S4096x256 .f32) (harg5 : arg5.IsWhole) (arg6 : Memref sig .tc .vmem S1x4096 .f32) (harg6 : arg6.IsWhole) (hc0 : cond0_0 i) (x0 : Vec F S512x4096 .f32) (x1 : Vec F S512x256 .f32) (y : S4096x256.Idx) :
    ∃ pc ∈ (kernelRun0_A c i arg1 harg1 arg2 harg2 arg3 harg3 arg4 harg4 arg5 harg5 arg6 harg6 hc0 x0 x1).1, y ∈ pc.1.set :=
  View.cover_of_tiledL (kernelRun0_A c i arg1 harg1 arg2 harg2 arg3 harg3 arg4 harg4 arg5 harg5 arg6 harg6 hc0 x0 x1).1 S4096x256.size (by sl_kernel_rfl) y

def out0_A_2 (c : Dev nD) (i : grid0.Coords) (arg1 : Memref sig .tc .vmem S512x4096 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S4096x256 .f32) (harg5 : arg5.IsWhole) (arg6 : Memref sig .tc .vmem S1x4096 .f32) (harg6 : arg6.IsWhole) (hc0 : cond0_0 i) (x0 : Vec F S512x4096 .f32) (x1 : Vec F S512x256 .f32) : Vec F S4096x256 .f32 :=
  VO0_2.read (Elt F) (VO0_2.writes (Elt F) VO0_2.junk (kernelRun0_A c i arg1 harg1 arg2 harg2 arg3 harg3 arg4 harg4 arg5 harg5 arg6 harg6 hc0 x0 x1).1)

theorem cover0_A_3 (c : Dev nD) (i : grid0.Coords) (arg1 : Memref sig .tc .vmem S512x4096 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S4096x256 .f32) (harg5 : arg5.IsWhole) (arg6 : Memref sig .tc .vmem S1x4096 .f32) (harg6 : arg6.IsWhole) (hc0 : cond0_0 i) (x0 : Vec F S512x4096 .f32) (x1 : Vec F S512x256 .f32) (y : S1x4096.Idx) :
    ∃ pc ∈ (kernelRun0_A c i arg1 harg1 arg2 harg2 arg3 harg3 arg4 harg4 arg5 harg5 arg6 harg6 hc0 x0 x1).2.1, y ∈ pc.1.set :=
  View.cover_of_tiledL (kernelRun0_A c i arg1 harg1 arg2 harg2 arg3 harg3 arg4 harg4 arg5 harg5 arg6 harg6 hc0 x0 x1).2.1 S1x4096.size (by sl_kernel_rfl) y

def out0_A_3 (c : Dev nD) (i : grid0.Coords) (arg1 : Memref sig .tc .vmem S512x4096 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S4096x256 .f32) (harg5 : arg5.IsWhole) (arg6 : Memref sig .tc .vmem S1x4096 .f32) (harg6 : arg6.IsWhole) (hc0 : cond0_0 i) (x0 : Vec F S512x4096 .f32) (x1 : Vec F S512x256 .f32) : Vec F S1x4096 .f32 :=
  VO0_3.read (Elt F) (VO0_3.writes (Elt F) VO0_3.junk (kernelRun0_A c i arg1 harg1 arg2 harg2 arg3 harg3 arg4 harg4 arg5 harg5 arg6 harg6 hc0 x0 x1).2.1)

theorem scover0_A_0 (c : Dev nD) (i : grid0.Coords) (arg1 : Memref sig .tc .vmem S512x4096 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S4096x256 .f32) (harg5 : arg5.IsWhole) (arg6 : Memref sig .tc .vmem S1x4096 .f32) (harg6 : arg6.IsWhole) (hc0 : cond0_0 i) (x0 : Vec F S512x4096 .f32) (x1 : Vec F S512x256 .f32) (y : S4096x256.Idx) :
    ∃ pc ∈ (kernelRun0_A c i arg1 harg1 arg2 harg2 arg3 harg3 arg4 harg4 arg5 harg5 arg6 harg6 hc0 x0 x1).2.2.1, y ∈ pc.1.set :=
  View.cover_of_tiledL (kernelRun0_A c i arg1 harg1 arg2 harg2 arg3 harg3 arg4 harg4 arg5 harg5 arg6 harg6 hc0 x0 x1).2.2.1 S4096x256.size (by sl_kernel_rfl) y

def sout0_A_0 (c : Dev nD) (i : grid0.Coords) (arg1 : Memref sig .tc .vmem S512x4096 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S4096x256 .f32) (harg5 : arg5.IsWhole) (arg6 : Memref sig .tc .vmem S1x4096 .f32) (harg6 : arg6.IsWhole) (hc0 : cond0_0 i) (x0 : Vec F S512x4096 .f32) (x1 : Vec F S512x256 .f32) : Vec F S4096x256 .f32 :=
  VS0_0.read (Elt F) (VS0_0.writes (Elt F) VS0_0.junk (kernelRun0_A c i arg1 harg1 arg2 harg2 arg3 harg3 arg4 harg4 arg5 harg5 arg6 harg6 hc0 x0 x1).2.2.1)

theorem scover0_A_1 (c : Dev nD) (i : grid0.Coords) (arg1 : Memref sig .tc .vmem S512x4096 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S4096x256 .f32) (harg5 : arg5.IsWhole) (arg6 : Memref sig .tc .vmem S1x4096 .f32) (harg6 : arg6.IsWhole) (hc0 : cond0_0 i) (x0 : Vec F S512x4096 .f32) (x1 : Vec F S512x256 .f32) (y : S1x4096.Idx) :
    ∃ pc ∈ (kernelRun0_A c i arg1 harg1 arg2 harg2 arg3 harg3 arg4 harg4 arg5 harg5 arg6 harg6 hc0 x0 x1).2.2.2.1, y ∈ pc.1.set :=
  View.cover_of_tiledL (kernelRun0_A c i arg1 harg1 arg2 harg2 arg3 harg3 arg4 harg4 arg5 harg5 arg6 harg6 hc0 x0 x1).2.2.2.1 S1x4096.size (by sl_kernel_rfl) y

def sout0_A_1 (c : Dev nD) (i : grid0.Coords) (arg1 : Memref sig .tc .vmem S512x4096 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S4096x256 .f32) (harg5 : arg5.IsWhole) (arg6 : Memref sig .tc .vmem S1x4096 .f32) (harg6 : arg6.IsWhole) (hc0 : cond0_0 i) (x0 : Vec F S512x4096 .f32) (x1 : Vec F S512x256 .f32) : Vec F S1x4096 .f32 :=
  VS0_1.read (Elt F) (VS0_1.writes (Elt F) VS0_1.junk (kernelRun0_A c i arg1 harg1 arg2 harg2 arg3 harg3 arg4 harg4 arg5 harg5 arg6 harg6 hc0 x0 x1).2.2.2.1)

theorem cover0_B_2 (c : Dev nD) (i : grid0.Coords) (arg1 : Memref sig .tc .vmem S512x4096 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S4096x256 .f32) (harg5 : arg5.IsWhole) (arg6 : Memref sig .tc .vmem S1x4096 .f32) (harg6 : arg6.IsWhole) (hc0 : ¬cond0_0 i) (x0 : Vec F S512x4096 .f32) (x1 : Vec F S512x256 .f32) (xs0 : Vec F S4096x256 .f32) (xs1 : Vec F S1x4096 .f32) (y : S4096x256.Idx) :
    ∃ pc ∈ (kernelRun0_B c i arg1 harg1 arg2 harg2 arg3 harg3 arg4 harg4 arg5 harg5 arg6 harg6 hc0 x0 x1 xs0 xs1).1, y ∈ pc.1.set :=
  View.cover_of_tiledL (kernelRun0_B c i arg1 harg1 arg2 harg2 arg3 harg3 arg4 harg4 arg5 harg5 arg6 harg6 hc0 x0 x1 xs0 xs1).1 S4096x256.size (by sl_kernel_rfl) y

def out0_B_2 (c : Dev nD) (i : grid0.Coords) (arg1 : Memref sig .tc .vmem S512x4096 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S4096x256 .f32) (harg5 : arg5.IsWhole) (arg6 : Memref sig .tc .vmem S1x4096 .f32) (harg6 : arg6.IsWhole) (hc0 : ¬cond0_0 i) (x0 : Vec F S512x4096 .f32) (x1 : Vec F S512x256 .f32) (xs0 : Vec F S4096x256 .f32) (xs1 : Vec F S1x4096 .f32) : Vec F S4096x256 .f32 :=
  VO0_2.read (Elt F) (VO0_2.writes (Elt F) VO0_2.junk (kernelRun0_B c i arg1 harg1 arg2 harg2 arg3 harg3 arg4 harg4 arg5 harg5 arg6 harg6 hc0 x0 x1 xs0 xs1).1)

theorem cover0_B_3 (c : Dev nD) (i : grid0.Coords) (arg1 : Memref sig .tc .vmem S512x4096 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S4096x256 .f32) (harg5 : arg5.IsWhole) (arg6 : Memref sig .tc .vmem S1x4096 .f32) (harg6 : arg6.IsWhole) (hc0 : ¬cond0_0 i) (x0 : Vec F S512x4096 .f32) (x1 : Vec F S512x256 .f32) (xs0 : Vec F S4096x256 .f32) (xs1 : Vec F S1x4096 .f32) (y : S1x4096.Idx) :
    ∃ pc ∈ (kernelRun0_B c i arg1 harg1 arg2 harg2 arg3 harg3 arg4 harg4 arg5 harg5 arg6 harg6 hc0 x0 x1 xs0 xs1).2.1, y ∈ pc.1.set :=
  View.cover_of_tiledL (kernelRun0_B c i arg1 harg1 arg2 harg2 arg3 harg3 arg4 harg4 arg5 harg5 arg6 harg6 hc0 x0 x1 xs0 xs1).2.1 S1x4096.size (by sl_kernel_rfl) y

def out0_B_3 (c : Dev nD) (i : grid0.Coords) (arg1 : Memref sig .tc .vmem S512x4096 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S4096x256 .f32) (harg5 : arg5.IsWhole) (arg6 : Memref sig .tc .vmem S1x4096 .f32) (harg6 : arg6.IsWhole) (hc0 : ¬cond0_0 i) (x0 : Vec F S512x4096 .f32) (x1 : Vec F S512x256 .f32) (xs0 : Vec F S4096x256 .f32) (xs1 : Vec F S1x4096 .f32) : Vec F S1x4096 .f32 :=
  VO0_3.read (Elt F) (VO0_3.writes (Elt F) VO0_3.junk (kernelRun0_B c i arg1 harg1 arg2 harg2 arg3 harg3 arg4 harg4 arg5 harg5 arg6 harg6 hc0 x0 x1 xs0 xs1).2.1)

theorem scover0_B_0 (c : Dev nD) (i : grid0.Coords) (arg1 : Memref sig .tc .vmem S512x4096 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S4096x256 .f32) (harg5 : arg5.IsWhole) (arg6 : Memref sig .tc .vmem S1x4096 .f32) (harg6 : arg6.IsWhole) (hc0 : ¬cond0_0 i) (x0 : Vec F S512x4096 .f32) (x1 : Vec F S512x256 .f32) (xs0 : Vec F S4096x256 .f32) (xs1 : Vec F S1x4096 .f32) (y : S4096x256.Idx) :
    ∃ pc ∈ (kernelRun0_B c i arg1 harg1 arg2 harg2 arg3 harg3 arg4 harg4 arg5 harg5 arg6 harg6 hc0 x0 x1 xs0 xs1).2.2.1, y ∈ pc.1.set :=
  View.cover_of_tiledL (kernelRun0_B c i arg1 harg1 arg2 harg2 arg3 harg3 arg4 harg4 arg5 harg5 arg6 harg6 hc0 x0 x1 xs0 xs1).2.2.1 S4096x256.size (by sl_kernel_rfl) y

def sout0_B_0 (c : Dev nD) (i : grid0.Coords) (arg1 : Memref sig .tc .vmem S512x4096 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S4096x256 .f32) (harg5 : arg5.IsWhole) (arg6 : Memref sig .tc .vmem S1x4096 .f32) (harg6 : arg6.IsWhole) (hc0 : ¬cond0_0 i) (x0 : Vec F S512x4096 .f32) (x1 : Vec F S512x256 .f32) (xs0 : Vec F S4096x256 .f32) (xs1 : Vec F S1x4096 .f32) : Vec F S4096x256 .f32 :=
  VS0_0.read (Elt F) (VS0_0.writes (Elt F) VS0_0.junk (kernelRun0_B c i arg1 harg1 arg2 harg2 arg3 harg3 arg4 harg4 arg5 harg5 arg6 harg6 hc0 x0 x1 xs0 xs1).2.2.1)

theorem scover0_B_1 (c : Dev nD) (i : grid0.Coords) (arg1 : Memref sig .tc .vmem S512x4096 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S4096x256 .f32) (harg5 : arg5.IsWhole) (arg6 : Memref sig .tc .vmem S1x4096 .f32) (harg6 : arg6.IsWhole) (hc0 : ¬cond0_0 i) (x0 : Vec F S512x4096 .f32) (x1 : Vec F S512x256 .f32) (xs0 : Vec F S4096x256 .f32) (xs1 : Vec F S1x4096 .f32) (y : S1x4096.Idx) :
    ∃ pc ∈ (kernelRun0_B c i arg1 harg1 arg2 harg2 arg3 harg3 arg4 harg4 arg5 harg5 arg6 harg6 hc0 x0 x1 xs0 xs1).2.2.2.1, y ∈ pc.1.set :=
  View.cover_of_tiledL (kernelRun0_B c i arg1 harg1 arg2 harg2 arg3 harg3 arg4 harg4 arg5 harg5 arg6 harg6 hc0 x0 x1 xs0 xs1).2.2.2.1 S1x4096.size (by sl_kernel_rfl) y

def sout0_B_1 (c : Dev nD) (i : grid0.Coords) (arg1 : Memref sig .tc .vmem S512x4096 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S4096x256 .f32) (harg5 : arg5.IsWhole) (arg6 : Memref sig .tc .vmem S1x4096 .f32) (harg6 : arg6.IsWhole) (hc0 : ¬cond0_0 i) (x0 : Vec F S512x4096 .f32) (x1 : Vec F S512x256 .f32) (xs0 : Vec F S4096x256 .f32) (xs1 : Vec F S1x4096 .f32) : Vec F S1x4096 .f32 :=
  VS0_1.read (Elt F) (VS0_1.writes (Elt F) VS0_1.junk (kernelRun0_B c i arg1 harg1 arg2 harg2 arg3 harg3 arg4 harg4 arg5 harg5 arg6 harg6 hc0 x0 x1 xs0 xs1).2.2.2.1)

section Regions
variable (V : (c : Dev nD) → (b : Ref sig .tc) → Buf (Elt F) ((c : Thread nD τ).loc b))

theorem N0_eq : cfg0.N = 128 := N_0

theorem hcA (t : Fin cfg0.N) (h0 : t.val % 128 = 0) : cond0_0 (grid0.coords t) := (hcond0_0 t).mpr h0
theorem hcB (t : Fin cfg0.N) (h0 : ¬ t.val % 128 = 0) : ¬ cond0_0 (grid0.coords t) := fun h => h0 ((hcond0_0 t).mp h)

/-- THE ACCUMULATION: the outputs' staging buffers (first two components) and the scratch accumulators (last two)
    after the body at position `n`. -/
def outsAt0 (c : Dev nD) : (n : ℕ) → n < cfg0.N → Vec F S4096x256 .f32 × Vec F S1x4096 .f32 × Vec F S4096x256 .f32 × Vec F S1x4096 .f32
  | 0, hn =>
    (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) (hcA ⟨0, hn⟩ (Nat.zero_mod _)) (iblk0 V c 0 ⟨0, hn⟩) (iblk0 V c 1 ⟨0, hn⟩),
     out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) (hcA ⟨0, hn⟩ (Nat.zero_mod _)) (iblk0 V c 0 ⟨0, hn⟩) (iblk0 V c 1 ⟨0, hn⟩),
     sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) (hcA ⟨0, hn⟩ (Nat.zero_mod _)) (iblk0 V c 0 ⟨0, hn⟩) (iblk0 V c 1 ⟨0, hn⟩),
     sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) (hcA ⟨0, hn⟩ (Nat.zero_mod _)) (iblk0 V c 0 ⟨0, hn⟩) (iblk0 V c 1 ⟨0, hn⟩))
  | n + 1, hn =>
    have hB : ¬ (⟨n + 1, hn⟩ : Fin cfg0.N).val % 128 = 0 := by
      have hN : n + 1 < 128 := lt_of_lt_of_eq hn N0_eq
      show ¬ (n + 1) % 128 = 0
      omega
    (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (hcB ⟨n + 1, hn⟩ hB) (iblk0 V c 0 ⟨n + 1, hn⟩) (iblk0 V c 1 ⟨n + 1, hn⟩) (outsAt0 c n (Nat.lt_of_succ_lt hn)).2.2.1 (outsAt0 c n (Nat.lt_of_succ_lt hn)).2.2.2,
     out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (hcB ⟨n + 1, hn⟩ hB) (iblk0 V c 0 ⟨n + 1, hn⟩) (iblk0 V c 1 ⟨n + 1, hn⟩) (outsAt0 c n (Nat.lt_of_succ_lt hn)).2.2.1 (outsAt0 c n (Nat.lt_of_succ_lt hn)).2.2.2,
     sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (hcB ⟨n + 1, hn⟩ hB) (iblk0 V c 0 ⟨n + 1, hn⟩) (iblk0 V c 1 ⟨n + 1, hn⟩) (outsAt0 c n (Nat.lt_of_succ_lt hn)).2.2.1 (outsAt0 c n (Nat.lt_of_succ_lt hn)).2.2.2,
     sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (hcB ⟨n + 1, hn⟩ hB) (iblk0 V c 0 ⟨n + 1, hn⟩) (iblk0 V c 1 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 128 = 0) :
    outsAt0 V c t.val t.isLt =
      (out0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (hcA t h0) (iblk0 V c 0 t) (iblk0 V c 1 t),
       out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (hcA t h0) (iblk0 V c 0 t) (iblk0 V c 1 t),
       sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (hcA t h0) (iblk0 V c 0 t) (iblk0 V c 1 t),
       sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (hcA t h0) (iblk0 V c 0 t) (iblk0 V c 1 t)) := by
  obtain ⟨n, hn⟩ := t
  cases n with
  | zero => exact rfl
  | succ n => exfalso; have hN : n + 1 < 128 := lt_of_lt_of_eq hn N0_eq; (try dsimp only at h0); omega

theorem outsAt0_B (c : Dev nD) (t : Fin cfg0.N) (h0 : ¬ t.val % 128 = 0) :
    outsAt0 V c t.val t.isLt =
      (out0_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (hcB t h0) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2,
       out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (hcB t h0) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2,
       sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (hcB t h0) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2,
       sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (hcB t h0) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact absurd (Nat.zero_mod _) h0
  | succ n => exact rfl

/-- The region invariant before position `n`: before the first point the class's (every scratch at anything);
    afterwards the two scratch accumulators at what the point before left, the rest untouched. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ rest0 c) ∗ (∃ r, prngReg c r)) := by
  cases n with
  | zero => exact absurd rfl hz
  | succ n => rfl

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare ((outsAt0 V c t.val t.isLt).1) := by
  unfold Dat.leavesExact; rw [liveAt0_2 t, after0_2]
theorem leaves0_3 (c : Dev nD) (t : Fin cfg0.N) : (dat0 V c).leavesExact 3 t = owns (c : Thread nD τ) (ms0_3 t) fullShare ((outsAt0 V c t.val t.isLt).2.1) := by
  unfold Dat.leavesExact; rw [liveAt0_3 t, after0_3]

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2, leaves0_3]
  have hN : t.val < 128 := lt_of_lt_of_eq t.isLt N0_eq
  by_cases h0 : t.val % 128 = 0
  · have hz : t.val = 0 := by omega
    rw [outsAt0_A V c t h0]
    unfold out0_A_2 out0_A_3 sout0_A_0 sout0_A_1; (try dsimp only)
    rw [PhiS_castSucc V c t, PhiS_zero V c _ _ hz, PhiA0_eq]
    iintro ⟨⟨⟨HS0, HS1, Hrest⟩, Hg⟩, Ho, ⟨%d0, H0⟩, ⟨%d1, H1⟩, ⟨%d2, H2⟩, ⟨%d3, H3⟩⟩
    iapply ((kernelRun0_A c (grid0.coords t) _ _ _ _ _ _ _ _ _ _ _ _ (hcA t h0) (iblk0 V c 0 t) (iblk0 V c 1 t)).2.2.2.2 Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, ⟨%e2, H2⟩, ⟨%e3, H3⟩, ⟨%es0, HS0⟩, ⟨%es1, HS1⟩⟩
    isplitl [HS0 HS1 Hrest Hg]
    · isplitl [HS0 HS1 Hrest]
      · isplitl [HS0]
        · unfold owns; iexists _; isplitr
          swap; · iexact HS0
          ipureintro; exact View.read_writes_of_cover _ _ _ _ _ (scover0_A_0 c _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _)
        iexact Hrest
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _ _ _)
    unfold owns; iexists _; isplitr
    swap; · iexact H3
    ipureintro; exact View.read_writes_of_cover _ _ _ _ _ (cover0_A_3 c _ _ _ _ _ _ _ _ _ _ _ _ _ _ _ _)
  · have hz : t.val ≠ 0 := by intro h; rw [h] at h0; exact h0 (Nat.zero_mod _)
    rw [outsAt0_B V c t h0]
    unfold out0_B_2 out0_B_3 sout0_B_0 sout0_B_1; (try dsimp only)
    rw [PhiS_castSucc V c t, PhiS_pos V c _ _ hz]
    iintro ⟨⟨⟨HS0, HS1, Hrest⟩, Hg⟩, Ho, ⟨%d0, H0⟩, ⟨%d1, H1⟩, ⟨%d2, H2⟩, ⟨%d3, H3⟩⟩
    iapply ((kernelRun0_B c (grid0.coords t) _ _ _ _ _ _ _ _ _ _ _ _ (hcB t h0) (iblk0 V c 0 t) (iblk0 V c 1 t) _ _).2.2.2.2 Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, ⟨%e2, H2⟩, ⟨%e3, H3⟩, ⟨%es0, HS0⟩, ⟨%es1, HS1⟩⟩
    isplitl [HS0 HS1 Hrest Hg]
    · isplitl [HS0 HS1 Hrest]
      · isplitl [HS0]
        · unfold owns; iexists _; isplitr
          swap; · iexact HS0
          ipureintro; exact View.read_writes_of_cover _ _ _ _ _ (scover0_B_0 c _ _ _ _ _ _ _ _ _ _ _ _ _ _ _ _ _ _)
        isplitl [HS1]
        · unfold owns; iexists _; isplitr
          swap; · iexact HS1
          ipureintro; exact View.read_writes_of_cover _ _ _ _ _ (scover0_B_1 c _ _ _ _ _ _ _ _ _ _ _ _ _ _ _ _ _ _)
        iexact Hrest
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _ _ _)
    unfold owns; iexists _; isplitr
    swap; · iexact H3
    ipureintro; exact View.read_writes_of_cover _ _ _ _ _ (cover0_B_3 c _ _ _ _ _ _ _ _ _ _ _ _ _ _ _ _ _ _)

set_option maxHeartbeats 4000000 in
theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hrest⟩, Hg⟩
  isplitl [HS0 HS1 Hrest]
  · isplitl [HS0]; · iexists _; iexact HS0
    isplitl [HS1]; · iexists _; iexact HS1
    iexact Hrest
  iexact Hg

theorem hout0 (c : Dev nD) : (dat0 V c).Φ (Fin.last cfg0.N) ⊢ Pipeline.ΦA spec0 c :=
  Phi_out0 V c _ (by rw [Fin.val_last]; have : cfg0.N = 128 := N_0; omega)

end Regions

end Cert.KernelIdeal.Hand

end
-- ==== Proof.KIRun1.lean ====
/-
  The second kernel's body run once: what its store leaves in the output staging buffer, as a piece found by
  running the body (one row block of Q times the whole of h).
-/
import proofs.«165815_j54073638257172_1_alg».proof.Proof.KIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1 (c : Dev nD) (i : grid1.Coords) (arg1 : Memref sig .tc .vmem S512x4096 .f32) (harg1 : arg1.IsWhole) (arg2 : Memref sig .tc .vmem S4096x256 .f32) (harg2 : arg2.IsWhole) (arg3 : Memref sig .tc .vmem S512x256 .f32) (harg3 : arg3.IsWhole)
    (x0 : Vec F S512x4096 .f32) (x1 : Vec F S4096x256 .f32) :
    { L2 : List (View.Piece (Elt F) S512x256 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc1__proj_kernel i arg1 harg1 arg2 harg2 arg3 harg3) K } := by
  refine ⟨?_, fun E K => ?run⟩
  case run =>
    simp only [cc1__proj_kernel_eq_skeleton]; unfold cc1__proj_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Hand

end
-- ==== Proof.KIFrame1.lean ====
/-
  The second region's proof data: at each grid point the output staging buffer holds the product of that
  point's row block of Q with the whole of h.
-/
import proofs.«165815_j54073638257172_1_alg».proof.Proof.KIRun1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev ms1_0 (t : Fin cfg1.N) : Memref sig .tc .vmem S512x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x256 .f32 := win1_2.stage (cfg1.slots t 2)
abbrev hs1_2 (t : Fin cfg1.N) : (ms1_2 t).IsWhole := hstage1_2 ((cfg1.slots t 2).cast nbuf1_2)
abbrev VO1_2 : View sig .tc .vmem S512x256 .f32 := (Memref.whole cc1_stg2_0 : Memref sig .tc .vmem S512x256 .f32).view

theorem cover1_2 (c : Dev nD) (i : grid1.Coords) (arg1 : Memref sig .tc .vmem S512x4096 .f32) (harg1 : arg1.IsWhole) (arg2 : Memref sig .tc .vmem S4096x256 .f32) (harg2 : arg2.IsWhole) (arg3 : Memref sig .tc .vmem S512x256 .f32) (harg3 : arg3.IsWhole)
    (x0 : Vec F S512x4096 .f32) (x1 : Vec F S4096x256 .f32) (y : S512x256.Idx) :
    ∃ pc ∈ (kernelRun1 c i arg1 harg1 arg2 harg2 arg3 harg3 x0 x1).1, y ∈ pc.1.set :=
  View.cover_of_tiledL (kernelRun1 c i arg1 harg1 arg2 harg2 arg3 harg3 x0 x1).1 S512x256.size (by sl_kernel_rfl) y

def out1_2 (c : Dev nD) (i : grid1.Coords) (arg1 : Memref sig .tc .vmem S512x4096 .f32) (harg1 : arg1.IsWhole) (arg2 : Memref sig .tc .vmem S4096x256 .f32) (harg2 : arg2.IsWhole) (arg3 : Memref sig .tc .vmem S512x256 .f32) (harg3 : arg3.IsWhole)
    (x0 : Vec F S512x4096 .f32) (x1 : Vec F S4096x256 .f32) : Vec F S512x256 .f32 :=
  VO1_2.read (Elt F) (VO1_2.writes (Elt F) VO1_2.junk (kernelRun1 c i arg1 harg1 arg2 harg2 arg3 harg3 x0 x1).1)

section Regions
variable (V : (c : Dev nD) → (b : Ref sig .tc) → Buf (Elt F) ((c : Thread nD τ).loc b))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 c (grid1.coords t) (ms1_0 t) (hs1_0 t) (ms1_1 t) (hs1_1 t) (ms1_2 t) (hs1_2 t) (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 c (grid1.coords t) (ms1_0 t) (hs1_0 t) (ms1_1 t) (hs1_1 t) (ms1_2 t) (hs1_2 t) (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (out1_2 c (grid1.coords t) (ms1_0 t) (hs1_0 t) (ms1_1 t) (hs1_1 t) (ms1_2 t) (hs1_2 t) (iblk1 V c 0 t) (iblk1 V c 1 t)) := by
  unfold Dat.leavesExact; rw [liveAt1_2 t, after1_2]

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl]
  rw [leaves1_0, leaves1_1, leaves1_2]
  unfold out1_2; (try dsimp only)
  iintro ⟨HΦ, Ho, ⟨%d0, H0⟩, ⟨%d1, H1⟩, ⟨%d2, H2⟩⟩
  iapply ((kernelRun1 c (grid1.coords t) _ _ _ _ _ _ (iblk1 V c 0 t) (iblk1 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover1_2 c _ _ _ _ _ _ _ _ _)

set_option maxHeartbeats 4000000 in
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KIMain.lean ====
/-
  The whole program's run. @main is: the first region (column sums and the transposed product), four stretches
  of host operations (the quotient, then the two message-passing layers), the second region (the final product).
  The buffer contents at each boundary are a fold from the launch memory; each region is entered from every
  unscoped buffer at the boundary's contents and left with its arrays at what its write-backs leave. At the end
  every unscoped buffer holds the last boundary's contents, and no step writes an argument array.
-/
import proofs.«165815_j54073638257172_1_alg».proof.Proof.KIFrame0
import proofs.«165815_j54073638257172_1_alg».proof.Proof.KIFrame1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After each stretch of host operations. -/
abbrev W2 : Dev nD → Valuation τ sig (Elt F) := fun c => StableHlo.after hostOps1 (W1 m ρ c)
abbrev W3 : Dev nD → Valuation τ sig (Elt F) := fun c => StableHlo.after hostOps1_1 (W2 m ρ c)
abbrev W4 : Dev nD → Valuation τ sig (Elt F) := fun c => StableHlo.after hostOps1_2 (W3 m ρ c)
abbrev W5 : Dev nD → Valuation τ sig (Elt F) := fun c => StableHlo.after hostOps1_3 (W4 m ρ c)
abbrev V5 : (c : Dev nD) → (b : Ref sig .tc) → Buf (Elt F) ((c : Thread nD τ).loc b) := fun c b => W5 m ρ c b
/-- At the second region's exit. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-! ### No host operation writes an argument array (arguments are the first sixteen HBM buffers) -/

/-- An argument of @main: one of the first sixteen buffers in HBM. -/
def isArg (b : Ref sig .tc) : Bool := decide (b.space = .hbm) && decide (b.idx.val < 16)
theorem ne_of_isArg {b b' : Ref sig .tc} (h : isArg b = true) (h' : isArg b' = false) : b ≠ b' :=
  fun e => by subst e; rw [h] at h'; exact Bool.noConfusion h'

set_option maxHeartbeats 4000000 in
theorem nw1 (b : Ref sig .tc) (hb : isArg b = true) : ∀ op ∈ (hostOps1 : List (HloOp τ sig (Elt F))), Proc.devRef .tc b ∉ op.writes := by
  refine (List.forall_iff_forall_mem (p := fun op : HloOp τ sig (Elt F) => Proc.devRef .tc b ∉ op.writes)).mp ?_
  simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (ne_of_isArg hb (by decide))
set_option maxHeartbeats 4000000 in
theorem nw1_1 (b : Ref sig .tc) (hb : isArg b = true) : ∀ op ∈ (hostOps1_1 : List (HloOp τ sig (Elt F))), Proc.devRef .tc b ∉ op.writes := by
  refine (List.forall_iff_forall_mem (p := fun op : HloOp τ sig (Elt F) => Proc.devRef .tc b ∉ op.writes)).mp ?_
  simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (ne_of_isArg hb (by decide))
set_option maxHeartbeats 4000000 in
theorem nw1_2 (b : Ref sig .tc) (hb : isArg b = true) : ∀ op ∈ (hostOps1_2 : List (HloOp τ sig (Elt F))), Proc.devRef .tc b ∉ op.writes := by
  refine (List.forall_iff_forall_mem (p := fun op : HloOp τ sig (Elt F) => Proc.devRef .tc b ∉ op.writes)).mp ?_
  simp only [hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (ne_of_isArg hb (by decide))
set_option maxHeartbeats 4000000 in
theorem nw1_3 (b : Ref sig .tc) (hb : isArg b = true) : ∀ op ∈ (hostOps1_3 : List (HloOp τ sig (Elt F))), Proc.devRef .tc b ∉ op.writes := by
  refine (List.forall_iff_forall_mem (p := fun op : HloOp τ sig (Elt F) => Proc.devRef .tc b ∉ op.writes)).mp ?_
  simp only [hostOps1_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (ne_of_isArg hb (by decide))

/-- An argument no window of the second region stages and no host operation writes: as at the first region's exit. -/
theorem W5_arg (c : Dev nD) (b : Ref sig .tc) (hb : isArg b = true) : W5 m ρ c (Proc.devRef .tc b) = W1 m ρ c (Proc.devRef .tc b) :=
  calc W5 m ρ c (Proc.devRef .tc b)
    _ = W4 m ρ c (Proc.devRef .tc b) := StableHlo.after_of_forall_not_mem (b := Proc.devRef .tc b) _ _ (nw1_3 b hb)
    _ = W3 m ρ c (Proc.devRef .tc b) := StableHlo.after_of_forall_not_mem (b := Proc.devRef .tc b) _ _ (nw1_2 b hb)
    _ = W2 m ρ c (Proc.devRef .tc b) := StableHlo.after_of_forall_not_mem (b := Proc.devRef .tc b) _ _ (nw1_1 b hb)
    _ = W1 m ρ c (Proc.devRef .tc b) := StableHlo.after_of_forall_not_mem (b := Proc.devRef .tc b) _ _ (nw1 b hb)

/-- The two staged arguments (x through window 1 and Q through window 0 of the first region; Q again through
    window 0 of the second) end as launched: an input window's array is never written. -/
theorem W1_main_arg1 (c : Dev nD) : W1 m ρ c (Proc.devRef .tc main_arg1) = m ((c : Thread nD τ).loc main_arg1) :=
  (W1_arr m ρ c 0).trans (((dat0 (V0 m ρ) c).arrAt_in 0 rfl _).trans (A_eq0 (V0 m ρ) c 0))
theorem W1_main_arg0 (c : Dev nD) : W1 m ρ c (Proc.devRef .tc main_arg0) = m ((c : Thread nD τ).loc main_arg0) :=
  (W1_arr m ρ c 1).trans (((dat0 (V0 m ρ) c).arrAt_in 1 rfl _).trans (A_eq0 (V0 m ρ) c 1))
theorem W1_other (c : Dev nD) (b : Ref sig .tc) (hb : ∀ w, Pipeline.arrRef spec0 w ≠ b) : W1 m ρ c (Proc.devRef .tc b) = m ((c : Thread nD τ).loc b) :=
  W1_of_ne m ρ c b hb

theorem W6_main_arg1 (c : Dev nD) : W6 m ρ c (Proc.devRef .tc main_arg1) = m ((c : Thread nD τ).loc main_arg1) :=
  (W6_arr m ρ c 0).trans (((dat1 (V5 m ρ) c).arrAt_in 0 rfl _).trans ((A_eq1 (V5 m ρ) c 0).trans ((W5_arg m ρ c main_arg1 (by decide)).trans (W1_main_arg1 m ρ c))))
theorem W6_main_arg0 (c : Dev nD) : W6 m ρ c (Proc.devRef .tc main_arg0) = m ((c : Thread nD τ).loc main_arg0) :=
  (W6_of_ne m ρ c main_arg0 (by decide)).trans ((W5_arg m ρ c main_arg0 (by decide)).trans (W1_main_arg0 m ρ c))
theorem W6_main_arg2 (c : Dev nD) : W6 m ρ c (Proc.devRef .tc main_arg2) = m ((c : Thread nD τ).loc main_arg2) :=
  (W6_of_ne m ρ c main_arg2 (by decide)).trans ((W5_arg m ρ c main_arg2 (by decide)).trans (W1_other m ρ c main_arg2 (by decide)))
theorem W6_main_arg3 (c : Dev nD) : W6 m ρ c (Proc.devRef .tc main_arg3) = m ((c : Thread nD τ).loc main_arg3) :=
  (W6_of_ne m ρ c main_arg3 (by decide)).trans ((W5_arg m ρ c main_arg3 (by decide)).trans (W1_other m ρ c main_arg3 (by decide)))
theorem W6_main_arg4 (c : Dev nD) : W6 m ρ c (Proc.devRef .tc main_arg4) = m ((c : Thread nD τ).loc main_arg4) :=
  (W6_of_ne m ρ c main_arg4 (by decide)).trans ((W5_arg m ρ c main_arg4 (by decide)).trans (W1_other m ρ c main_arg4 (by decide)))
theorem W6_main_arg5 (c : Dev nD) : W6 m ρ c (Proc.devRef .tc main_arg5) = m ((c : Thread nD τ).loc main_arg5) :=
  (W6_of_ne m ρ c main_arg5 (by decide)).trans ((W5_arg m ρ c main_arg5 (by decide)).trans (W1_other m ρ c main_arg5 (by decide)))
theorem W6_main_arg6 (c : Dev nD) : W6 m ρ c (Proc.devRef .tc main_arg6) = m ((c : Thread nD τ).loc main_arg6) :=
  (W6_of_ne m ρ c main_arg6 (by decide)).trans ((W5_arg m ρ c main_arg6 (by decide)).trans (W1_other m ρ c main_arg6 (by decide)))
theorem W6_main_arg7 (c : Dev nD) : W6 m ρ c (Proc.devRef .tc main_arg7) = m ((c : Thread nD τ).loc main_arg7) :=
  (W6_of_ne m ρ c main_arg7 (by decide)).trans ((W5_arg m ρ c main_arg7 (by decide)).trans (W1_other m ρ c main_arg7 (by decide)))
theorem W6_main_arg8 (c : Dev nD) : W6 m ρ c (Proc.devRef .tc main_arg8) = m ((c : Thread nD τ).loc main_arg8) :=
  (W6_of_ne m ρ c main_arg8 (by decide)).trans ((W5_arg m ρ c main_arg8 (by decide)).trans (W1_other m ρ c main_arg8 (by decide)))
theorem W6_main_arg9 (c : Dev nD) : W6 m ρ c (Proc.devRef .tc main_arg9) = m ((c : Thread nD τ).loc main_arg9) :=
  (W6_of_ne m ρ c main_arg9 (by decide)).trans ((W5_arg m ρ c main_arg9 (by decide)).trans (W1_other m ρ c main_arg9 (by decide)))
theorem W6_main_arg10 (c : Dev nD) : W6 m ρ c (Proc.devRef .tc main_arg10) = m ((c : Thread nD τ).loc main_arg10) :=
  (W6_of_ne m ρ c main_arg10 (by decide)).trans ((W5_arg m ρ c main_arg10 (by decide)).trans (W1_other m ρ c main_arg10 (by decide)))
theorem W6_main_arg11 (c : Dev nD) : W6 m ρ c (Proc.devRef .tc main_arg11) = m ((c : Thread nD τ).loc main_arg11) :=
  (W6_of_ne m ρ c main_arg11 (by decide)).trans ((W5_arg m ρ c main_arg11 (by decide)).trans (W1_other m ρ c main_arg11 (by decide)))
theorem W6_main_arg12 (c : Dev nD) : W6 m ρ c (Proc.devRef .tc main_arg12) = m ((c : Thread nD τ).loc main_arg12) :=
  (W6_of_ne m ρ c main_arg12 (by decide)).trans ((W5_arg m ρ c main_arg12 (by decide)).trans (W1_other m ρ c main_arg12 (by decide)))
theorem W6_main_arg13 (c : Dev nD) : W6 m ρ c (Proc.devRef .tc main_arg13) = m ((c : Thread nD τ).loc main_arg13) :=
  (W6_of_ne m ρ c main_arg13 (by decide)).trans ((W5_arg m ρ c main_arg13 (by decide)).trans (W1_other m ρ c main_arg13 (by decide)))
theorem W6_main_arg14 (c : Dev nD) : W6 m ρ c (Proc.devRef .tc main_arg14) = m ((c : Thread nD τ).loc main_arg14) :=
  (W6_of_ne m ρ c main_arg14 (by decide)).trans ((W5_arg m ρ c main_arg14 (by decide)).trans (W1_other m ρ c main_arg14 (by decide)))
theorem W6_main_arg15 (c : Dev nD) : W6 m ρ c (Proc.devRef .tc main_arg15) = m ((c : Thread nD τ).loc main_arg15) :=
  (W6_of_ne m ρ c main_arg15 (by decide)).trans ((W5_arg m ρ c main_arg15 (by decide)).trans (W1_other m ρ c main_arg15 (by decide)))

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V5 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
set_option maxHeartbeats 4000000 in
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .host (hseg hostOps1_3 hostOps1_3_sub hostOps1_3_fresh (W4 m ρ)),
    .region (reg1 m ρ) ]

set_option maxHeartbeats 4000000 in
theorem main_run (c : Dev nD) : main (F := F) c = Pipeline.Seg.run (segs m ρ) := (main_chain c).trans (by chain_rfl)

set_option backward.isDefEq.respectTransparency.types false in
set_option maxHeartbeats 4000000 in
/-- THE RUN: every weakly fair execution of @main terminates, nothing faulting, and every final state has every
    unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)
      ∧       r.2.mem ((c.tc : Thread nD τ).loc main_arg14) = m ((c.tc : Thread nD τ).loc main_arg14)
      ∧       r.2.mem ((c.tc : Thread nD τ).loc main_arg15) = m ((c.tc : Thread nD τ).loc main_arg15)) :=
  (θ_run defs _ _).mono (fun s h c => ⟨(h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c),
      (h c _ (mem_uc main_arg9 (by decide))).trans (W6_main_arg9 m ρ c),
      (h c _ (mem_uc main_arg10 (by decide))).trans (W6_main_arg10 m ρ c),
      (h c _ (mem_uc main_arg11 (by decide))).trans (W6_main_arg11 m ρ c),
      (h c _ (mem_uc main_arg12 (by decide))).trans (W6_main_arg12 m ρ c),
      (h c _ (mem_uc main_arg13 (by decide))).trans (W6_main_arg13 m ρ c),
      (h c _ (mem_uc main_arg14 (by decide))).trans (W6_main_arg14 m ρ c),
      (h c _ (mem_uc main_arg15 (by decide))).trans (W6_main_arg15 m ρ c)⟩) (run_main m ρ)

/-- The run with the result named: the output array ends at what the second region's write-backs leave. -/
theorem run_value : θ_run defs (onTc (τ := τ) (main (F := F))) ⟨m, fun _ => 0, ρ⟩ (fun r => ∀ c : Dev nD,
      r.2.mem ((c.tc : Thread nD τ).loc main_v126) = (dat1 (V5 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun s h c => ⟨(h c _ (mem_uc main_v126 (by decide))).trans (W6_arr m ρ c 2),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c),
      (h c _ (mem_uc main_arg9 (by decide))).trans (W6_main_arg9 m ρ c),
      (h c _ (mem_uc main_arg10 (by decide))).trans (W6_main_arg10 m ρ c),
      (h c _ (mem_uc main_arg11 (by decide))).trans (W6_main_arg11 m ρ c),
      (h c _ (mem_uc main_arg12 (by decide))).trans (W6_main_arg12 m ρ c),
      (h c _ (mem_uc main_arg13 (by decide))).trans (W6_main_arg13 m ρ c),
      (h c _ (mem_uc main_arg14 (by decide))).trans (W6_main_arg14 m ρ c),
      (h c _ (mem_uc main_arg15 (by decide))).trans (W6_main_arg15 m ρ c)⟩) (run_main m ρ)

end Cert.KernelIdeal.Hand

end
-- ==== Proof.KIValue0.lean ====
/-
  What the first kernel computes, as values. At the first grid point the two accumulators are the zero fill plus the
  block's contribution; at a later point what the point before left plus the block's contribution; the outputs'
  staging buffers are copies of the accumulators. So after point n all four hold the running fold over row blocks
  0 … n, and the two result arrays, written back once after the last point through blocks that are the whole
  arrays, end at the fold over all 128 row blocks.
-/
import proofs.«165815_j54073638257172_1_alg».proof.Proof.KIFrame0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- A load through the whole-buffer rectangle of what a list of stores left whose LAST store went through that
    rectangle reads that store's payload. -/
theorem readCov_cons_unit_zero {S : Shape} {e : EltTy} {sp : Space}
    (v : View sig .tc sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-! ## The first point -/

theorem sout_A_0 (c : Dev nD) (i : grid0.Coords) (arg1 : Memref sig .tc .vmem S512x4096 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S4096x256 .f32) (harg5 : arg5.IsWhole) (arg6 : Memref sig .tc .vmem S1x4096 .f32) (harg6 : arg6.IsWhole) (hc0 : cond0_0 i) (x0 : Vec F S512x4096 .f32) (x1 : Vec F S512x256 .f32) :
    sout0_A_0 c i arg1 harg1 arg2 harg2 arg3 harg3 arg4 harg4 arg5 harg5 arg6 harg6 hc0 x0 x1 = k0_pay3 x0 x1 k0_pay1 := by
  unfold sout0_A_0
  rw [View.read_writes_eq_canon _ _ _ (scover0_A_0 c i arg1 harg1 arg2 harg2 arg3 harg3 arg4 harg4 arg5 harg5 arg6 harg6 hc0 x0 x1)]
  unfold kernelRun0_A
  dsimp only
  sl_unfold_words
  rw [View.canon_cons_unit_zero (S := S4096x256) hz2, View.readCov_unit_zero (S := S4096x256) _ hz2]
  simp only [View.readAt_eq_ld, harg1.read_unread, harg2.read_unread, harg5.read_unread, harg6.read_unread, View.ld_unit_zero (S := S512x4096) hz2, View.ld_unit_zero (S := S512x256) hz2, View.ld_unit_zero (S := S4096x256) hz2, View.ld_unit_zero (S := S1x4096) hz2]

theorem sout_A_1 (c : Dev nD) (i : grid0.Coords) (arg1 : Memref sig .tc .vmem S512x4096 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S4096x256 .f32) (harg5 : arg5.IsWhole) (arg6 : Memref sig .tc .vmem S1x4096 .f32) (harg6 : arg6.IsWhole) (hc0 : cond0_0 i) (x0 : Vec F S512x4096 .f32) (x1 : Vec F S512x256 .f32) :
    sout0_A_1 c i arg1 harg1 arg2 harg2 arg3 harg3 arg4 harg4 arg5 harg5 arg6 harg6 hc0 x0 x1 = k0_pay4 x0 k0_pay2 := by
  unfold sout0_A_1
  rw [View.read_writes_eq_canon _ _ _ (scover0_A_1 c i arg1 harg1 arg2 harg2 arg3 harg3 arg4 harg4 arg5 harg5 arg6 harg6 hc0 x0 x1)]
  unfold kernelRun0_A
  dsimp only
  sl_unfold_words
  rw [View.canon_cons_unit_zero (S := S1x4096) hz2, View.readCov_unit_zero (S := S1x4096) _ hz2]
  simp only [View.readAt_eq_ld, harg1.read_unread, harg2.read_unread, harg5.read_unread, harg6.read_unread, View.ld_unit_zero (S := S512x4096) hz2, View.ld_unit_zero (S := S512x256) hz2, View.ld_unit_zero (S := S4096x256) hz2, View.ld_unit_zero (S := S1x4096) hz2]

theorem out_A_2 (c : Dev nD) (i : grid0.Coords) (arg1 : Memref sig .tc .vmem S512x4096 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S4096x256 .f32) (harg5 : arg5.IsWhole) (arg6 : Memref sig .tc .vmem S1x4096 .f32) (harg6 : arg6.IsWhole) (hc0 : cond0_0 i) (x0 : Vec F S512x4096 .f32) (x1 : Vec F S512x256 .f32) :
    out0_A_2 c i arg1 harg1 arg2 harg2 arg3 harg3 arg4 harg4 arg5 harg5 arg6 harg6 hc0 x0 x1 = k0_pay3 x0 x1 k0_pay1 := by
  unfold out0_A_2
  rw [View.read_writes_eq_canon _ _ _ (cover0_A_2 c i arg1 harg1 arg2 harg2 arg3 harg3 arg4 harg4 arg5 harg5 arg6 harg6 hc0 x0 x1)]
  unfold kernelRun0_A
  dsimp only
  sl_unfold_words
  rw [View.canon_unit_zero (S := S4096x256) hz2, readCov_cons_unit_zero (S := S4096x256) _ hz2, View.readCov_unit_zero (S := S4096x256) _ hz2]
  simp only [View.readAt_eq_ld, harg1.read_unread, harg2.read_unread, harg5.read_unread, harg6.read_unread, View.ld_unit_zero (S := S512x4096) hz2, View.ld_unit_zero (S := S512x256) hz2, View.ld_unit_zero (S := S4096x256) hz2, View.ld_unit_zero (S := S1x4096) hz2]

theorem out_A_3 (c : Dev nD) (i : grid0.Coords) (arg1 : Memref sig .tc .vmem S512x4096 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S4096x256 .f32) (harg5 : arg5.IsWhole) (arg6 : Memref sig .tc .vmem S1x4096 .f32) (harg6 : arg6.IsWhole) (hc0 : cond0_0 i) (x0 : Vec F S512x4096 .f32) (x1 : Vec F S512x256 .f32) :
    out0_A_3 c i arg1 harg1 arg2 harg2 arg3 harg3 arg4 harg4 arg5 harg5 arg6 harg6 hc0 x0 x1 = k0_pay4 x0 k0_pay2 := by
  unfold out0_A_3
  rw [View.read_writes_eq_canon _ _ _ (cover0_A_3 c i arg1 harg1 arg2 harg2 arg3 harg3 arg4 harg4 arg5 harg5 arg6 harg6 hc0 x0 x1)]
  unfold kernelRun0_A
  dsimp only
  sl_unfold_words
  rw [View.canon_unit_zero (S := S1x4096) hz2, readCov_cons_unit_zero (S := S1x4096) _ hz2, View.readCov_unit_zero (S := S1x4096) _ hz2]
  simp only [View.readAt_eq_ld, harg1.read_unread, harg2.read_unread, harg5.read_unread, harg6.read_unread, View.ld_unit_zero (S := S512x4096) hz2, View.ld_unit_zero (S := S512x256) hz2, View.ld_unit_zero (S := S4096x256) hz2, View.ld_unit_zero (S := S1x4096) hz2]

/-! ## A later point -/

theorem sout_B_0 (c : Dev nD) (i : grid0.Coords) (arg1 : Memref sig .tc .vmem S512x4096 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S4096x256 .f32) (harg5 : arg5.IsWhole) (arg6 : Memref sig .tc .vmem S1x4096 .f32) (harg6 : arg6.IsWhole) (hc0 : ¬cond0_0 i) (x0 : Vec F S512x4096 .f32) (x1 : Vec F S512x256 .f32) (xs0 : Vec F S4096x256 .f32) (xs1 : Vec F S1x4096 .f32) :
    sout0_B_0 c i arg1 harg1 arg2 harg2 arg3 harg3 arg4 harg4 arg5 harg5 arg6 harg6 hc0 x0 x1 xs0 xs1 = k0_pay3 x0 x1 xs0 := by
  unfold sout0_B_0
  rw [View.read_writes_eq_canon _ _ _ (scover0_B_0 c i arg1 harg1 arg2 harg2 arg3 harg3 arg4 harg4 arg5 harg5 arg6 harg6 hc0 x0 x1 xs0 xs1)]
  unfold kernelRun0_B
  dsimp only
  sl_unfold_words
  rw [View.canon_unit_zero (S := S4096x256) hz2]
  simp only [View.readAt_eq_ld, harg1.read_unread, harg2.read_unread, harg5.read_unread, harg6.read_unread, View.ld_unit_zero (S := S512x4096) hz2, View.ld_unit_zero (S := S512x256) hz2, View.ld_unit_zero (S := S4096x256) hz2, View.ld_unit_zero (S := S1x4096) hz2]

theorem sout_B_1 (c : Dev nD) (i : grid0.Coords) (arg1 : Memref sig .tc .vmem S512x4096 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S4096x256 .f32) (harg5 : arg5.IsWhole) (arg6 : Memref sig .tc .vmem S1x4096 .f32) (harg6 : arg6.IsWhole) (hc0 : ¬cond0_0 i) (x0 : Vec F S512x4096 .f32) (x1 : Vec F S512x256 .f32) (xs0 : Vec F S4096x256 .f32) (xs1 : Vec F S1x4096 .f32) :
    sout0_B_1 c i arg1 harg1 arg2 harg2 arg3 harg3 arg4 harg4 arg5 harg5 arg6 harg6 hc0 x0 x1 xs0 xs1 = k0_pay4 x0 xs1 := by
  unfold sout0_B_1
  rw [View.read_writes_eq_canon _ _ _ (scover0_B_1 c i arg1 harg1 arg2 harg2 arg3 harg3 arg4 harg4 arg5 harg5 arg6 harg6 hc0 x0 x1 xs0 xs1)]
  unfold kernelRun0_B
  dsimp only
  sl_unfold_words
  rw [View.canon_unit_zero (S := S1x4096) hz2]
  simp only [View.readAt_eq_ld, harg1.read_unread, harg2.read_unread, harg5.read_unread, harg6.read_unread, View.ld_unit_zero (S := S512x4096) hz2, View.ld_unit_zero (S := S512x256) hz2, View.ld_unit_zero (S := S4096x256) hz2, View.ld_unit_zero (S := S1x4096) hz2]

theorem out_B_2 (c : Dev nD) (i : grid0.Coords) (arg1 : Memref sig .tc .vmem S512x4096 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S4096x256 .f32) (harg5 : arg5.IsWhole) (arg6 : Memref sig .tc .vmem S1x4096 .f32) (harg6 : arg6.IsWhole) (hc0 : ¬cond0_0 i) (x0 : Vec F S512x4096 .f32) (x1 : Vec F S512x256 .f32) (xs0 : Vec F S4096x256 .f32) (xs1 : Vec F S1x4096 .f32) :
    out0_B_2 c i arg1 harg1 arg2 harg2 arg3 harg3 arg4 harg4 arg5 harg5 arg6 harg6 hc0 x0 x1 xs0 xs1 = k0_pay3 x0 x1 xs0 := by
  unfold out0_B_2
  rw [View.read_writes_eq_canon _ _ _ (cover0_B_2 c i arg1 harg1 arg2 harg2 arg3 harg3 arg4 harg4 arg5 harg5 arg6 harg6 hc0 x0 x1 xs0 xs1)]
  unfold kernelRun0_B
  dsimp only
  sl_unfold_words
  rw [View.canon_unit_zero (S := S4096x256) hz2, View.readCov_unit_zero (S := S4096x256) _ hz2]
  simp only [View.readAt_eq_ld, harg1.read_unread, harg2.read_unread, harg5.read_unread, harg6.read_unread, View.ld_unit_zero (S := S512x4096) hz2, View.ld_unit_zero (S := S512x256) hz2, View.ld_unit_zero (S := S4096x256) hz2, View.ld_unit_zero (S := S1x4096) hz2]

theorem out_B_3 (c : Dev nD) (i : grid0.Coords) (arg1 : Memref sig .tc .vmem S512x4096 .f32) (harg1 : arg1.IsWhole) (arg2 : Memref sig .tc .vmem S512x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S4096x256 .f32) (harg5 : arg5.IsWhole) (arg6 : Memref sig .tc .vmem S1x4096 .f32) (harg6 : arg6.IsWhole) (hc0 : ¬cond0_0 i) (x0 : Vec F S512x4096 .f32) (x1 : Vec F S512x256 .f32) (xs0 : Vec F S4096x256 .f32) (xs1 : Vec F S1x4096 .f32) :
    out0_B_3 c i arg1 harg1 arg2 harg2 arg3 harg3 arg4 harg4 arg5 harg5 arg6 harg6 hc0 x0 x1 xs0 xs1 = k0_pay4 x0 xs1 := by
  unfold out0_B_3
  rw [View.read_writes_eq_canon _ _ _ (cover0_B_3 c i arg1 harg1 arg2 harg2 arg3 harg3 arg4 harg4 arg5 harg5 arg6 harg6 hc0 x0 x1 xs0 xs1)]
  unfold kernelRun0_B
  dsimp only
  sl_unfold_words
  rw [View.canon_unit_zero (S := S1x4096) hz2, View.readCov_unit_zero (S := S1x4096) _ hz2]
  simp only [View.readAt_eq_ld, harg1.read_unread, harg2.read_unread, harg5.read_unread, harg6.read_unread, View.ld_unit_zero (S := S512x4096) hz2, View.ld_unit_zero (S := S512x256) hz2, View.ld_unit_zero (S := S4096x256) hz2, View.ld_unit_zero (S := S1x4096) hz2]

section Regions
variable (V : (c : Dev nD) → (b : Ref sig .tc) → Buf (Elt F) ((c : Thread nD τ).loc b))

/-- THE RUNNING FOLD: the product accumulator and the column-sum accumulator after point `n`. -/
def acc (c : Dev nD) : (n : ℕ) → n < cfg0.N → Vec F S4096x256 .f32 × Vec F S1x4096 .f32
  | 0, h => (k0_pay3 (iblk0 V c 0 ⟨0, h⟩) (iblk0 V c 1 ⟨0, h⟩) k0_pay1, k0_pay4 (iblk0 V c 0 ⟨0, h⟩) k0_pay2)
  | n + 1, h => (k0_pay3 (iblk0 V c 0 ⟨n + 1, h⟩) (iblk0 V c 1 ⟨n + 1, h⟩) (acc c n (Nat.lt_of_succ_lt h)).1,
                 k0_pay4 (iblk0 V c 0 ⟨n + 1, h⟩) (acc c n (Nat.lt_of_succ_lt h)).2)

/-- What the four buffers hold after point `n` is the running fold. -/
theorem outsAt_eq (c : Dev nD) : ∀ (n : ℕ) (h : n < cfg0.N),
    outsAt0 V c n h = ((acc V c n h).1, (acc V c n h).2, (acc V c n h).1, (acc V c n h).2)
  | 0, h => by
    rw [outsAt0_A V c ⟨0, h⟩ (Nat.zero_mod _), out_A_2, out_A_3, sout_A_0, sout_A_1]
    rfl
  | n + 1, h => by
    have hN : cfg0.N = 128 := N_0
    have hB : ¬(⟨n + 1, h⟩ : Fin cfg0.N).val % 128 = 0 := by dsimp only; omega
    rw [outsAt0_B V c ⟨n + 1, h⟩ hB, out_B_2, out_B_3, sout_B_0, sout_B_1]
    show (k0_pay3 _ _ (outsAt0 V c n _).2.2.1, k0_pay4 _ (outsAt0 V c n _).2.2.2, k0_pay3 _ _ (outsAt0 V c n _).2.2.1, k0_pay4 _ (outsAt0 V c n _).2.2.2) = _
    rw [outsAt_eq c n]
    rfl

theorem lastLt : 127 < cfg0.N := by rw [N0_eq]; decide

/-- The two results: the fold after the last point. -/
abbrev rawRes (c : Dev nD) : Buf (Elt F) ((c : Thread nD τ).loc main_v0_0) := (acc V c 127 lastLt).1
abbrev csRes (c : Dev nD) : Buf (Elt F) ((c : Thread nD τ).loc main_v0_1) := (acc V c 127 lastLt).2

theorem idx2 : ∀ t : Fin cfg0.N, win0_2.index t (0 : Fin 2) = 0 ∧ win0_2.index t (1 : Fin 2) = 0 ∧ win0_3.index t (0 : Fin 2) = 0 ∧ win0_3.index t (1 : Fin 2) = 0
    ∧ win0_2.xsize (grid0.coords t) (0 : Fin 2) = 4096 ∧ win0_2.xsize (grid0.coords t) (1 : Fin 2) = 256
    ∧ win0_3.xsize (grid0.coords t) (0 : Fin 2) = 1 ∧ win0_3.xsize (grid0.coords t) (1 : Fin 2) = 4096 :=
  (by decide +kernel : ∀ t : Fin grid0.N, _)

theorem flushed_eq2 (c : Dev nD) (t : Fin cfg0.N) (hf : (cfg0.win 2).flush t = true) :
    (dat0 V c).flushed 2 t = ((cfg0.win 2).blk t).view.read (Elt F) (rawRes V c) := by
  have hN : cfg0.N = 128 := N_0
  have h3 : t.val = 127 := by have := (flush0_2 t).mp hf; have := t.isLt; omega
  obtain ⟨n, hn⟩ := t
  obtain rfl : n = 127 := h3
  show (cfg0.win 2).cut (grid0.coords ⟨127, hn⟩) ((dat0 V c).after 2 ⟨127, hn⟩) = _
  rw [after0_2, outsAt_eq]
  have hz' : (fun a => win0_2.index ⟨127, hn⟩ a * main_v0_0.ty.shape.size a) = fun _ => 0 := funext fun a => by
    match a with
    | ⟨0, _⟩ => show win0_2.index ⟨127, hn⟩ (0 : Fin 2) * 4096 = 0; rw [(idx2 ⟨127, hn⟩).1]
    | ⟨1, _⟩ => show win0_2.index ⟨127, hn⟩ (1 : Fin 2) * 256 = 0; rw [(idx2 ⟨127, hn⟩).2.1]
  exact (Memref.read_access_unit_zero (Elt F) main_v0_0 hz' (fun a => by rw [congrFun hz' a]; simp) (rawRes V c)).symm

theorem flushed_eq3 (c : Dev nD) (t : Fin cfg0.N) (hf : (cfg0.win 3).flush t = true) :
    (dat0 V c).flushed 3 t = ((cfg0.win 3).blk t).view.read (Elt F) (csRes V c) := by
  have hN : cfg0.N = 128 := N_0
  have h3 : t.val = 127 := by have := (flush0_3 t).mp hf; have := t.isLt; omega
  obtain ⟨n, hn⟩ := t
  obtain rfl : n = 127 := h3
  show (cfg0.win 3).cut (grid0.coords ⟨127, hn⟩) ((dat0 V c).after 3 ⟨127, hn⟩) = _
  rw [after0_3, outsAt_eq]
  have hz' : (fun a => win0_3.index ⟨127, hn⟩ a * main_v0_1.ty.shape.size a) = fun _ => 0 := funext fun a => by
    match a with
    | ⟨0, _⟩ => show win0_3.index ⟨127, hn⟩ (0 : Fin 2) * 1 = 0; rw [(idx2 ⟨127, hn⟩).2.2.1]
    | ⟨1, _⟩ => show win0_3.index ⟨127, hn⟩ (1 : Fin 2) * 4096 = 0; rw [(idx2 ⟨127, hn⟩).2.2.2.1]
  exact (Memref.read_access_unit_zero (Elt F) main_v0_1 hz' (fun a => by rw [congrFun hz' a]; simp) (csRes V c)).symm

theorem final0_2 (c : Dev nD) : (dat0 V c).arrAt 2 cfg0.N = rawRes V c :=
  (dat0 V c).arrAt_eq_of_cover 2 (rawRes V c) (flushed_eq2 V c) fun i =>
    ⟨⟨127, lastLt⟩, (flush0_2 ⟨127, lastLt⟩).mpr rfl, by
      show i ∈ ((View.whole main_v0_0).slice (win0_2.rect ⟨127, lastLt⟩)).set
      rw [View.set_slice_whole, Rect.mem_set_unit]
      intro a
      have h0 : (i 0 : Nat) < 4096 := (i 0).isLt
      have h1 : (i 1 : Nat) < 256 := (i 1).isLt
      obtain ⟨e0, e1, -, -, e4, e5, -, -⟩ := idx2 ⟨127, lastLt⟩
      match a with
      | ⟨0, _⟩ => show win0_2.index ⟨127, lastLt⟩ 0 * win0_2.size 0 ≤ (i 0 : Nat) ∧ (i 0 : Nat) < win0_2.index ⟨127, lastLt⟩ 0 * win0_2.size 0 + win0_2.xsize (grid0.coords ⟨127, lastLt⟩) 0
                  rw [e0, e4]; omega
      | ⟨1, _⟩ => show win0_2.index ⟨127, lastLt⟩ 1 * win0_2.size 1 ≤ (i 1 : Nat) ∧ (i 1 : Nat) < win0_2.index ⟨127, lastLt⟩ 1 * win0_2.size 1 + win0_2.xsize (grid0.coords ⟨127, lastLt⟩) 1
                  rw [e1, e5]; omega⟩

theorem final0_3 (c : Dev nD) : (dat0 V c).arrAt 3 cfg0.N = csRes V c :=
  (dat0 V c).arrAt_eq_of_cover 3 (csRes V c) (flushed_eq3 V c) fun i =>
    ⟨⟨127, lastLt⟩, (flush0_3 ⟨127, lastLt⟩).mpr rfl, by
      show i ∈ ((View.whole main_v0_1).slice (win0_3.rect ⟨127, lastLt⟩)).set
      rw [View.set_slice_whole, Rect.mem_set_unit]
      intro a
      have h0 : (i 0 : Nat) < 1 := (i 0).isLt
      have h1 : (i 1 : Nat) < 4096 := (i 1).isLt
      obtain ⟨-, -, e2, e3, -, -, e6, e7⟩ := idx2 ⟨127, lastLt⟩
      match a with
      | ⟨0, _⟩ => show win0_3.index ⟨127, lastLt⟩ 0 * win0_3.size 0 ≤ (i 0 : Nat) ∧ (i 0 : Nat) < win0_3.index ⟨127, lastLt⟩ 0 * win0_3.size 0 + win0_3.xsize (grid0.coords ⟨127, lastLt⟩) 0
                  rw [e2, e6]; omega
      | ⟨1, _⟩ => show win0_3.index ⟨127, lastLt⟩ 1 * win0_3.size 1 ≤ (i 1 : Nat) ∧ (i 1 : Nat) < win0_3.index ⟨127, lastLt⟩ 1 * win0_3.size 1 + win0_3.xsize (grid0.coords ⟨127, lastLt⟩) 1
                  rw [e3, e7]; omega⟩

end Regions

end Cert.KernelIdeal.Hand

end
-- ==== Proof.LibMatmulCols.lean ====
/-
  A matrix product that contracts BOTH operands' leading axes, read at one entry.

  For dimension numbers that contract the left operand's first axis with the right operand's first axis — the left
  operand [n, a], the right operand [n, b], the result [a, b], no batch axes: the product of the left operand's
  transpose with the right operand, no transpose formed — the entry (p, q) of the product is the sum over k of
  left (k, p) times right (k, q).

  `matmul_zero_cols`   a `tpu.matmul` into the zero accumulator at the ideal instance.
-/
import Idealize.ShloMosaic.PureOps.Ideal.Laws
import Idealize.ShloMosaic.Lib.ValueIdx

noncomputable section

open scoped BigOperators

namespace Cert.Lib.MatmulCols

open Idealize.ShloMosaic Idealize.ShloMosaic.ValueIdx

variable {a n b : ℕ}

/-- A `tpu.matmul` of an [n, a] by an [n, b] operand contracting the two leading axes, into the zero accumulator, at
    the ideal instance, read at `(p, q)`: the sum over `k` of left `(k, p)` times right `(k, q)`. -/
theorem matmul_zero_cols {φ₁ φ₂ : FTy}
    (w : DotDims.WF ⟨2, ![n, a]⟩ ⟨2, ![n, b]⟩ ⟨2, ![a, b]⟩ [0] [0] [1] [1] [] [])
    (prec : Option ContractPrecision) (l : FVec Ideal ⟨2, ![n, a]⟩ φ₁) (r : FVec Ideal ⟨2, ![n, b]⟩ φ₂)
    (p : Fin a) (q : Fin b) :
    matmul (⟨[0], [0], [1], [1], [], [], w⟩ : DotDims ⟨2, ![n, a]⟩ ⟨2, ![n, b]⟩ ⟨2, ![a, b]⟩) prec l r
        (constant ⟨2, ![a, b]⟩ .f32 0x00000000#32) (ix2 p q)
      = ∑ k : Fin n, l (ix2 k p) * r (ix2 k q) := by
  refine (Ideal.matmul_constant_zero_apply (⟨[0], [0], [1], [1], [], [], w⟩ : DotDims ⟨2, ![n, a]⟩ ⟨2, ![n, b]⟩ ⟨2, ![a, b]⟩) prec l r (ix2 p q)).trans ?_
  rw [← Equiv.sum_comp (contrEquiv1 (⟨[0], [0], [1], [1], [], [], w⟩ : DotDims ⟨2, ![n, a]⟩ ⟨2, ![n, b]⟩ ⟨2, ![a, b]⟩) n rfl rfl).symm]
  refine Finset.sum_congr rfl fun k _ => ?_
  have c2 := contrEquiv1_symm_val
    (⟨[0], [0], [1], [1], [], [], w⟩ : DotDims ⟨2, ![n, a]⟩ ⟨2, ![n, b]⟩ ⟨2, ![a, b]⟩) n rfl rfl k
  have l2 : (⟨[0], [0], [1], [1], [], [], w⟩ : DotDims ⟨2, ![n, a]⟩ ⟨2, ![n, b]⟩ ⟨2, ![a, b]⟩).lhsIdx (ix2 p q)
      ((contrEquiv1 _ n rfl rfl).symm k) = ix2 k p := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![n, a]⟩ ⟨2, ![n, b]⟩ ⟨2, ![a, b]⟩).rhsIdx (ix2 p q)
      ((contrEquiv1 _ n rfl rfl).symm k) = ix2 k q := by
    funext ax; apply Fin.ext
    match ax with
    | ⟨0, _⟩ => simp [DotDims.rhsIdx]; exact c2
    | ⟨1, _⟩ => simp [DotDims.rhsIdx]; rfl
  rw [l2, r2]

/-- The plain product of an [a, n] by an [n, b] operand as a `tpu.matmul` into the zero accumulator, at the ideal
    instance, read at `(p, q)`: the sum over `k` of left `(p, k)` times right `(k, q)`. -/
theorem matmul_zero_plain {φ₁ φ₂ : FTy}
    (w : DotDims.WF ⟨2, ![a, n]⟩ ⟨2, ![n, b]⟩ ⟨2, ![a, b]⟩ [1] [0] [0] [1] [] [])
    (prec : Option ContractPrecision) (l : FVec Ideal ⟨2, ![a, n]⟩ φ₁) (r : FVec Ideal ⟨2, ![n, b]⟩ φ₂)
    (p : Fin a) (q : Fin b) :
    matmul (⟨[1], [0], [0], [1], [], [], w⟩ : DotDims ⟨2, ![a, n]⟩ ⟨2, ![n, b]⟩ ⟨2, ![a, b]⟩) prec l r
        (constant ⟨2, ![a, b]⟩ .f32 0x00000000#32) (ix2 p q)
      = ∑ k : Fin n, l (ix2 p k) * r (ix2 k q) := by
  refine (Ideal.matmul_constant_zero_apply (⟨[1], [0], [0], [1], [], [], w⟩ : DotDims ⟨2, ![a, n]⟩ ⟨2, ![n, b]⟩ ⟨2, ![a, b]⟩) prec l r (ix2 p q)).trans ?_
  rw [← Equiv.sum_comp (contrEquiv1 (⟨[1], [0], [0], [1], [], [], w⟩ : DotDims ⟨2, ![a, n]⟩ ⟨2, ![n, b]⟩ ⟨2, ![a, b]⟩) n rfl rfl).symm]
  refine Finset.sum_congr rfl fun k _ => ?_
  have c2 := contrEquiv1_symm_val
    (⟨[1], [0], [0], [1], [], [], w⟩ : DotDims ⟨2, ![a, n]⟩ ⟨2, ![n, b]⟩ ⟨2, ![a, b]⟩) n rfl rfl k
  have l2 : (⟨[1], [0], [0], [1], [], [], w⟩ : DotDims ⟨2, ![a, n]⟩ ⟨2, ![n, b]⟩ ⟨2, ![a, b]⟩).lhsIdx (ix2 p q)
      ((contrEquiv1 _ n rfl rfl).symm k) = ix2 p k := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![a, n]⟩ ⟨2, ![n, b]⟩ ⟨2, ![a, b]⟩).rhsIdx (ix2 p q)
      ((contrEquiv1 _ n rfl rfl).symm k) = ix2 k q := by
    funext ax; apply Fin.ext
    match ax with
    | ⟨0, _⟩ => simp [DotDims.rhsIdx]; exact c2
    | ⟨1, _⟩ => simp [DotDims.rhsIdx]; rfl
  rw [l2, r2]

end Cert.Lib.MatmulCols

end
-- ==== Proof.KIPay.lean ====
/-
  The two kernels' arithmetic read at one entry, on the extended reals. A change of float format is the identity
  there, a matrix product into the zero accumulator is the plain sum of products over the contracted axis, and a
  lane reduction is the plain sum over the reduced axis. So: the first kernel's product step adds to entry (s, d)
  of the accumulator the sum over the block's rows r of Q-block (r, s) times x-block (r, d); its column-sum step
  adds to entry (0, s) the sum over r of Q-block (r, s); the zero fills read 0; the second kernel's step leaves at
  (r, d) the sum over s of Q-block (r, s) times h (s, d).
-/
import proofs.«165815_j54073638257172_1_alg».proof.Proof.Gen.KernelIdeal.Skeleton
import proofs.«165815_j54073638257172_1_alg».proof.Proof.LibMatmulCols
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

theorem pay1_apply (s : Fin 4096) (d : Fin 256) : k0_pay1 (F := Ideal) (ix2 s d) = 0 := by
  unfold k0_pay1
  try dsimp only
  rw [shapeCast_self]
  show Ideal.ofBits .f32 0x00000000#32 = 0
  exact Ideal.ofBits_zero_f32

theorem pay2_apply (s : Fin 4096) : k0_pay2 (F := Ideal) (ix2 (0 : Fin 1) s) = 0 := by
  unfold k0_pay2
  try dsimp only
  rw [shapeCast_self]
  show Ideal.ofBits .f32 0x00000000#32 = 0
  exact Ideal.ofBits_zero_f32

theorem pay3_apply (x0 : FVec Ideal S512x4096 .f32) (x1 : FVec Ideal S512x256 .f32) (a : FVec Ideal S4096x256 .f32)
    (s : Fin 4096) (d : Fin 256) :
    k0_pay3 (F := Ideal) x0 x1 a (ix2 s d) = a (ix2 s d) + ∑ r : Fin 512, x0 (ix2 r s) * x1 (ix2 r d) := by
  unfold k0_pay3
  try dsimp only
  rw [shapeCast_self]
  refine (congrArg (a (ix2 s d) + ·) (Cert.Lib.MatmulCols.matmul_zero_cols (φ₁ := .bf16) (φ₂ := .bf16)
    dot_S512x4096_S512x256_S4096x256_0_0_1_1_n_n_wf none (truncf .bf16 x0 bitsLt_bf16_f32) (truncf .bf16 x1 bitsLt_bf16_f32) s d)).trans ?_
  rfl

theorem lift_blk (hR : S512x4096.Reduces [0] S4096) (s : Fin 4096) (r : Fin 512) : hR.lift (ix1 s) r = ix2 r s :=
  funext fun a => Fin.ext (by match a with | ⟨0, _⟩ => rfl | ⟨1, _⟩ => rfl)

theorem pay4_apply (x0 : FVec Ideal S512x4096 .f32) (b : FVec Ideal S1x4096 .f32) (s : Fin 4096) :
    k0_pay4 (F := Ideal) x0 b (ix2 (0 : Fin 1) s) = b (ix2 (0 : Fin 1) s) + ∑ r : Fin 512, x0 (ix2 r s) := by
  unfold k0_pay4
  try dsimp only
  rw [shapeCast_self]
  refine (congrArg (b (ix2 (0 : Fin 1) s) + ·) ((shapeCast_a_1a_apply _ shapeCasts_S4096_S1x4096 (0 : Fin 1) s).trans
    (Ideal.multiReduction_add_single x0 _ reduces_S512x4096_S4096 _ _ (ix1 s)))).trans ?_
  exact congrArg (b (ix2 (0 : Fin 1) s) + ·) (Finset.sum_congr rfl fun r _ => congrArg x0 (lift_blk _ s r))

theorem pay1k_apply (x0 : FVec Ideal S512x4096 .f32) (x1 : FVec Ideal S4096x256 .f32) (r : Fin 512) (d : Fin 256) :
    k1_pay1 (F := Ideal) x0 x1 (ix2 r d) = ∑ s : Fin 4096, x0 (ix2 r s) * x1 (ix2 s d) := by
  unfold k1_pay1
  try dsimp only
  refine (Cert.Lib.MatmulCols.matmul_zero_plain (φ₁ := .bf16) (φ₂ := .bf16)
    dot_S512x4096_S4096x256_S512x256_1_0_0_1_n_n_wf none (truncf .bf16 x0 bitsLt_bf16_f32) (truncf .bf16 (shapeCast S4096x256 x1 shapeCasts_S4096x256_S4096x256) bitsLt_bf16_f32) r d).trans ?_
  rw [shapeCast_self]
  rfl

end Cert.KernelIdeal.Hand

end
-- ==== Proof.LibSumChunks.lean ====
/-
  Two facts about finite sums in a commutative additive monoid — no cancellation, no order, no finiteness of the
  values is used, so they hold of the extended reals with both infinities:

  * `sum_chunks`: a sum over `a * b` consecutive indices is the sum over its `a` consecutive chunks of `b` indices of
    each chunk's own sum (index `j + b * c` is entry `j` of chunk `c`);
  * `fold_eq_sum`: a left-to-right accumulation `z, z + g 0, (z + g 0) + g 1, …` stands, after `n` steps, at `z` plus
    the sum of the first `n` terms.

  Together: an accumulator started at `z` and advanced chunk by chunk by the chunk's sum ends at `z` plus the sum
  over all indices.
-/
import Mathlib.Algebra.BigOperators.Fin
import Mathlib.Logic.Equiv.Fin.Basic

open scoped BigOperators

namespace Cert.Lib.SumChunks

/-- Entry `j` of chunk `c` (of `a` chunks of `b`) is a position below `a * b`. -/
theorem chunk_lt {a b : ℕ} (c : Fin a) (j : Fin b) : j.val + b * c.val < a * b := by
  have hc : c.val + 1 ≤ a := c.isLt
  calc j.val + b * c.val < b + b * c.val := Nat.add_lt_add_right j.isLt _
    _ = b * (c.val + 1) := by rw [Nat.mul_succ, Nat.add_comm]
    _ ≤ b * a := Nat.mul_le_mul_left _ hc
    _ = a * b := Nat.mul_comm _ _

/-- A sum over `n = a * b` consecutive indices, chunk by chunk: the `a` chunks' sums, summed. -/
theorem sum_chunks {M : Type*} [AddCommMonoid M] {n : ℕ} (a b : ℕ) (h : a * b = n) (f : Fin n → M) :
    ∑ k : Fin n, f k = ∑ c : Fin a, ∑ j : Fin b, f ⟨j.val + b * c.val, h ▸ chunk_lt c j⟩ := by
  subst h
  rw [← Equiv.sum_comp finProdFinEquiv f, Fintype.sum_prod_type]
  rfl

/-- A left-to-right accumulation from `z` by the terms `g 0, g 1, …` stands after `n ≤ N` steps at `z` plus the sum
    of the first `n` terms (the step equation is only asked of the first `N` steps). -/
theorem fold_eq_sum {M : Type*} [AddCommMonoid M] (z : M) (g : ℕ → M) (s : ℕ → M) (N : ℕ) (h0 : s 0 = z)
    (hs : ∀ k, k < N → s (k + 1) = s k + g k) : ∀ n, n ≤ N → s n = z + ∑ k ∈ Finset.range n, g k
  | 0, _ => by rw [h0, Finset.sum_range_zero, add_zero]
  | n + 1, hn => by
    rw [hs n (Nat.lt_of_succ_le hn), fold_eq_sum z g s N h0 hs n (Nat.le_of_succ_le hn), Finset.sum_range_succ, add_assoc]

/-- The two together: an accumulator started at `z` and advanced, chunk after chunk, by the sum of the chunk's `b`
    entries stands after all `a` chunks at `z` plus the sum over all `a * b` indices. -/
theorem fold_chunks_eq_sum {M : Type*} [AddCommMonoid M] {n : ℕ} (a b : ℕ) (h : a * b = n) (f : Fin n → M) (z : M)
    (s : ℕ → M) (h0 : s 0 = z)
    (hs : ∀ c : Fin a, s (c.val + 1) = s c.val + ∑ j : Fin b, f ⟨j.val + b * c.val, h ▸ chunk_lt c j⟩) :
    s a = z + ∑ k : Fin n, f k := by
  let g : ℕ → M := fun c => if hc : c < a then ∑ j : Fin b, f ⟨j.val + b * c, h ▸ chunk_lt ⟨c, hc⟩ j⟩ else 0
  have hg : ∀ c : Fin a, g c.val = ∑ j : Fin b, f ⟨j.val + b * c.val, h ▸ chunk_lt c j⟩ := fun c => dif_pos c.isLt
  rw [fold_eq_sum z g s a h0 (fun k hk => by rw [hs ⟨k, hk⟩, ← hg ⟨k, hk⟩]) a le_rfl, sum_chunks a b h f,
    Finset.sum_range]
  exact congrArg (z + ·) (Finset.sum_congr rfl fun c _ => hg c)

end Cert.Lib.SumChunks
-- ==== Proof.KIFold0.lean ====
/-
  The first region's two results on the extended reals, in closed form. Point t of the grid stages rows
  512·t … 512·t + 511 of Q and of x; the accumulators start at zero and each point adds its block's contribution, so
  after the last point entry (s, d) of the product accumulator is the sum over ALL 65536 rows p of Q (p, s) · x (p, d),
  and entry (0, s) of the column-sum accumulator the sum over all rows of Q (p, s): a sum over 128 · 512 consecutive
  rows taken chunk by chunk. No finiteness is needed: sums of extended reals regroup freely.
-/
import proofs.«165815_j54073638257172_1_alg».proof.Proof.KIValue0
import proofs.«165815_j54073638257172_1_alg».proof.Proof.KIPay
import proofs.«165815_j54073638257172_1_alg».proof.Proof.LibSumChunks

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (V : (c : Dev nD) → (b : Ref sig .tc) → Buf (Elt Ideal) ((c : Thread nD τ).loc b))

/-- The two staged argument arrays as the region finds them, as arrays of extended reals. -/
abbrev Qa (c : Dev nD) : S65536x4096.Idx → EReal := V c main_arg1
abbrev Xa (c : Dev nD) : S65536x256.Idx → EReal := V c main_arg0

theorem idx0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row `r` of the block staged at point `t` is row `r + 512·t` of the array. -/
def rowOf (t : Fin cfg0.N) (r : Fin 512) : Fin 65536 :=
  ⟨r.val + 512 * t.val, by have h : t.val < 128 := lt_of_lt_of_eq t.isLt N0_eq; have := r.isLt; omega⟩

theorem blkQ_apply (c : Dev nD) (t : Fin cfg0.N) (r : Fin 512) (s : Fin 4096) :
    (iblk0 V c 0 t : Vec Ideal S512x4096 .f32) (ix2 r s) = Qa V c (ix2 (rowOf t r) s) := by
  obtain ⟨e0, e1, -, -⟩ := idx0 t
  unfold iblk0
  rw [View.read_apply]
  show V c main_arg1 (((cfg0.win 0).blk t).view.emb (ix2 r s)) = _
  congr 1
  funext a
  apply Fin.ext
  match a with
  | ⟨0, _⟩ => show win0_0.index t (0 : Fin 2) * 512 + 1 * r.val = r.val + 512 * t.val; rw [e0]; omega
  | ⟨1, _⟩ => show win0_0.index t (1 : Fin 2) * 4096 + 1 * s.val = s.val; rw [e1]; omega

theorem blkX_apply (c : Dev nD) (t : Fin cfg0.N) (r : Fin 512) (d : Fin 256) :
    (iblk0 V c 1 t : Vec Ideal S512x256 .f32) (ix2 r d) = Xa V c (ix2 (rowOf t r) d) := by
  obtain ⟨-, -, e2, e3⟩ := idx0 t
  unfold iblk0
  rw [View.read_apply]
  show V c main_arg0 (((cfg0.win 1).blk t).view.emb (ix2 r d)) = _
  congr 1
  funext a
  apply Fin.ext
  match a with
  | ⟨0, _⟩ => show win0_1.index t (0 : Fin 2) * 512 + 1 * r.val = r.val + 512 * t.val; rw [e2]; omega
  | ⟨1, _⟩ => show win0_1.index t (1 : Fin 2) * 256 + 1 * d.val = d.val; rw [e3]; omega

/-- The fold as a sequence on all of ℕ: 0 before the first point, the accumulators after point k at k + 1. -/
def seqRaw (c : Dev nD) (s : Fin 4096) (d : Fin 256) : ℕ → EReal
  | 0 => 0
  | k + 1 => if h : k < cfg0.N then (acc V c k h).1 (ix2 s d) else 0
def seqCs (c : Dev nD) (s : Fin 4096) : ℕ → EReal
  | 0 => 0
  | k + 1 => if h : k < cfg0.N then (acc V c k h).2 (ix2 (0 : Fin 1) s) else 0

theorem seqRaw_step (c : Dev nD) (s : Fin 4096) (d : Fin 256) (k : Fin 128) :
    seqRaw V c s d (k.val + 1) = seqRaw V c s d k.val
      + ∑ j : Fin 512, (fun p : Fin 65536 => Qa V c (ix2 p s) * Xa V c (ix2 p d))
          ⟨j.val + 512 * k.val, (by norm_num : 128 * 512 = 65536) ▸ Cert.Lib.SumChunks.chunk_lt k j⟩ := by
  obtain ⟨n, hn⟩ := k
  have hN : n < cfg0.N := by rw [N0_eq]; exact hn
  cases n with
  | zero =>
    show (if h : 0 < cfg0.N then (acc V c 0 h).1 (ix2 s d) else 0) = 0 + _
    rw [dif_pos hN, zero_add]
    show k0_pay3 (F := Ideal) (iblk0 V c 0 ⟨0, hN⟩) (iblk0 V c 1 ⟨0, hN⟩) (k0_pay1 (F := Ideal)) (ix2 s d) = _
    refine (pay3_apply (iblk0 V c 0 ⟨0, hN⟩) (iblk0 V c 1 ⟨0, hN⟩) (k0_pay1 (F := Ideal)) s d).trans ?_
    rw [pay1_apply, zero_add]
    refine Finset.sum_congr rfl fun j _ => ?_
    rw [blkQ_apply, blkX_apply]
    rfl
  | succ n =>
    have hN' : n < cfg0.N := Nat.lt_of_succ_lt hN
    show (if h : n + 1 < cfg0.N then (acc V c (n + 1) h).1 (ix2 s d) else 0) = (if h : n < cfg0.N then (acc V c n h).1 (ix2 s d) else 0) + _
    rw [dif_pos hN, dif_pos hN']
    show k0_pay3 (F := Ideal) (iblk0 V c 0 ⟨n + 1, hN⟩) (iblk0 V c 1 ⟨n + 1, hN⟩) (acc V c n hN').1 (ix2 s d) = _
    refine (pay3_apply (iblk0 V c 0 ⟨n + 1, hN⟩) (iblk0 V c 1 ⟨n + 1, hN⟩) (acc V c n hN').1 s d).trans ?_
    refine congrArg ((acc V c n hN').1 (ix2 s d) + ·) (Finset.sum_congr rfl fun j _ => ?_)
    rw [blkQ_apply, blkX_apply]
    rfl

theorem seqCs_step (c : Dev nD) (s : Fin 4096) (k : Fin 128) :
    seqCs V c s (k.val + 1) = seqCs V c s k.val
      + ∑ j : Fin 512, (fun p : Fin 65536 => Qa V c (ix2 p s))
          ⟨j.val + 512 * k.val, (by norm_num : 128 * 512 = 65536) ▸ Cert.Lib.SumChunks.chunk_lt k j⟩ := by
  obtain ⟨n, hn⟩ := k
  have hN : n < cfg0.N := by rw [N0_eq]; exact hn
  cases n with
  | zero =>
    show (if h : 0 < cfg0.N then (acc V c 0 h).2 (ix2 (0 : Fin 1) s) else 0) = 0 + _
    rw [dif_pos hN, zero_add]
    show k0_pay4 (F := Ideal) (iblk0 V c 0 ⟨0, hN⟩) (k0_pay2 (F := Ideal)) (ix2 (0 : Fin 1) s) = _
    refine (pay4_apply (iblk0 V c 0 ⟨0, hN⟩) (k0_pay2 (F := Ideal)) s).trans ?_
    rw [pay2_apply, zero_add]
    refine Finset.sum_congr rfl fun j _ => ?_
    rw [blkQ_apply]
    rfl
  | succ n =>
    have hN' : n < cfg0.N := Nat.lt_of_succ_lt hN
    show (if h : n + 1 < cfg0.N then (acc V c (n + 1) h).2 (ix2 (0 : Fin 1) s) else 0) = (if h : n < cfg0.N then (acc V c n h).2 (ix2 (0 : Fin 1) s) else 0) + _
    rw [dif_pos hN, dif_pos hN']
    show k0_pay4 (F := Ideal) (iblk0 V c 0 ⟨n + 1, hN⟩) (acc V c n hN').2 (ix2 (0 : Fin 1) s) = _
    refine (pay4_apply (iblk0 V c 0 ⟨n + 1, hN⟩) (acc V c n hN').2 s).trans ?_
    refine congrArg ((acc V c n hN').2 (ix2 (0 : Fin 1) s) + ·) (Finset.sum_congr rfl fun j _ => ?_)
    rw [blkQ_apply]
    rfl

/-- Entry (s, d) of the product result: the sum over all rows. -/
theorem rawRes_apply (c : Dev nD) (s : Fin 4096) (d : Fin 256) :
    (rawRes V c : S4096x256.Idx → EReal) (ix2 s d) = ∑ p : Fin 65536, Qa V c (ix2 p s) * Xa V c (ix2 p d) := by
  have h := Cert.Lib.SumChunks.fold_chunks_eq_sum 128 512 (by norm_num : 128 * 512 = 65536)
    (fun p : Fin 65536 => Qa V c (ix2 p s) * Xa V c (ix2 p d)) 0 (seqRaw V c s d) rfl (seqRaw_step V c s d)
  rw [zero_add] at h
  rw [← h]
  show (acc V c 127 lastLt).1 (ix2 s d) = (if h : 127 < cfg0.N then (acc V c 127 h).1 (ix2 s d) else 0)
  rw [dif_pos lastLt]

/-- Entry (0, s) of the column-sum result: the sum over all rows. -/
theorem csRes_apply (c : Dev nD) (s : Fin 4096) :
    (csRes V c : S1x4096.Idx → EReal) (ix2 (0 : Fin 1) s) = ∑ p : Fin 65536, Qa V c (ix2 p s) := by
  have h := Cert.Lib.SumChunks.fold_chunks_eq_sum 128 512 (by norm_num : 128 * 512 = 65536)
    (fun p : Fin 65536 => Qa V c (ix2 p s)) 0 (seqCs V c s) rfl (seqCs_step V c s)
  rw [zero_add] at h
  rw [← h]
  show (acc V c 127 lastLt).2 (ix2 (0 : Fin 1) s) = (if h : 127 < cfg0.N then (acc V c 127 h).2 (ix2 (0 : Fin 1) s) else 0)
  rw [dif_pos lastLt]

end Cert.KernelIdeal.Hand

end
-- ==== Proof.KIValue1.lean ====
/-
  What the second kernel computes, as a value: its one store's payload is the product of the point's row block of Q
  with the whole of h.
-/
import proofs.«165815_j54073638257172_1_alg».proof.Proof.KIFrame1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hzz : (![0, 0] : Fin 2 → Nat) = fun _ => 0 := funext fun a => by fin_cases a <;> rfl

theorem out1 (c : Dev nD) (i : grid1.Coords) (arg1 : Memref sig .tc .vmem S512x4096 .f32) (harg1 : arg1.IsWhole) (arg2 : Memref sig .tc .vmem S4096x256 .f32) (harg2 : arg2.IsWhole) (arg3 : Memref sig .tc .vmem S512x256 .f32) (harg3 : arg3.IsWhole)
    (x0 : Vec F S512x4096 .f32) (x1 : Vec F S4096x256 .f32) :
    out1_2 c i arg1 harg1 arg2 harg2 arg3 harg3 x0 x1 = k1_pay1 x0 x1 := by
  unfold out1_2
  rw [View.read_writes_eq_canon _ _ _ (cover1_2 c i arg1 harg1 arg2 harg2 arg3 harg3 x0 x1)]
  unfold kernelRun1
  dsimp only
  sl_unfold_words
  rw [View.canon_unit_zero (S := S512x256) hzz]
  simp only [View.readAt_eq_ld, harg1.read_unread, harg2.read_unread, View.ld_unit_zero (S := S512x4096) hzz, View.ld_unit_zero (S := S4096x256) hzz]

end Cert.KernelIdeal.Hand

end
-- ==== Proof.KIFinal1.lean ====
/-
  The second region's result on the extended reals, in closed form. Point t of its grid stages rows
  512·t … 512·t + 511 of Q and the whole of h, and writes back rows 512·t … 512·t + 511 of the result; the body
  leaves at (r, d) of its block the sum over s of Q-block (r, s) · h (s, d). The 128 blocks tile the result, so it
  ends holding, at (p, d), the sum over s of Q (p, s) · h (s, d).
-/
import proofs.«165815_j54073638257172_1_alg».proof.Proof.KIValue1
import proofs.«165815_j54073638257172_1_alg».proof.Proof.KIPay

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (V : (c : Dev nD) → (b : Ref sig .tc) → Buf (Elt Ideal) ((c : Thread nD τ).loc b))

/-- The plain product of an array of rows with a matrix, entry by entry. -/
def prodAt (Q : S65536x4096.Idx → EReal) (h : S4096x256.Idx → EReal) : S65536x256.Idx → EReal :=
  fun i => ∑ s : Fin 4096, Q (ix2 (i 0) s) * h (ix2 s (i 1))

/-- The two staged arrays as the region finds them, as arrays of extended reals. -/
abbrev Qb (c : Dev nD) : S65536x4096.Idx → EReal := V c main_arg1
abbrev Hb (c : Dev nD) : S4096x256.Idx → EReal := V c main_v125

theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem N1_eq : cfg1.N = 128 := N_1

/-- WHAT POINT `t` WRITES BACK is block `t` of the product of the arrays as the region finds them. -/
theorem flushed1_eq (c : Dev nD) (t : Fin cfg1.N) :
    (dat1 V c).flushed 2 t = ((cfg1.win 2).blk t).view.read (Elt Ideal) (prodAt (Qb V c) (Hb V c)) := by
  show (cfg1.win 2).cut (grid1.coords t) ((dat1 V c).after 2 t) = _
  rw [after1_2, out1]
  obtain ⟨e0, e1, e2, e3, e4, e5⟩ := idx1 t
  funext j
  obtain ⟨r, d, rfl⟩ : ∃ (r : Fin 512) (d : Fin 256), j = ix2 r d := ⟨j 0, j 1, eq_ix2 j⟩
  show k1_pay1 (F := Ideal) (iblk1 V c 0 t) (iblk1 V c 1 t) (ix2 r d) = prodAt (Qb V c) (Hb V c) (((cfg1.win 2).blk t).view.emb (ix2 r d))
  refine (pay1k_apply (iblk1 V c 0 t) (iblk1 V c 1 t) r d).trans ?_
  unfold prodAt
  refine Finset.sum_congr rfl fun s _ => ?_
  show Qb V c (((cfg1.win 0).blk t).view.emb (ix2 r s)) * Hb V c (((cfg1.win 1).blk t).view.emb (ix2 s d))
    = Qb V c (ix2 ((((cfg1.win 2).blk t).view.emb (ix2 r d)) 0) s) * Hb V c (ix2 s ((((cfg1.win 2).blk t).view.emb (ix2 r d)) 1))
  have h0 : ((cfg1.win 0).blk t).view.emb (ix2 r s) = ix2 ((((cfg1.win 2).blk t).view.emb (ix2 r d)) 0) s := by
    funext a; apply Fin.ext
    match a with
    | ⟨0, _⟩ => show win1_0.index t (0 : Fin 2) * 512 + 1 * r.val = win1_2.index t (0 : Fin 2) * 512 + 1 * r.val; rw [e0, e4]
    | ⟨1, _⟩ => show win1_0.index t (1 : Fin 2) * 4096 + 1 * s.val = s.val; rw [e1]; omega
  have h1 : ((cfg1.win 1).blk t).view.emb (ix2 s d) = ix2 s ((((cfg1.win 2).blk t).view.emb (ix2 r d)) 1) := by
    funext a; apply Fin.ext
    match a with
    | ⟨0, _⟩ => show win1_1.index t (0 : Fin 2) * 4096 + 1 * s.val = s.val; rw [e2]; omega
    | ⟨1, _⟩ => show win1_1.index t (1 : Fin 2) * 256 + 1 * d.val = win1_2.index t (1 : Fin 2) * 256 + 1 * d.val; rw [e3, e5]
  exact congrArg₂ (· * ·) (congrArg (Qb V c) h0) (congrArg (Hb V c) h1)

theorem mem_blk1 (t : Fin cfg1.N) (i : S65536x256.Idx) :
    i ∈ ((cfg1.win 2).blk t).view.set ↔ ∀ a : Fin 2, win1_2.index t a * S512x256.size a ≤ (i a).val ∧ (i a).val < win1_2.index t a * S512x256.size a + S512x256.size a := by
  show i ∈ ((View.whole main_v126).slice (win1_2.rect t)).set ↔ _
  rw [View.set_slice_whole, Rect.mem_set_unit]
  exact Iff.rfl

/-- THE RESULT ARRAY after the run: the product, at every index (the 128 row blocks tile it). -/
theorem final1 (c : Dev nD) : (dat1 V c).arrAt 2 cfg1.N = prodAt (Qb V c) (Hb V c) :=
  (dat1 V c).arrAt_eq_of_cover 2 (prodAt (Qb V c) (Hb V c)) (fun t _ => flushed1_eq V c t) fun i => by
    have hi0 : (i 0).val < 65536 := (i 0).isLt
    have hi1 : (i 1).val < 256 := (i 1).isLt
    have ht : (i 0).val / 512 < cfg1.N := by rw [N1_eq]; omega
    refine ⟨⟨(i 0).val / 512, ht⟩, flush1_2 _, ?_⟩
    rw [mem_blk1]
    obtain ⟨-, -, -, -, e4, e5⟩ := idx1 ⟨(i 0).val / 512, ht⟩
    intro a
    match a with
    | ⟨0, _⟩ => show win1_2.index ⟨(i 0).val / 512, ht⟩ (0 : Fin 2) * 512 ≤ (i 0).val ∧ (i 0).val < win1_2.index ⟨(i 0).val / 512, ht⟩ (0 : Fin 2) * 512 + 512
                rw [e4]; show (i 0).val / 512 * 512 ≤ (i 0).val ∧ (i 0).val < (i 0).val / 512 * 512 + 512; omega
    | ⟨1, _⟩ => show win1_2.index ⟨(i 0).val / 512, ht⟩ (1 : Fin 2) * 256 ≤ (i 1).val ∧ (i 1).val < win1_2.index ⟨(i 0).val / 512, ht⟩ (1 : Fin 2) * 256 + 256
                rw [e5]; omega

end Cert.KernelIdeal.Hand

end
-- ==== Proof.Layers.lean ====
/-
  The reference's value as three named maps of its arguments.

  The reference pools the rows of x by the columns of Q, each column divided by its sum (hpRef),
  passes the pooled rows through two message-passing layers of the same form (layers), and spreads
  the result back along the rows of Q (finalDot). Every definition below is the reference program's
  own composition of its operations, with the shared intermediate values named once.
-/
import proofs.«165815_j54073638257172_1_alg».proof.ReferenceIdeal

noncomputable section

namespace Cert.Bridge

open Idealize.ShloMosaic Cert.ReferenceIdeal Cert.ReferenceIdeal.Facts₀

variable {F : FTy → Type} [FloatOps F] [Facts₀]

/-- The pooled rows: entry (s, d) is the sum over p of (Q[p, s] / colsum[s]) * x[p, d], where
    colsum[s] is the sum over p of Q[p, s]. -/
def hpRef (Q : FVec F S65536x4096 .f32) (x : FVec F S65536x256 .f32) : FVec F S4096x256 .f32 :=
  Host.dotGeneral dot_S4096x65536_S65536x256_S4096x256_1_0_0_1_n_n none (transpose S4096x65536 [1, 0] (Host.divf Q (broadcastInDim S65536x4096 ![0, 1] bcast_S1x4096_S65536x4096_0_1 (broadcastInDim S1x4096 ![1] bcast_S4096_S1x4096_1 (Host.reduceAdd Q (constant S_ .f32 0x00000000#32) reducesTo_S65536x4096_S4096_d0 h_S_)))) transposes_S65536x4096_S4096x65536_1_0) x

/-- The linear map of a layer: h W + b, the bias added to every row. -/
def lin (W : FVec F S256x256 .f32) (b : FVec F S256 .f32) (h : FVec F S4096x256 .f32) :
    FVec F S4096x256 .f32 :=
  addf (Host.dotGeneral dot_S4096x256_S256x256_S4096x256_1_0_0_1_n_n none h W) (broadcastInDim S4096x256 ![0, 1] bcast_S1x256_S4096x256_0_1 (broadcastInDim S1x256 ![1] bcast_S256_S1x256_1 b))

/-- The messages of a layer, summed at their destinations: over the first edge list the rows of a
    (the linear map's output) taken at the sources and weighted, over the second edge list the rows
    of h (the layer's input) likewise; a negative source index counts from the end. -/
def agg (esrc edst : IVec S131072 32) (ew : FVec F S131072 .f32) (isrc idst : IVec S20480 32)
    (iw : FVec F S20480 .f32) (a h : FVec F S4096x256 .f32) : FVec F S4096x256 .f32 :=
  addf (Host.scatterAdd scatter_S4096x256_S131072x1_S131072x256_1_0_0_1 (broadcastInDim S4096x256 ![] bcast_S_S4096x256 (constant S_ .f32 0x00000000#32)) (broadcastInDim S131072x1 ![0] bcast_S131072_S131072x1_0 edst) (mulf (broadcastInDim S131072x256 ![0, 1] bcast_S131072x1_S131072x256_0_1 (broadcastInDim S131072x1 ![0] bcast_S131072_S131072x1_0 ew)) (Host.gather gather_S4096x256_S131072x1_S131072x256_1_0_n_n_0_1_1256 a (broadcastInDim S131072x1 ![0] bcast_S131072_S131072x1_0 (select (cmpi .slt esrc (broadcastInDim S131072 ![] bcast_S_S131072 (constantI S_ 32 0#32))) (addi esrc (broadcastInDim S131072 ![] bcast_S_S131072 (constantI S_ 32 4096#32))) esrc))))) (Host.scatterAdd scatter_S4096x256_S20480x1_S20480x256_1_0_0_1 (broadcastInDim S4096x256 ![] bcast_S_S4096x256 (constant S_ .f32 0x00000000#32)) (broadcastInDim S20480x1 ![0] bcast_S20480_S20480x1_0 idst) (mulf (broadcastInDim S20480x256 ![0, 1] bcast_S20480x1_S20480x256_0_1 (broadcastInDim S20480x1 ![0] bcast_S20480_S20480x1_0 iw)) (Host.gather gather_S4096x256_S20480x1_S20480x256_1_0_n_n_0_1_1256 h (broadcastInDim S20480x1 ![0] bcast_S20480_S20480x1_0 (select (cmpi .slt isrc (broadcastInDim S20480 ![] bcast_S_S20480 (constantI S_ 32 0#32))) (addi isrc (broadcastInDim S20480 ![] bcast_S_S20480 (constantI S_ 32 4096#32))) isrc)))))

/-- A value minus its column mean (the mean over the 4096 rows). -/
def center (z : FVec F S4096x256 .f32) : FVec F S4096x256 .f32 :=
  subf z (broadcastInDim S4096x256 ![0, 1] bcast_S1x256_S4096x256_0_1 (broadcastInDim S1x256 ![1] bcast_S256_S1x256_1 (Host.divf (Host.reduceAdd z (constant S_ .f32 0x00000000#32) reducesTo_S4096x256_S256_d0 h_S_) (broadcastInDim S256 ![] bcast_S_S256 (constant S_ .f32 0x45800000#32)))))

/-- Column normalisation: the centred value times the reciprocal square root of the column variance
    plus a small constant, then scaled by g and shifted by be. -/
def norm (g be : FVec F S256 .f32) (z : FVec F S4096x256 .f32) : FVec F S4096x256 .f32 :=
  addf (mulf (mulf (center z) (broadcastInDim S4096x256 ![0, 1] bcast_S1x256_S4096x256_0_1 (broadcastInDim S1x256 ![1] bcast_S256_S1x256_1 (Host.rsqrt (addf (Host.divf (Host.reduceAdd (mulf (center z) (center z)) (constant S_ .f32 0x00000000#32) reducesTo_S4096x256_S256_d0 h_S_) (broadcastInDim S256 ![] bcast_S_S256 (constant S_ .f32 0x45800000#32))) (broadcastInDim S256 ![] bcast_S_S256 (constant S_ .f32 0x3727C5AC#32))))))) (broadcastInDim S4096x256 ![0, 1] bcast_S1x256_S4096x256_0_1 (broadcastInDim S1x256 ![1] bcast_S256_S1x256_1 g))) (broadcastInDim S4096x256 ![0, 1] bcast_S1x256_S4096x256_0_1 (broadcastInDim S1x256 ![1] bcast_S256_S1x256_1 be))

/-- The activation: y where y is at least zero, a fixed small multiple of y elsewhere. -/
def act (y : FVec F S4096x256 .f32) : FVec F S4096x256 .f32 :=
  select (cmpf .oge y (broadcastInDim S4096x256 ![] bcast_S_S4096x256 (constant S_ .f32 0x00000000#32))) y (mulf (broadcastInDim S4096x256 ![] bcast_S_S4096x256 (constant S_ .f32 0x3C23D70A#32)) y)

/-- One message-passing layer. -/
def layer (esrc edst : IVec S131072 32) (ew : FVec F S131072 .f32) (isrc idst : IVec S20480 32)
    (iw : FVec F S20480 .f32) (W : FVec F S256x256 .f32) (b g be : FVec F S256 .f32)
    (h : FVec F S4096x256 .f32) : FVec F S4096x256 .f32 :=
  act (norm g be (agg esrc edst ew isrc idst iw (lin W b h) h))

/-- The two layers, the second reading the first's output. -/
def layers (esrc edst : IVec S131072 32) (ew : FVec F S131072 .f32) (isrc idst : IVec S20480 32)
    (iw : FVec F S20480 .f32) (W1 : FVec F S256x256 .f32) (b1 g1 be1 : FVec F S256 .f32)
    (W2 : FVec F S256x256 .f32) (b2 g2 be2 : FVec F S256 .f32) (hp : FVec F S4096x256 .f32) :
    FVec F S4096x256 .f32 :=
  layer esrc edst ew isrc idst iw W2 b2 g2 be2 (layer esrc edst ew isrc idst iw W1 b1 g1 be1 hp)

/-- The result: entry (p, d) is the sum over s of Q[p, s] * h[s, d]. -/
def finalDot (Q : FVec F S65536x4096 .f32) (h : FVec F S4096x256 .f32) : FVec F S65536x256 .f32 :=
  Host.dotGeneral dot_S65536x4096_S4096x256_S65536x256_1_0_0_1_n_n none Q h

end Cert.Bridge

end
-- ==== Proof.KIHost.lean ====
/-
  The kernel's host operations between its two regions, read as the two layers of Layers.lean.

  Between the regions the kernel divides the raw pooled sums by the column sums (the row of column sums
  transposed to a column and broadcast along the result's columns) and passes the quotient through the same two
  message-passing layers as the reference. The stretch is cut into the quotient (three operations), the first
  layer and the second layer; each block, from ANY contents W, leaves its result at the block's named map of
  W's values, and no block writes an argument. The kernel's dimension records have the same fields as the
  reference's, so the layers are the reference's layers.
-/
import proofs.«165815_j54073638257172_1_alg».proof.Proof.Gen.KernelIdeal.Launch
import proofs.«165815_j54073638257172_1_alg».proof.Proof.Gen.ReferenceIdeal
import proofs.«165815_j54073638257172_1_alg».proof.Proof.Layers
import Idealize.ShloMosaic.Lib.StableHlo.Run
import Idealize.ShloMosaic.Lib.Pipeline.Frame

noncomputable section

namespace Cert.Bridge.Ker

open Cert.KernelIdeal Cert.KernelIdeal.Gen Idealize.ShloMosaic Idealize.ShloMosaic.TcCoe Idealize.SL.Sem Idealize.ShloMosaic.StableHlo

variable {F : FTy → Type} [FloatOps F]

/-- The quotient: the first three operations of the stretch. -/
abbrev opsQuot : List (HloOp τ sig (Elt F)) :=
  [ StableHlo.unary main_v0_1 main_v1 ((transpose S4096x1 [1, 0] · transposes_S1x4096_S4096x1_1_0) : (⟨S1x4096, .f32⟩ : BufTy).Contents (Elt F) → (⟨S4096x1, .f32⟩ : BufTy).Contents (Elt F)),
    StableHlo.unary main_v1 main_v2 (broadcastInDim S4096x256 ![0, 1] bcast_S4096x1_S4096x256_0_1 : (⟨S4096x1, .f32⟩ : BufTy).Contents (Elt F) → (⟨S4096x256, .f32⟩ : BufTy).Contents (Elt F)),
    StableHlo.binary main_v0_0 main_v2 main_v3 (Host.divf : (⟨S4096x256, .f32⟩ : BufTy).Contents (Elt F) → (⟨S4096x256, .f32⟩ : BufTy).Contents (Elt F) → (⟨S4096x256, .f32⟩ : BufTy).Contents (Elt F)) ]

/-- The first layer up to its activation's select: the stretch's remaining 73 operations. -/
abbrev opsLayer1 : List (HloOp τ sig (Elt F)) :=
  [ StableHlo.binary main_v3 main_arg8 main_v4 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    StableHlo.unary main_arg9 main_v5 (broadcastInDim S1x256 ![1] bcast_S256_S1x256_1 : (⟨S256, .f32⟩ : BufTy).Contents (Elt F) → (⟨S1x256, .f32⟩ : BufTy).Contents (Elt F)),
    StableHlo.unary main_v5 main_v6 (broadcastInDim S4096x256 ![0, 1] bcast_S1x256_S4096x256_0_1 : (⟨S1x256, .f32⟩ : BufTy).Contents (Elt F) → (⟨S4096x256, .f32⟩ : BufTy).Contents (Elt F)),
    StableHlo.binary main_v4 main_v6 main_v7 (addf : (⟨S4096x256, .f32⟩ : BufTy).Contents (Elt F) → (⟨S4096x256, .f32⟩ : BufTy).Contents (Elt F) → (⟨S4096x256, .f32⟩ : BufTy).Contents (Elt F)),
    StableHlo.unary main_arg4 main_v8 (broadcastInDim S131072x1 ![0] bcast_S131072_S131072x1_0 : (⟨S131072, .f32⟩ : BufTy).Contents (Elt F) → (⟨S131072x1, .f32⟩ : BufTy).Contents (Elt F)),
    StableHlo.nullary main_c (constantI S_ 32 0#32),
    StableHlo.unary main_c main_v9 (broadcastInDim S131072 ![] bcast_S_S131072 : (⟨S_, .i32⟩ : BufTy).Contents (Elt F) → (⟨S131072, .i32⟩ : BufTy).Contents (Elt F)),
    StableHlo.binary main_arg2 main_v9 main_v10 (cmpi .slt : (⟨S131072, .i32⟩ : BufTy).Contents (Elt F) → (⟨S131072, .i32⟩ : BufTy).Contents (Elt F) → (⟨S131072, .i1⟩ : BufTy).Contents (Elt F)),
    StableHlo.nullary main_c_0 (constantI S_ 32 4096#32),
    StableHlo.unary main_c_0 main_v11 (broadcastInDim S131072 ![] bcast_S_S131072 : (⟨S_, .i32⟩ : BufTy).Contents (Elt F) → (⟨S131072, .i32⟩ : BufTy).Contents (Elt F)),
    StableHlo.binary main_arg2 main_v11 main_v12 (addi : (⟨S131072, .i32⟩ : BufTy).Contents (Elt F) → (⟨S131072, .i32⟩ : BufTy).Contents (Elt F) → (⟨S131072, .i32⟩ : BufTy).Contents (Elt F)),
    StableHlo.ternary main_v10 main_v12 main_arg2 main_v13 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v13 main_v14 (broadcastInDim S131072x1 ![0] bcast_S131072_S131072x1_0 : (⟨S131072, .i32⟩ : BufTy).Contents (Elt F) → (⟨S131072x1, .i32⟩ : BufTy).Contents (Elt F)),
    StableHlo.binary main_v7 main_v14 main_v15 ((fun x i => Host.gather gather_S4096x256_S131072x1_S131072x256_1_0_n_n_0_1_1256 x i) : (⟨S4096x256, .f32⟩ : BufTy).Contents (Elt F) → (⟨S131072x1, .i32⟩ : BufTy).Contents (Elt F) → (⟨S131072x256, .f32⟩ : BufTy).Contents (Elt F)),
    StableHlo.unary main_v8 main_v16 (broadcastInDim S131072x256 ![0, 1] bcast_S131072x1_S131072x256_0_1 : (⟨S131072x1, .f32⟩ : BufTy).Contents (Elt F) → (⟨S131072x256, .f32⟩ : BufTy).Contents (Elt F)),
    StableHlo.binary main_v16 main_v15 main_v17 (mulf : (⟨S131072x256, .f32⟩ : BufTy).Contents (Elt F) → (⟨S131072x256, .f32⟩ : BufTy).Contents (Elt F) → (⟨S131072x256, .f32⟩ : BufTy).Contents (Elt F)),
    StableHlo.nullary main_cst (constant S_ .f32 0x00000000#32),
    StableHlo.unary main_cst main_v18 (broadcastInDim S4096x256 ![] bcast_S_S4096x256 : (⟨S_, .f32⟩ : BufTy).Contents (Elt F) → (⟨S4096x256, .f32⟩ : BufTy).Contents (Elt F)),
    StableHlo.unary main_arg3 main_v19 (broadcastInDim S131072x1 ![0] bcast_S131072_S131072x1_0 : (⟨S131072, .i32⟩ : BufTy).Contents (Elt F) → (⟨S131072x1, .i32⟩ : BufTy).Contents (Elt F)),
    StableHlo.ternary main_v18 main_v19 main_v17 main_v20 ((fun x i u => Host.scatterAdd scatter_S4096x256_S131072x1_S131072x256_1_0_0_1 x i u) : (⟨S4096x256, .f32⟩ : BufTy).Contents (Elt F) → (⟨S131072x1, .i32⟩ : BufTy).Contents (Elt F) → (⟨S131072x256, .f32⟩ : BufTy).Contents (Elt F) → (⟨S4096x256, .f32⟩ : BufTy).Contents (Elt F)),
    StableHlo.unary main_arg7 main_v21 (broadcastInDim S20480x1 ![0] bcast_S20480_S20480x1_0 : (⟨S20480, .f32⟩ : BufTy).Contents (Elt F) → (⟨S20480x1, .f32⟩ : BufTy).Contents (Elt F)),
    StableHlo.nullary main_c_1 (constantI S_ 32 0#32),
    StableHlo.unary main_c_1 main_v22 (broadcastInDim S20480 ![] bcast_S_S20480 : (⟨S_, .i32⟩ : BufTy).Contents (Elt F) → (⟨S20480, .i32⟩ : BufTy).Contents (Elt F)),
    StableHlo.binary main_arg5 main_v22 main_v23 (cmpi .slt : (⟨S20480, .i32⟩ : BufTy).Contents (Elt F) → (⟨S20480, .i32⟩ : BufTy).Contents (Elt F) → (⟨S20480, .i1⟩ : BufTy).Contents (Elt F)),
    StableHlo.nullary main_c_2 (constantI S_ 32 4096#32),
    StableHlo.unary main_c_2 main_v24 (broadcastInDim S20480 ![] bcast_S_S20480 : (⟨S_, .i32⟩ : BufTy).Contents (Elt F) → (⟨S20480, .i32⟩ : BufTy).Contents (Elt F)),
    StableHlo.binary main_arg5 main_v24 main_v25 (addi : (⟨S20480, .i32⟩ : BufTy).Contents (Elt F) → (⟨S20480, .i32⟩ : BufTy).Contents (Elt F) → (⟨S20480, .i32⟩ : BufTy).Contents (Elt F)),
    StableHlo.ternary main_v23 main_v25 main_arg5 main_v26 (select : (⟨S20480, .i1⟩ : BufTy).Contents (Elt F) → (⟨S20480, .i32⟩ : BufTy).Contents (Elt F) → (⟨S20480, .i32⟩ : BufTy).Contents (Elt F) → (⟨S20480, .i32⟩ : BufTy).Contents (Elt F)),
    StableHlo.unary main_v26 main_v27 (broadcastInDim S20480x1 ![0] bcast_S20480_S20480x1_0 : (⟨S20480, .i32⟩ : BufTy).Contents (Elt F) → (⟨S20480x1, .i32⟩ : BufTy).Contents (Elt F)),
    StableHlo.binary main_v3 main_v27 main_v28 ((fun x i => Host.gather gather_S4096x256_S20480x1_S20480x256_1_0_n_n_0_1_1256 x i) : (⟨S4096x256, .f32⟩ : BufTy).Contents (Elt F) → (⟨S20480x1, .i32⟩ : BufTy).Contents (Elt F) → (⟨S20480x256, .f32⟩ : BufTy).Contents (Elt F)),
    StableHlo.unary main_v21 main_v29 (broadcastInDim S20480x256 ![0, 1] bcast_S20480x1_S20480x256_0_1 : (⟨S20480x1, .f32⟩ : BufTy).Contents (Elt F) → (⟨S20480x256, .f32⟩ : BufTy).Contents (Elt F)),
    StableHlo.binary main_v29 main_v28 main_v30 (mulf : (⟨S20480x256, .f32⟩ : BufTy).Contents (Elt F) → (⟨S20480x256, .f32⟩ : BufTy).Contents (Elt F) → (⟨S20480x256, .f32⟩ : BufTy).Contents (Elt F)),
    StableHlo.nullary main_cst_3 (constant S_ .f32 0x00000000#32),
    StableHlo.unary main_cst_3 main_v31 (broadcastInDim S4096x256 ![] bcast_S_S4096x256 : (⟨S_, .f32⟩ : BufTy).Contents (Elt F) → (⟨S4096x256, .f32⟩ : BufTy).Contents (Elt F)),
    StableHlo.unary main_arg6 main_v32 (broadcastInDim S20480x1 ![0] bcast_S20480_S20480x1_0 : (⟨S20480, .i32⟩ : BufTy).Contents (Elt F) → (⟨S20480x1, .i32⟩ : BufTy).Contents (Elt F)),
    StableHlo.ternary main_v31 main_v32 main_v30 main_v33 ((fun x i u => Host.scatterAdd scatter_S4096x256_S20480x1_S20480x256_1_0_0_1 x i u) : (⟨S4096x256, .f32⟩ : BufTy).Contents (Elt F) → (⟨S20480x1, .i32⟩ : BufTy).Contents (Elt F) → (⟨S20480x256, .f32⟩ : BufTy).Contents (Elt F) → (⟨S4096x256, .f32⟩ : BufTy).Contents (Elt F)),
    StableHlo.binary main_v20 main_v33 main_v34 (addf : (⟨S4096x256, .f32⟩ : BufTy).Contents (Elt F) → (⟨S4096x256, .f32⟩ : BufTy).Contents (Elt F) → (⟨S4096x256, .f32⟩ : BufTy).Contents (Elt F)),
    StableHlo.nullary main_cst_4 (constant S_ .f32 0x00000000#32),
    StableHlo.binary main_v34 main_cst_4 main_v35 ((fun x v => Host.reduceAdd x v reducesTo_S4096x256_S256_d0 h_S_) : (⟨S4096x256, .f32⟩ : BufTy).Contents (Elt F) → (⟨S_, .f32⟩ : BufTy).Contents (Elt F) → (⟨S256, .f32⟩ : BufTy).Contents (Elt F)),
    StableHlo.nullary main_cst_5 (constant S_ .f32 0x45800000#32),
    StableHlo.unary main_cst_5 main_v36 (broadcastInDim S256 ![] bcast_S_S256 : (⟨S_, .f32⟩ : BufTy).Contents (Elt F) → (⟨S256, .f32⟩ : BufTy).Contents (Elt F)),
    StableHlo.binary main_v35 main_v36 main_v37 (Host.divf : (⟨S256, .f32⟩ : BufTy).Contents (Elt F) → (⟨S256, .f32⟩ : BufTy).Contents (Elt F) → (⟨S256, .f32⟩ : BufTy).Contents (Elt F)),
    StableHlo.unary main_v37 main_v38 (broadcastInDim S1x256 ![1] bcast_S256_S1x256_1 : (⟨S256, .f32⟩ : BufTy).Contents (Elt F) → (⟨S1x256, .f32⟩ : BufTy).Contents (Elt F)),
    StableHlo.unary main_v38 main_v39 (broadcastInDim S4096x256 ![0, 1] bcast_S1x256_S4096x256_0_1 : (⟨S1x256, .f32⟩ : BufTy).Contents (Elt F) → (⟨S4096x256, .f32⟩ : BufTy).Contents (Elt F)),
    StableHlo.binary main_v34 main_v39 main_v40 (subf : (⟨S4096x256, .f32⟩ : BufTy).Contents (Elt F) → (⟨S4096x256, .f32⟩ : BufTy).Contents (Elt F) → (⟨S4096x256, .f32⟩ : BufTy).Contents (Elt F)),
    StableHlo.binary main_v40 main_v40 main_v41 (mulf : (⟨S4096x256, .f32⟩ : BufTy).Contents (Elt F) → (⟨S4096x256, .f32⟩ : BufTy).Contents (Elt F) → (⟨S4096x256, .f32⟩ : BufTy).Contents (Elt F)),
    StableHlo.nullary main_cst_6 (constant S_ .f32 0x00000000#32),
    StableHlo.binary main_v41 main_cst_6 main_v42 ((fun x v => Host.reduceAdd x v reducesTo_S4096x256_S256_d0 h_S_) : (⟨S4096x256, .f32⟩ : BufTy).Contents (Elt F) → (⟨S_, .f32⟩ : BufTy).Contents (Elt F) → (⟨S256, .f32⟩ : BufTy).Contents (Elt F)),
    StableHlo.nullary main_cst_7 (constant S_ .f32 0x45800000#32),
    StableHlo.unary main_cst_7 main_v43 (broadcastInDim S256 ![] bcast_S_S256 : (⟨S_, .f32⟩ : BufTy).Contents (Elt F) → (⟨S256, .f32⟩ : BufTy).Contents (Elt F)),
    StableHlo.binary main_v42 main_v43 main_v44 (Host.divf : (⟨S256, .f32⟩ : BufTy).Contents (Elt F) → (⟨S256, .f32⟩ : BufTy).Contents (Elt F) → (⟨S256, .f32⟩ : BufTy).Contents (Elt F)),
    StableHlo.unary main_v37 main_v45 (broadcastInDim S1x256 ![1] bcast_S256_S1x256_1 : (⟨S256, .f32⟩ : BufTy).Contents (Elt F) → (⟨S1x256, .f32⟩ : BufTy).Contents (Elt F)),
    StableHlo.unary main_v45 main_v46 (broadcastInDim S4096x256 ![0, 1] bcast_S1x256_S4096x256_0_1 : (⟨S1x256, .f32⟩ : BufTy).Contents (Elt F) → (⟨S4096x256, .f32⟩ : BufTy).Contents (Elt F)),
    StableHlo.binary main_v34 main_v46 main_v47 (subf : (⟨S4096x256, .f32⟩ : BufTy).Contents (Elt F) → (⟨S4096x256, .f32⟩ : BufTy).Contents (Elt F) → (⟨S4096x256, .f32⟩ : BufTy).Contents (Elt F)),
    StableHlo.nullary main_cst_8 (constant S_ .f32 0x3727C5AC#32),
    StableHlo.unary main_cst_8 main_v48 (broadcastInDim S256 ![] bcast_S_S256 : (⟨S_, .f32⟩ : BufTy).Contents (Elt F) → (⟨S256, .f32⟩ : BufTy).Contents (Elt F)),
    StableHlo.binary main_v44 main_v48 main_v49 (addf : (⟨S256, .f32⟩ : BufTy).Contents (Elt F) → (⟨S256, .f32⟩ : BufTy).Contents (Elt F) → (⟨S256, .f32⟩ : BufTy).Contents (Elt F)),
    StableHlo.unary main_v49 main_v50 (Host.rsqrt : (⟨S256, .f32⟩ : BufTy).Contents (Elt F) → (⟨S256, .f32⟩ : BufTy).Contents (Elt F)),
    StableHlo.unary main_v50 main_v51 (broadcastInDim S1x256 ![1] bcast_S256_S1x256_1 : (⟨S256, .f32⟩ : BufTy).Contents (Elt F) → (⟨S1x256, .f32⟩ : BufTy).Contents (Elt F)),
    StableHlo.unary main_v51 main_v52 (broadcastInDim S4096x256 ![0, 1] bcast_S1x256_S4096x256_0_1 : (⟨S1x256, .f32⟩ : BufTy).Contents (Elt F) → (⟨S4096x256, .f32⟩ : BufTy).Contents (Elt F)),
    StableHlo.binary main_v47 main_v52 main_v53 (mulf : (⟨S4096x256, .f32⟩ : BufTy).Contents (Elt F) → (⟨S4096x256, .f32⟩ : BufTy).Contents (Elt F) → (⟨S4096x256, .f32⟩ : BufTy).Contents (Elt F)),
    StableHlo.unary main_arg10 main_v54 (broadcastInDim S1x256 ![1] bcast_S256_S1x256_1 : (⟨S256, .f32⟩ : BufTy).Contents (Elt F) → (⟨S1x256, .f32⟩ : BufTy).Contents (Elt F)),
    StableHlo.unary main_v54 main_v55 (broadcastInDim S4096x256 ![0, 1] bcast_S1x256_S4096x256_0_1 : (⟨S1x256, .f32⟩ : BufTy).Contents (Elt F) → (⟨S4096x256, .f32⟩ : BufTy).Contents (Elt F)),
    StableHlo.binary main_v53 main_v55 main_v56 (mulf : (⟨S4096x256, .f32⟩ : BufTy).Contents (Elt F) → (⟨S4096x256, .f32⟩ : BufTy).Contents (Elt F) → (⟨S4096x256, .f32⟩ : BufTy).Contents (Elt F)),
    StableHlo.unary main_arg11 main_v57 (broadcastInDim S1x256 ![1] bcast_S256_S1x256_1 : (⟨S256, .f32⟩ : BufTy).Contents (Elt F) → (⟨S1x256, .f32⟩ : BufTy).Contents (Elt F)),
    StableHlo.unary main_v57 main_v58 (broadcastInDim S4096x256 ![0, 1] bcast_S1x256_S4096x256_0_1 : (⟨S1x256, .f32⟩ : BufTy).Contents (Elt F) → (⟨S4096x256, .f32⟩ : BufTy).Contents (Elt F)),
    StableHlo.binary main_v56 main_v58 main_v59 (addf : (⟨S4096x256, .f32⟩ : BufTy).Contents (Elt F) → (⟨S4096x256, .f32⟩ : BufTy).Contents (Elt F) → (⟨S4096x256, .f32⟩ : BufTy).Contents (Elt F)),
    StableHlo.nullary main_cst_9 (constant S_ .f32 0x00000000#32),
    StableHlo.unary main_cst_9 main_v60 (broadcastInDim S4096x256 ![] bcast_S_S4096x256 : (⟨S_, .f32⟩ : BufTy).Contents (Elt F) → (⟨S4096x256, .f32⟩ : BufTy).Contents (Elt F)),
    StableHlo.binary main_v59 main_v60 main_v61 (cmpf .oge : (⟨S4096x256, .f32⟩ : BufTy).Contents (Elt F) → (⟨S4096x256, .f32⟩ : BufTy).Contents (Elt F) → (⟨S4096x256, .i1⟩ : BufTy).Contents (Elt F)),
    StableHlo.nullary main_cst_10 (constant S_ .f32 0x3C23D70A#32),
    StableHlo.unary main_cst_10 main_v62 (broadcastInDim S4096x256 ![] bcast_S_S4096x256 : (⟨S_, .f32⟩ : BufTy).Contents (Elt F) → (⟨S4096x256, .f32⟩ : BufTy).Contents (Elt F)),
    StableHlo.binary main_v62 main_v59 main_v63 (mulf : (⟨S4096x256, .f32⟩ : BufTy).Contents (Elt F) → (⟨S4096x256, .f32⟩ : BufTy).Contents (Elt F) → (⟨S4096x256, .f32⟩ : BufTy).Contents (Elt F)) ]

set_option maxRecDepth 8192 in
set_option maxHeartbeats 4000000 in
/-- The first stretch is the quotient and then the first layer's operations. -/
theorem hostOps1_split : (hostOps1 : List (HloOp τ sig (Elt F))) = opsQuot ++ opsLayer1 := rfl

/-! ## Each block from any contents -/

/-- The quotient block leaves the raw sums over the column sums. -/
theorem quot_result (W : Valuation τ sig (Elt F)) :
    after opsQuot W (Proc.devRef .tc main_v3)
      = Host.divf (W (Proc.devRef .tc main_v0_0)) (broadcastInDim S4096x256 ![0, 1] bcast_S4096x1_S4096x256_0_1
          (transpose S4096x1 [1, 0] (W (Proc.devRef .tc main_v0_1)) transposes_S1x4096_S4096x1_1_0)) := by
  after_results_simp <;> rfl

set_option maxRecDepth 8192 in
set_option maxHeartbeats 4000000 in
/-- The first layer's operations and its select leave the layer's map of W's quotient, with the first layer's
    parameters. -/
theorem layer1_result (W : Valuation τ sig (Elt F)) :
    after hostOps1_1 (after opsLayer1 W) (Proc.devRef .tc main_v64)
      = Cert.Bridge.layer (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_v3)) := by
  after_results_simp <;> rfl

set_option maxRecDepth 8192 in
set_option maxHeartbeats 4000000 in
/-- The second layer's operations and its select leave the layer's map of the first layer's output, with the
    second layer's parameters. -/
theorem layer2_result (W : Valuation τ sig (Elt F)) :
    after hostOps1_3 (after hostOps1_2 W) (Proc.devRef .tc main_v125)
      = Cert.Bridge.layer (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg12)) (W (Proc.devRef .tc main_arg13)) (W (Proc.devRef .tc main_arg14)) (W (Proc.devRef .tc main_arg15)) (W (Proc.devRef .tc main_v64)) := by
  after_results_simp <;> rfl

/-! ## The whole stretch -/

set_option maxRecDepth 8192 in
set_option maxHeartbeats 4000000 in
/-- After the four lists of the stretch, from any contents W, the second layer's output buffer holds the two
    layers of W's quotient. -/
theorem host_result (W : Valuation τ sig (Elt F)) :
    after hostOps1_3 (after hostOps1_2 (after hostOps1_1 (after hostOps1 W))) (Proc.devRef .tc main_v125)
      = Cert.Bridge.layers (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15))
          (Host.divf (W (Proc.devRef .tc main_v0_0)) (broadcastInDim S4096x256 ![0, 1] bcast_S4096x1_S4096x256_0_1
            (transpose S4096x1 [1, 0] (W (Proc.devRef .tc main_v0_1)) transposes_S1x4096_S4096x1_1_0))) := by
  rw [layer2_result, hostOps1_split, StableHlo.after_append, layer1_result, quot_result]
  unfold Cert.Bridge.layers
  after_results_simp <;> rfl

end Cert.Bridge.Ker

end
-- ==== Proof.Spec.lean ====
/-
  The algebraic law between the two arrangements of the pooled rows.

  For a column a of Q and a column b of x over the same finite index set, every entry a real and the
  sum of a nonzero,
      (sum_i a_i * b_i) / (sum_i a_i)  =  sum_i (a_i / (sum_j a_j)) * b_i
  in the extended reals with the ideal division: both sides are the real number
  (sum_i a_i * b_i) * (1 / c), c the real sum of a.
-/
import Idealize.ShloMosaic.PureOps.Ideal
import Idealize.ShloMosaic.Lib.ValueIdx
import Mathlib

noncomputable section

open scoped BigOperators

namespace Cert.Bridge

open Idealize.ShloMosaic Idealize.ShloMosaic.ValueIdx

/-- The coercion of a finite real sum is the sum of the coercions. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The law over an abstract finite index set. -/
theorem div_sum_mul {ι : Type*} [Fintype ι] (a b : ι → EReal) (ha : ∀ i, ∃ r : ℝ, a i = (r : EReal))
    (hb : ∀ i, ∃ r : ℝ, b i = (r : EReal)) (h0 : (∑ i, a i) ≠ 0) :
    Ideal.div (∑ i, a i * b i) (∑ i, a i) = ∑ i, Ideal.div (a i) (∑ j, a j) * b i := by
  choose α hα using ha
  choose β hβ using hb
  have hsum : (∑ i, a i) = ((∑ i, α i : ℝ) : EReal) := by
    rw [coe_sum]; exact Finset.sum_congr rfl fun i _ => hα i
  have hc : (∑ i, α i : ℝ) ≠ 0 := by
    intro h; apply h0; rw [hsum, h]; rfl
  rw [hsum, Ideal.div_coe hc]
  have hl : (∑ i, a i * b i) = ((∑ i, α i * β i : ℝ) : EReal) := by
    rw [coe_sum]; exact Finset.sum_congr rfl fun i _ => by rw [hα i, hβ i, EReal.coe_mul]
  have hr : (∑ i, Ideal.div (a i) ((∑ i, α i : ℝ) : EReal) * b i)
      = ((∑ i, α i * (1 / ∑ j, α j) * β i : ℝ) : EReal) := by
    rw [coe_sum Finset.univ fun i => α i * (1 / ∑ j, α j) * β i]
    exact Finset.sum_congr rfl fun i _ => by
      rw [Ideal.div_coe hc, hα i, hβ i, ← EReal.coe_mul, ← EReal.coe_mul]
  rw [hl, hr, ← EReal.coe_mul, Finset.sum_mul]
  exact congrArg _ (Finset.sum_congr rfl fun i _ => by ring)

/-- The kernel's arrangement at (s, d): the raw pooled sum divided by the column sum. -/
def hpKerAt (Q : (⟨2, ![65536, 4096]⟩ : Shape).Idx → EReal) (x : (⟨2, ![65536, 256]⟩ : Shape).Idx → EReal)
    (s : Fin 4096) (d : Fin 256) : EReal :=
  Ideal.div (∑ p : Fin 65536, Q (ix2 p s) * x (ix2 p d)) (∑ p : Fin 65536, Q (ix2 p s))

/-- The reference's arrangement at (s, d): each entry of the column divided by the column sum first. -/
def hpRefAt (Q : (⟨2, ![65536, 4096]⟩ : Shape).Idx → EReal) (x : (⟨2, ![65536, 256]⟩ : Shape).Idx → EReal)
    (s : Fin 4096) (d : Fin 256) : EReal :=
  ∑ p : Fin 65536, Ideal.div (Q (ix2 p s)) (∑ p' : Fin 65536, Q (ix2 p' s)) * x (ix2 p d)

/-- The two arrangements agree where Q and x are real and the column sum is nonzero. -/
theorem hpKerAt_eq_hpRefAt (Q : (⟨2, ![65536, 4096]⟩ : Shape).Idx → EReal)
    (x : (⟨2, ![65536, 256]⟩ : Shape).Idx → EReal)
    (hQ : ∀ i, ∃ r : ℝ, Q i = (r : EReal)) (hx : ∀ i, ∃ r : ℝ, x i = (r : EReal))
    (hcs : ∀ s : Fin 4096, (∑ p : Fin 65536, Q (ix2 p s)) ≠ 0) (s : Fin 4096) (d : Fin 256) :
    hpKerAt Q x s d = hpRefAt Q x s d :=
  div_sum_mul (fun p => Q (ix2 p s)) (fun p => x (ix2 p d)) (fun p => hQ _) (fun p => hx _) (hcs s)

end Cert.Bridge

end
-- ==== Proof.RefHp.lean ====
/-
  The pooled rows read at an index, in both arrangements.

  The reference: entry (s, d) of hpRef is the sum over p of (Q[p, s] / colsum[s]) * x[p, d], where colsum[s]
  is the sum over p of Q[p, s] — the transposed quotient against x, the divisor a column sum broadcast along
  the rows. The kernel's host form: the raw pooled sums divided by the column sums, the row of column sums
  transposed to a column and broadcast along the columns of the result.
-/
import proofs.«165815_j54073638257172_1_alg».proof.Proof.Layers
import proofs.«165815_j54073638257172_1_alg».proof.Proof.Spec
import Idealize.ShloMosaic.Lib.StackMember
import Idealize.ShloMosaic.Lib.IdealHost
import Idealize.ShloMosaic.Lib.Pipeline.Value
import Idealize.ShloMosaic.PureOps.Ideal.Laws

noncomputable section

open scoped BigOperators

namespace Cert.Bridge

open Idealize.ShloMosaic Idealize.ShloMosaic.ValueIdx Cert.ReferenceIdeal Cert.ReferenceIdeal.Facts₀

variable [Facts₀]

/-- The term of column s's sum at row p sits at index (p, s). -/
theorem lift_col_ref (hR : S65536x4096.Reduces [0] S4096) (s : Fin 4096) (p : Fin 65536) :
    hR.lift (ix1 s) p = ix2 p s :=
  funext fun a => Fin.ext (by match a with | ⟨0, _⟩ => rfl | ⟨1, _⟩ => rfl)

/-- A column sum of Q: the host's sum over the rows from the zero word is the sum of the column. -/
theorem colsum_apply (Q : FVec Ideal S65536x4096 .f32) (s : Fin 4096) :
    Host.reduceAdd Q (constant (F := Ideal) S_ .f32 0x00000000#32) reducesTo_S65536x4096_S4096_d0 h_S_ (ix1 s)
      = ∑ p : Fin 65536, Q (ix2 p s) := by
  have hR : S65536x4096.Reduces [0] S4096 := by decide
  rw [hostReduceAdd_apply, constant_apply, Ideal.hostReduceAdd_single _ hR, Ideal.ofBits_zero_f32, zero_add]
  exact Finset.sum_congr rfl fun p _ => congrArg Q (lift_col_ref hR s p)

/-- The divisor at (p, s): the column sums broadcast to a row and then along the rows read column s's sum. -/
theorem divisor_apply (cs : FVec Ideal S4096 .f32) (p : Fin 65536) (s : Fin 4096) :
    broadcastInDim S65536x4096 ![0, 1] bcast_S1x4096_S65536x4096_0_1
      (broadcastInDim S1x4096 ![1] bcast_S4096_S1x4096_1 cs) (ix2 p s) = cs (ix1 s) := by
  rw [broadcastInDim_apply _ _ _ (ix2 p s) (ix2 (0 : Fin 1) s)
      (fun a => by match a with | ⟨0, _⟩ => rfl | ⟨1, _⟩ => rfl),
    broadcastInDim_apply _ _ _ (ix2 (0 : Fin 1) s) (ix1 s) (fun a => by match a with | ⟨0, _⟩ => rfl)]

/-- The reference's pooled rows at (s, d). -/
theorem hpRef_apply (Q : FVec Ideal S65536x4096 .f32) (x : FVec Ideal S65536x256 .f32) (s : Fin 4096)
    (d : Fin 256) : hpRef (F := Ideal) Q x (ix2 s d) = hpRefAt Q x s d := by
  unfold hpRef hpRefAt
  refine (StackMember.dotGeneral_plain_apply (m := 4096) (k := 65536) (n := 256) none _ x s d).trans ?_
  refine Finset.sum_congr rfl fun p _ => ?_
  rw [transpose_apply _ _ _ (ix2 s p) (ix2 p s) (fun b => by match b with | ⟨0, _⟩ => rfl | ⟨1, _⟩ => rfl),
    hostDivf_apply, divisor_apply, colsum_apply]

/-- The kernel's host form at (s, d): the raw sum over the column sum, whatever the two shape witnesses. -/
theorem hpKer_apply (raw : FVec Ideal ⟨2, ![4096, 256]⟩ .f32) (cs : FVec Ideal ⟨2, ![1, 4096]⟩ .f32)
    (ht : (⟨2, ![1, 4096]⟩ : Shape).Transposes [1, 0] ⟨2, ![4096, 1]⟩)
    (hb : (⟨2, ![4096, 1]⟩ : Shape).BroadcastsInDim ⟨2, ![4096, 256]⟩ ![0, 1]) (s : Fin 4096) (d : Fin 256) :
    Host.divf raw (broadcastInDim ⟨2, ![4096, 256]⟩ ![0, 1] hb (transpose ⟨2, ![4096, 1]⟩ [1, 0] cs ht)) (ix2 s d)
      = Ideal.div (raw (ix2 s d)) (cs (ix2 (0 : Fin 1) s)) := by
  rw [hostDivf_apply,
    broadcastInDim_apply _ _ _ (ix2 s d) (ix2 s (0 : Fin 1))
      (fun a => by match a with | ⟨0, _⟩ => rfl | ⟨1, _⟩ => rfl),
    transpose_apply _ _ _ (ix2 s (0 : Fin 1)) (ix2 (0 : Fin 1) s)
      (fun b => by match b with | ⟨0, _⟩ => rfl | ⟨1, _⟩ => rfl)]

end Cert.Bridge

end
-- ==== Proof.FinalDot.lean ====
/-
  The result read at an index: entry (p, d) of Q times h is the sum over s of Q[p, s] * h[s, d].
-/
import proofs.«165815_j54073638257172_1_alg».proof.Proof.Layers
import Idealize.ShloMosaic.Lib.StackMember

noncomputable section

open scoped BigOperators

namespace Cert.Bridge

open Idealize.ShloMosaic Idealize.ShloMosaic.ValueIdx Cert.ReferenceIdeal

variable [Facts₀]

/-- The result at (p, d): the product's dimension numbers are the plain ones (the left operand's second
    axis against the right operand's first), so the entry is row p of Q against column d of h. -/
theorem finalDot_apply (Q : FVec Ideal S65536x4096 .f32) (h : FVec Ideal S4096x256 .f32) (p : Fin 65536)
    (d : Fin 256) : finalDot (F := Ideal) Q h (ix2 p d) = ∑ s : Fin 4096, Q (ix2 p s) * h (ix2 s d) :=
  StackMember.dotGeneral_plain_apply (m := 65536) (n := 256) (k := 4096) none Q h p d

end Cert.Bridge

end
-- ==== Proof.LibFinite.lean ====
/-
  GENERAL LEMMAS: a printed "is finite" test read back over the extended reals. At the ideal instance a float is an
  extended real, `|x|` is `max x (-x)`, a comparison is the linear order's, and the word 0x7F800000 denotes `+∞`. So the
  one-bit word of `|x| < +∞` being 1 says that `x` is a real number. Nothing here mentions a program.
-/
import Idealize.ShloMosaic.PureOps.Ideal

noncomputable section

namespace Cert.Lib.Finite

open Idealize.ShloMosaic

/-- The scalar shape has one index. -/
instance : Subsingleton (⟨0, ![]⟩ : Shape).Idx := ⟨fun a b => funext fun d => d.elim0⟩

/-- The word 0x7F800000 denotes `+∞`. -/
theorem ofBits_inf : Ideal.ofBits .f32 0x7F800000#32 = (⊤ : EReal) := by
  simp [Ideal.ofBits, Ideal.ieee]

/-- An extended real whose absolute value `max x (-x)` is below `+∞` is a real: `+∞` is its own absolute value, and
    `-∞`'s is `+∞` too. -/
theorem real_of_abs_lt_top (x : EReal) (h : max x (-x) < ⊤) : ∃ r : ℝ, x = (r : EReal) := by
  induction x using EReal.rec with
  | bot => simp at h
  | coe r => exact ⟨r, rfl⟩
  | top => simp at h

/-- The comparison `|x| < +∞` read back from its one-bit word: if it is 1, `x` is a real. -/
theorem real_of_cmp (x : EReal)
    (h : Ideal.cmp .olt (max x (-x)) (Ideal.ofBits .f32 0x7F800000#32) = 1#1) : ∃ r : ℝ, x = (r : EReal) := by
  refine real_of_abs_lt_top x ?_
  by_contra hn
  rw [ofBits_inf] at h
  simp [Ideal.cmp, hn] at h

end Cert.Lib.Finite

end
-- ==== Proof.PreFacts.lean ====
/-
  What the precondition says of the arguments, read over the extended reals.

  The precondition is one bit: the conjunction, over the float arguments, of "every entry has absolute
  value below +infinity", and last of "every column sum of Q differs from zero". When that bit is 1,
  every entry of x and of Q is a real number and no column of Q sums to zero.
-/
import proofs.«165815_j54073638257172_1_alg».proof.Pre_finite_inputs
import proofs.«165815_j54073638257172_1_alg».proof.Proof.LibFinite
import Idealize.ShloMosaic.Lib.ReduceAll
import Idealize.ShloMosaic.Lib.ValueIdx
import Idealize.ShloMosaic.Lib.IdealHost
import Idealize.ShloMosaic.Lib.Affine
import Idealize.ShloMosaic.PureOps.Ideal.Laws

noncomputable section

open scoped BigOperators

namespace Cert.Bridge

open Idealize.ShloMosaic Idealize.ShloMosaic.ValueIdx Cert.Pre_finite_inputs Cert.Pre_finite_inputs.Facts
  Cert.Lib.Finite

/-- A comparison "differs from" whose word is 1 says that its operands differ. -/
theorem ne_of_cmp_une (a b : EReal) (h : Ideal.cmp .une a b = 1#1) : a ≠ b := by
  intro e
  subst e
  simp [Ideal.cmp] at h

/-- The term of a column sum at row p of column s sits at index (p, s). -/
theorem lift_col (hR : S65536x4096.Reduces [0] S4096) (s : Fin 4096) (p : Fin 65536) :
    hR.lift (ix1 s) p = ix2 p s :=
  funext fun a => Fin.ext (by match a with | ⟨0, _⟩ => rfl | ⟨1, _⟩ => rfl)

variable [Cert.Pre_finite_inputs.Facts]

/-- From the precondition's bit: x and Q are real at every index, and every column sum of Q is nonzero. -/
theorem pre_facts (a0 : FVec Ideal S65536x256 .f32) (a1 : FVec Ideal S65536x4096 .f32)
    (a2 a3 : IVec S131072 32) (a4 : FVec Ideal S131072 .f32) (a5 a6 : IVec S20480 32)
    (a7 : FVec Ideal S20480 .f32) (a8 : FVec Ideal S256x256 .f32) (a9 a10 a11 : FVec Ideal S256 .f32)
    (a12 : FVec Ideal S256x256 .f32) (a13 a14 a15 : FVec Ideal S256 .f32)
    (h : Cert.Pre_finite_inputs.fn (F := Ideal) a0 a1 a2 a3 a4 a5 a6 a7 a8 a9 a10 a11 a12 a13 a14 a15
      = fun _ => 1#1) :
    (∀ i, ∃ r : ℝ, a0 i = (r : EReal)) ∧ (∀ i, ∃ r : ℝ, a1 i = (r : EReal))
      ∧ ∀ s : Fin 4096, (∑ p : Fin 65536, a1 (ix2 p s)) ≠ 0 := by
  have h0 := congrFun h ix0
  dsimp only [Cert.Pre_finite_inputs.fn, fn_part1, fn_part2, fn_part3, andi] at h0
  simp only [IntOp.andi_eq_one] at h0
  obtain ⟨⟨⟨⟨⟨⟨⟨⟨⟨⟨⟨⟨h3, h7⟩, _⟩, _⟩, _⟩, _⟩, _⟩, _⟩, _⟩, _⟩, _⟩, _⟩, h62⟩ := h0
  refine ⟨fun i => ?_, fun i => ?_, fun s => ?_⟩
  · exact real_of_cmp (a0 i) (Host.reduce_andi_all _ _ _ _ ix0 h3 i)
  · exact real_of_cmp (a1 i) (Host.reduce_andi_all _ _ _ _ ix0 h7 i)
  · have hR : S65536x4096.Reduces [0] S4096 := by decide
    have hs := Host.reduce_andi_all _ _ _ _ ix0 h62 (ix1 s)
    rw [cmpf_apply, Ideal.cmpf_def, hostReduceAdd_apply, broadcastInDim_scalar_apply] at hs
    simp only [constant_apply] at hs
    have hne := ne_of_cmp_une _ _ hs
    rw [Ideal.hostReduceAdd_single _ hR, Ideal.ofBits_zero_f32, zero_add] at hne
    intro e
    apply hne
    rw [← e]
    exact Finset.sum_congr rfl fun p _ => congrArg a1 (lift_col hR s p)

end Cert.Bridge

end
-- ==== Proof.RefRun.lean ====
/-
  The reference's run, stated at the three named maps of Layers.lean.

  @main is a straight line of 156 host operations. They are listed once, as the program states them, and cut
  into four consecutive blocks: the pooling (the column sums of Q, the quotient, its transpose, the product
  with x), the first layer, the second layer, and the final product with Q. Each block, from ANY contents W,
  leaves its one result that later blocks read at the block's named map of W's values; the whole line is
  the blocks one after the other, and no block writes an argument. So every weakly fair execution ends with
  the result at finalDot Q (layers ... (hpRef Q x)) of the launch contents, the arguments unchanged.
-/
import proofs.«165815_j54073638257172_1_alg».proof.Proof.Gen.ReferenceIdeal
import proofs.«165815_j54073638257172_1_alg».proof.Proof.Layers
import Idealize.ShloMosaic.Lib.StableHlo.Run
import Idealize.ShloMosaic.Lib.Pipeline.Frame

noncomputable section

namespace Cert.Bridge.Ref

open Cert.ReferenceIdeal Cert.ReferenceIdeal.Gen Idealize.ShloMosaic Idealize.ShloMosaic.TcCoe Idealize.SL.Sem Idealize.ShloMosaic.StableHlo
open Cert.Bridge

variable {F : FTy → Type} [FloatOps F]

/-- The pooling: operations 1 to 7. -/
abbrev opsPool : List (HloOp τ sig (Elt F)) :=
  [ nullary main_cst (constant S_ .f32 0x00000000#32),
    binary main_arg1 main_cst main_v0 ((fun x v => Host.reduceAdd x v reducesTo_S65536x4096_S4096_d0 h_S_) : (⟨S65536x4096, .f32⟩ : BufTy).Contents (Elt F) → (⟨S_, .f32⟩ : BufTy).Contents (Elt F) → (⟨S4096, .f32⟩ : BufTy).Contents (Elt F)),
    unary main_v0 main_v1 (broadcastInDim S1x4096 ![1] bcast_S4096_S1x4096_1 : (⟨S4096, .f32⟩ : BufTy).Contents (Elt F) → (⟨S1x4096, .f32⟩ : BufTy).Contents (Elt F)),
    unary main_v1 main_v2 (broadcastInDim S65536x4096 ![0, 1] bcast_S1x4096_S65536x4096_0_1 : (⟨S1x4096, .f32⟩ : BufTy).Contents (Elt F) → (⟨S65536x4096, .f32⟩ : BufTy).Contents (Elt F)),
    binary main_arg1 main_v2 main_v3 (Host.divf : (⟨S65536x4096, .f32⟩ : BufTy).Contents (Elt F) → (⟨S65536x4096, .f32⟩ : BufTy).Contents (Elt F) → (⟨S65536x4096, .f32⟩ : BufTy).Contents (Elt F)),
    unary main_v3 main_v4 ((transpose S4096x65536 [1, 0] · transposes_S65536x4096_S4096x65536_1_0) : (⟨S65536x4096, .f32⟩ : BufTy).Contents (Elt F) → (⟨S4096x65536, .f32⟩ : BufTy).Contents (Elt F)),
    binary main_v4 main_arg0 main_v5 ((fun l r => Host.dotGeneral dot_S4096x65536_S65536x256_S4096x256_1_0_0_1_n_n none l r) : (⟨S4096x65536, .f32⟩ : BufTy).Contents (Elt F) → (⟨S65536x256, .f32⟩ : BufTy).Contents (Elt F) → (⟨S4096x256, .f32⟩ : BufTy).Contents (Elt F)) ]

/-- The first layer: operations 8 to 81. -/
abbrev opsLayer1 : List (HloOp τ sig (Elt F)) :=
  [ binary main_v5 main_arg8 main_v6 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg9 main_v7 (broadcastInDim S1x256 ![1] bcast_S256_S1x256_1 : (⟨S256, .f32⟩ : BufTy).Contents (Elt F) → (⟨S1x256, .f32⟩ : BufTy).Contents (Elt F)),
    unary main_v7 main_v8 (broadcastInDim S4096x256 ![0, 1] bcast_S1x256_S4096x256_0_1 : (⟨S1x256, .f32⟩ : BufTy).Contents (Elt F) → (⟨S4096x256, .f32⟩ : BufTy).Contents (Elt F)),
    binary main_v6 main_v8 main_v9 (addf : (⟨S4096x256, .f32⟩ : BufTy).Contents (Elt F) → (⟨S4096x256, .f32⟩ : BufTy).Contents (Elt F) → (⟨S4096x256, .f32⟩ : BufTy).Contents (Elt F)),
    unary main_arg4 main_v10 (broadcastInDim S131072x1 ![0] bcast_S131072_S131072x1_0 : (⟨S131072, .f32⟩ : BufTy).Contents (Elt F) → (⟨S131072x1, .f32⟩ : BufTy).Contents (Elt F)),
    nullary main_c (constantI S_ 32 0#32),
    unary main_c main_v11 (broadcastInDim S131072 ![] bcast_S_S131072 : (⟨S_, .i32⟩ : BufTy).Contents (Elt F) → (⟨S131072, .i32⟩ : BufTy).Contents (Elt F)),
    binary main_arg2 main_v11 main_v12 (cmpi .slt : (⟨S131072, .i32⟩ : BufTy).Contents (Elt F) → (⟨S131072, .i32⟩ : BufTy).Contents (Elt F) → (⟨S131072, .i1⟩ : BufTy).Contents (Elt F)),
    nullary main_c_0 (constantI S_ 32 4096#32),
    unary main_c_0 main_v13 (broadcastInDim S131072 ![] bcast_S_S131072 : (⟨S_, .i32⟩ : BufTy).Contents (Elt F) → (⟨S131072, .i32⟩ : BufTy).Contents (Elt F)),
    binary main_arg2 main_v13 main_v14 (addi : (⟨S131072, .i32⟩ : BufTy).Contents (Elt F) → (⟨S131072, .i32⟩ : BufTy).Contents (Elt F) → (⟨S131072, .i32⟩ : BufTy).Contents (Elt F)),
    ternary main_v12 main_v14 main_arg2 main_v15 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v15 main_v16 (broadcastInDim S131072x1 ![0] bcast_S131072_S131072x1_0 : (⟨S131072, .i32⟩ : BufTy).Contents (Elt F) → (⟨S131072x1, .i32⟩ : BufTy).Contents (Elt F)),
    binary main_v9 main_v16 main_v17 ((fun x i => Host.gather gather_S4096x256_S131072x1_S131072x256_1_0_n_n_0_1_1256 x i) : (⟨S4096x256, .f32⟩ : BufTy).Contents (Elt F) → (⟨S131072x1, .i32⟩ : BufTy).Contents (Elt F) → (⟨S131072x256, .f32⟩ : BufTy).Contents (Elt F)),
    unary main_v10 main_v18 (broadcastInDim S131072x256 ![0, 1] bcast_S131072x1_S131072x256_0_1 : (⟨S131072x1, .f32⟩ : BufTy).Contents (Elt F) → (⟨S131072x256, .f32⟩ : BufTy).Contents (Elt F)),
    binary main_v18 main_v17 main_v19 (mulf : (⟨S131072x256, .f32⟩ : BufTy).Contents (Elt F) → (⟨S131072x256, .f32⟩ : BufTy).Contents (Elt F) → (⟨S131072x256, .f32⟩ : BufTy).Contents (Elt F)),
    nullary main_cst_1 (constant S_ .f32 0x00000000#32),
    unary main_cst_1 main_v20 (broadcastInDim S4096x256 ![] bcast_S_S4096x256 : (⟨S_, .f32⟩ : BufTy).Contents (Elt F) → (⟨S4096x256, .f32⟩ : BufTy).Contents (Elt F)),
    unary main_arg3 main_v21 (broadcastInDim S131072x1 ![0] bcast_S131072_S131072x1_0 : (⟨S131072, .i32⟩ : BufTy).Contents (Elt F) → (⟨S131072x1, .i32⟩ : BufTy).Contents (Elt F)),
    ternary main_v20 main_v21 main_v19 main_v22 ((fun x i u => Host.scatterAdd scatter_S4096x256_S131072x1_S131072x256_1_0_0_1 x i u) : (⟨S4096x256, .f32⟩ : BufTy).Contents (Elt F) → (⟨S131072x1, .i32⟩ : BufTy).Contents (Elt F) → (⟨S131072x256, .f32⟩ : BufTy).Contents (Elt F) → (⟨S4096x256, .f32⟩ : BufTy).Contents (Elt F)),
    unary main_arg7 main_v23 (broadcastInDim S20480x1 ![0] bcast_S20480_S20480x1_0 : (⟨S20480, .f32⟩ : BufTy).Contents (Elt F) → (⟨S20480x1, .f32⟩ : BufTy).Contents (Elt F)),
    nullary main_c_2 (constantI S_ 32 0#32),
    unary main_c_2 main_v24 (broadcastInDim S20480 ![] bcast_S_S20480 : (⟨S_, .i32⟩ : BufTy).Contents (Elt F) → (⟨S20480, .i32⟩ : BufTy).Contents (Elt F)),
    binary main_arg5 main_v24 main_v25 (cmpi .slt : (⟨S20480, .i32⟩ : BufTy).Contents (Elt F) → (⟨S20480, .i32⟩ : BufTy).Contents (Elt F) → (⟨S20480, .i1⟩ : BufTy).Contents (Elt F)),
    nullary main_c_3 (constantI S_ 32 4096#32),
    unary main_c_3 main_v26 (broadcastInDim S20480 ![] bcast_S_S20480 : (⟨S_, .i32⟩ : BufTy).Contents (Elt F) → (⟨S20480, .i32⟩ : BufTy).Contents (Elt F)),
    binary main_arg5 main_v26 main_v27 (addi : (⟨S20480, .i32⟩ : BufTy).Contents (Elt F) → (⟨S20480, .i32⟩ : BufTy).Contents (Elt F) → (⟨S20480, .i32⟩ : BufTy).Contents (Elt F)),
    ternary main_v25 main_v27 main_arg5 main_v28 (select : (⟨S20480, .i1⟩ : BufTy).Contents (Elt F) → (⟨S20480, .i32⟩ : BufTy).Contents (Elt F) → (⟨S20480, .i32⟩ : BufTy).Contents (Elt F) → (⟨S20480, .i32⟩ : BufTy).Contents (Elt F)),
    unary main_v28 main_v29 (broadcastInDim S20480x1 ![0] bcast_S20480_S20480x1_0 : (⟨S20480, .i32⟩ : BufTy).Contents (Elt F) → (⟨S20480x1, .i32⟩ : BufTy).Contents (Elt F)),
    binary main_v5 main_v29 main_v30 ((fun x i => Host.gather gather_S4096x256_S20480x1_S20480x256_1_0_n_n_0_1_1256 x i) : (⟨S4096x256, .f32⟩ : BufTy).Contents (Elt F) → (⟨S20480x1, .i32⟩ : BufTy).Contents (Elt F) → (⟨S20480x256, .f32⟩ : BufTy).Contents (Elt F)),
    unary main_v23 main_v31 (broadcastInDim S20480x256 ![0, 1] bcast_S20480x1_S20480x256_0_1 : (⟨S20480x1, .f32⟩ : BufTy).Contents (Elt F) → (⟨S20480x256, .f32⟩ : BufTy).Contents (Elt F)),
    binary main_v31 main_v30 main_v32 (mulf : (⟨S20480x256, .f32⟩ : BufTy).Contents (Elt F) → (⟨S20480x256, .f32⟩ : BufTy).Contents (Elt F) → (⟨S20480x256, .f32⟩ : BufTy).Contents (Elt F)),
    nullary main_cst_4 (constant S_ .f32 0x00000000#32),
    unary main_cst_4 main_v33 (broadcastInDim S4096x256 ![] bcast_S_S4096x256 : (⟨S_, .f32⟩ : BufTy).Contents (Elt F) → (⟨S4096x256, .f32⟩ : BufTy).Contents (Elt F)),
    unary main_arg6 main_v34 (broadcastInDim S20480x1 ![0] bcast_S20480_S20480x1_0 : (⟨S20480, .i32⟩ : BufTy).Contents (Elt F) → (⟨S20480x1, .i32⟩ : BufTy).Contents (Elt F)),
    ternary main_v33 main_v34 main_v32 main_v35 ((fun x i u => Host.scatterAdd scatter_S4096x256_S20480x1_S20480x256_1_0_0_1 x i u) : (⟨S4096x256, .f32⟩ : BufTy).Contents (Elt F) → (⟨S20480x1, .i32⟩ : BufTy).Contents (Elt F) → (⟨S20480x256, .f32⟩ : BufTy).Contents (Elt F) → (⟨S4096x256, .f32⟩ : BufTy).Contents (Elt F)),
    binary main_v22 main_v35 main_v36 (addf : (⟨S4096x256, .f32⟩ : BufTy).Contents (Elt F) → (⟨S4096x256, .f32⟩ : BufTy).Contents (Elt F) → (⟨S4096x256, .f32⟩ : BufTy).Contents (Elt F)),
    nullary main_cst_5 (constant S_ .f32 0x00000000#32),
    binary main_v36 main_cst_5 main_v37 ((fun x v => Host.reduceAdd x v reducesTo_S4096x256_S256_d0 h_S_) : (⟨S4096x256, .f32⟩ : BufTy).Contents (Elt F) → (⟨S_, .f32⟩ : BufTy).Contents (Elt F) → (⟨S256, .f32⟩ : BufTy).Contents (Elt F)),
    nullary main_cst_6 (constant S_ .f32 0x45800000#32),
    unary main_cst_6 main_v38 (broadcastInDim S256 ![] bcast_S_S256 : (⟨S_, .f32⟩ : BufTy).Contents (Elt F) → (⟨S256, .f32⟩ : BufTy).Contents (Elt F)),
    binary main_v37 main_v38 main_v39 (Host.divf : (⟨S256, .f32⟩ : BufTy).Contents (Elt F) → (⟨S256, .f32⟩ : BufTy).Contents (Elt F) → (⟨S256, .f32⟩ : BufTy).Contents (Elt F)),
    unary main_v39 main_v40 (broadcastInDim S1x256 ![1] bcast_S256_S1x256_1 : (⟨S256, .f32⟩ : BufTy).Contents (Elt F) → (⟨S1x256, .f32⟩ : BufTy).Contents (Elt F)),
    unary main_v40 main_v41 (broadcastInDim S4096x256 ![0, 1] bcast_S1x256_S4096x256_0_1 : (⟨S1x256, .f32⟩ : BufTy).Contents (Elt F) → (⟨S4096x256, .f32⟩ : BufTy).Contents (Elt F)),
    binary main_v36 main_v41 main_v42 (subf : (⟨S4096x256, .f32⟩ : BufTy).Contents (Elt F) → (⟨S4096x256, .f32⟩ : BufTy).Contents (Elt F) → (⟨S4096x256, .f32⟩ : BufTy).Contents (Elt F)),
    binary main_v42 main_v42 main_v43 (mulf : (⟨S4096x256, .f32⟩ : BufTy).Contents (Elt F) → (⟨S4096x256, .f32⟩ : BufTy).Contents (Elt F) → (⟨S4096x256, .f32⟩ : BufTy).Contents (Elt F)),
    nullary main_cst_7 (constant S_ .f32 0x00000000#32),
    binary main_v43 main_cst_7 main_v44 ((fun x v => Host.reduceAdd x v reducesTo_S4096x256_S256_d0 h_S_) : (⟨S4096x256, .f32⟩ : BufTy).Contents (Elt F) → (⟨S_, .f32⟩ : BufTy).Contents (Elt F) → (⟨S256, .f32⟩ : BufTy).Contents (Elt F)),
    nullary main_cst_8 (constant S_ .f32 0x45800000#32),
    unary main_cst_8 main_v45 (broadcastInDim S256 ![] bcast_S_S256 : (⟨S_, .f32⟩ : BufTy).Contents (Elt F) → (⟨S256, .f32⟩ : BufTy).Contents (Elt F)),
    binary main_v44 main_v45 main_v46 (Host.divf : (⟨S256, .f32⟩ : BufTy).Contents (Elt F) → (⟨S256, .f32⟩ : BufTy).Contents (Elt F) → (⟨S256, .f32⟩ : BufTy).Contents (Elt F)),
    unary main_v39 main_v47 (broadcastInDim S1x256 ![1] bcast_S256_S1x256_1 : (⟨S256, .f32⟩ : BufTy).Contents (Elt F) → (⟨S1x256, .f32⟩ : BufTy).Contents (Elt F)),
    unary main_v47 main_v48 (broadcastInDim S4096x256 ![0, 1] bcast_S1x256_S4096x256_0_1 : (⟨S1x256, .f32⟩ : BufTy).Contents (Elt F) → (⟨S4096x256, .f32⟩ : BufTy).Contents (Elt F)),
    binary main_v36 main_v48 main_v49 (subf : (⟨S4096x256, .f32⟩ : BufTy).Contents (Elt F) → (⟨S4096x256, .f32⟩ : BufTy).Contents (Elt F) → (⟨S4096x256, .f32⟩ : BufTy).Contents (Elt F)),
    nullary main_cst_9 (constant S_ .f32 0x3727C5AC#32),
    unary main_cst_9 main_v50 (broadcastInDim S256 ![] bcast_S_S256 : (⟨S_, .f32⟩ : BufTy).Contents (Elt F) → (⟨S256, .f32⟩ : BufTy).Contents (Elt F)),
    binary main_v46 main_v50 main_v51 (addf : (⟨S256, .f32⟩ : BufTy).Contents (Elt F) → (⟨S256, .f32⟩ : BufTy).Contents (Elt F) → (⟨S256, .f32⟩ : BufTy).Contents (Elt F)),
    unary main_v51 main_v52 (Host.rsqrt : (⟨S256, .f32⟩ : BufTy).Contents (Elt F) → (⟨S256, .f32⟩ : BufTy).Contents (Elt F)),
    unary main_v52 main_v53 (broadcastInDim S1x256 ![1] bcast_S256_S1x256_1 : (⟨S256, .f32⟩ : BufTy).Contents (Elt F) → (⟨S1x256, .f32⟩ : BufTy).Contents (Elt F)),
    unary main_v53 main_v54 (broadcastInDim S4096x256 ![0, 1] bcast_S1x256_S4096x256_0_1 : (⟨S1x256, .f32⟩ : BufTy).Contents (Elt F) → (⟨S4096x256, .f32⟩ : BufTy).Contents (Elt F)),
    binary main_v49 main_v54 main_v55 (mulf : (⟨S4096x256, .f32⟩ : BufTy).Contents (Elt F) → (⟨S4096x256, .f32⟩ : BufTy).Contents (Elt F) → (⟨S4096x256, .f32⟩ : BufTy).Contents (Elt F)),
    unary main_arg10 main_v56 (broadcastInDim S1x256 ![1] bcast_S256_S1x256_1 : (⟨S256, .f32⟩ : BufTy).Contents (Elt F) → (⟨S1x256, .f32⟩ : BufTy).Contents (Elt F)),
    unary main_v56 main_v57 (broadcastInDim S4096x256 ![0, 1] bcast_S1x256_S4096x256_0_1 : (⟨S1x256, .f32⟩ : BufTy).Contents (Elt F) → (⟨S4096x256, .f32⟩ : BufTy).Contents (Elt F)),
    binary main_v55 main_v57 main_v58 (mulf : (⟨S4096x256, .f32⟩ : BufTy).Contents (Elt F) → (⟨S4096x256, .f32⟩ : BufTy).Contents (Elt F) → (⟨S4096x256, .f32⟩ : BufTy).Contents (Elt F)),
    unary main_arg11 main_v59 (broadcastInDim S1x256 ![1] bcast_S256_S1x256_1 : (⟨S256, .f32⟩ : BufTy).Contents (Elt F) → (⟨S1x256, .f32⟩ : BufTy).Contents (Elt F)),
    unary main_v59 main_v60 (broadcastInDim S4096x256 ![0, 1] bcast_S1x256_S4096x256_0_1 : (⟨S1x256, .f32⟩ : BufTy).Contents (Elt F) → (⟨S4096x256, .f32⟩ : BufTy).Contents (Elt F)),
    binary main_v58 main_v60 main_v61 (addf : (⟨S4096x256, .f32⟩ : BufTy).Contents (Elt F) → (⟨S4096x256, .f32⟩ : BufTy).Contents (Elt F) → (⟨S4096x256, .f32⟩ : BufTy).Contents (Elt F)),
    nullary main_cst_10 (constant S_ .f32 0x00000000#32),
    unary main_cst_10 main_v62 (broadcastInDim S4096x256 ![] bcast_S_S4096x256 : (⟨S_, .f32⟩ : BufTy).Contents (Elt F) → (⟨S4096x256, .f32⟩ : BufTy).Contents (Elt F)),
    binary main_v61 main_v62 main_v63 (cmpf .oge : (⟨S4096x256, .f32⟩ : BufTy).Contents (Elt F) → (⟨S4096x256, .f32⟩ : BufTy).Contents (Elt F) → (⟨S4096x256, .i1⟩ : BufTy).Contents (Elt F)),
    nullary main_cst_11 (constant S_ .f32 0x3C23D70A#32),
    unary main_cst_11 main_v64 (broadcastInDim S4096x256 ![] bcast_S_S4096x256 : (⟨S_, .f32⟩ : BufTy).Contents (Elt F) → (⟨S4096x256, .f32⟩ : BufTy).Contents (Elt F)),
    binary main_v64 main_v61 main_v65 (mulf : (⟨S4096x256, .f32⟩ : BufTy).Contents (Elt F) → (⟨S4096x256, .f32⟩ : BufTy).Contents (Elt F) → (⟨S4096x256, .f32⟩ : BufTy).Contents (Elt F)),
    TRef.ternary (TRef.of (T := ⟨S4096x256, .i1⟩) main_v63) (TRef.of (T := ⟨S4096x256, .f32⟩) main_v61) (TRef.of (T := ⟨S4096x256, .f32⟩) main_v65) (TRef.of (T := ⟨S4096x256, .f32⟩) main_v66) select ]

/-- The second layer: operations 82 to 155. -/
abbrev opsLayer2 : List (HloOp τ sig (Elt F)) :=
  [ binary main_v66 main_arg12 main_v67 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg13 main_v68 (broadcastInDim S1x256 ![1] bcast_S256_S1x256_1 : (⟨S256, .f32⟩ : BufTy).Contents (Elt F) → (⟨S1x256, .f32⟩ : BufTy).Contents (Elt F)),
    unary main_v68 main_v69 (broadcastInDim S4096x256 ![0, 1] bcast_S1x256_S4096x256_0_1 : (⟨S1x256, .f32⟩ : BufTy).Contents (Elt F) → (⟨S4096x256, .f32⟩ : BufTy).Contents (Elt F)),
    binary main_v67 main_v69 main_v70 (addf : (⟨S4096x256, .f32⟩ : BufTy).Contents (Elt F) → (⟨S4096x256, .f32⟩ : BufTy).Contents (Elt F) → (⟨S4096x256, .f32⟩ : BufTy).Contents (Elt F)),
    unary main_arg4 main_v71 (broadcastInDim S131072x1 ![0] bcast_S131072_S131072x1_0 : (⟨S131072, .f32⟩ : BufTy).Contents (Elt F) → (⟨S131072x1, .f32⟩ : BufTy).Contents (Elt F)),
    nullary main_c_12 (constantI S_ 32 0#32),
    unary main_c_12 main_v72 (broadcastInDim S131072 ![] bcast_S_S131072 : (⟨S_, .i32⟩ : BufTy).Contents (Elt F) → (⟨S131072, .i32⟩ : BufTy).Contents (Elt F)),
    binary main_arg2 main_v72 main_v73 (cmpi .slt : (⟨S131072, .i32⟩ : BufTy).Contents (Elt F) → (⟨S131072, .i32⟩ : BufTy).Contents (Elt F) → (⟨S131072, .i1⟩ : BufTy).Contents (Elt F)),
    nullary main_c_13 (constantI S_ 32 4096#32),
    unary main_c_13 main_v74 (broadcastInDim S131072 ![] bcast_S_S131072 : (⟨S_, .i32⟩ : BufTy).Contents (Elt F) → (⟨S131072, .i32⟩ : BufTy).Contents (Elt F)),
    binary main_arg2 main_v74 main_v75 (addi : (⟨S131072, .i32⟩ : BufTy).Contents (Elt F) → (⟨S131072, .i32⟩ : BufTy).Contents (Elt F) → (⟨S131072, .i32⟩ : BufTy).Contents (Elt F)),
    ternary main_v73 main_v75 main_arg2 main_v76 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v76 main_v77 (broadcastInDim S131072x1 ![0] bcast_S131072_S131072x1_0 : (⟨S131072, .i32⟩ : BufTy).Contents (Elt F) → (⟨S131072x1, .i32⟩ : BufTy).Contents (Elt F)),
    binary main_v70 main_v77 main_v78 ((fun x i => Host.gather gather_S4096x256_S131072x1_S131072x256_1_0_n_n_0_1_1256 x i) : (⟨S4096x256, .f32⟩ : BufTy).Contents (Elt F) → (⟨S131072x1, .i32⟩ : BufTy).Contents (Elt F) → (⟨S131072x256, .f32⟩ : BufTy).Contents (Elt F)),
    unary main_v71 main_v79 (broadcastInDim S131072x256 ![0, 1] bcast_S131072x1_S131072x256_0_1 : (⟨S131072x1, .f32⟩ : BufTy).Contents (Elt F) → (⟨S131072x256, .f32⟩ : BufTy).Contents (Elt F)),
    binary main_v79 main_v78 main_v80 (mulf : (⟨S131072x256, .f32⟩ : BufTy).Contents (Elt F) → (⟨S131072x256, .f32⟩ : BufTy).Contents (Elt F) → (⟨S131072x256, .f32⟩ : BufTy).Contents (Elt F)),
    nullary main_cst_14 (constant S_ .f32 0x00000000#32),
    unary main_cst_14 main_v81 (broadcastInDim S4096x256 ![] bcast_S_S4096x256 : (⟨S_, .f32⟩ : BufTy).Contents (Elt F) → (⟨S4096x256, .f32⟩ : BufTy).Contents (Elt F)),
    unary main_arg3 main_v82 (broadcastInDim S131072x1 ![0] bcast_S131072_S131072x1_0 : (⟨S131072, .i32⟩ : BufTy).Contents (Elt F) → (⟨S131072x1, .i32⟩ : BufTy).Contents (Elt F)),
    ternary main_v81 main_v82 main_v80 main_v83 ((fun x i u => Host.scatterAdd scatter_S4096x256_S131072x1_S131072x256_1_0_0_1 x i u) : (⟨S4096x256, .f32⟩ : BufTy).Contents (Elt F) → (⟨S131072x1, .i32⟩ : BufTy).Contents (Elt F) → (⟨S131072x256, .f32⟩ : BufTy).Contents (Elt F) → (⟨S4096x256, .f32⟩ : BufTy).Contents (Elt F)),
    unary main_arg7 main_v84 (broadcastInDim S20480x1 ![0] bcast_S20480_S20480x1_0 : (⟨S20480, .f32⟩ : BufTy).Contents (Elt F) → (⟨S20480x1, .f32⟩ : BufTy).Contents (Elt F)),
    nullary main_c_15 (constantI S_ 32 0#32),
    unary main_c_15 main_v85 (broadcastInDim S20480 ![] bcast_S_S20480 : (⟨S_, .i32⟩ : BufTy).Contents (Elt F) → (⟨S20480, .i32⟩ : BufTy).Contents (Elt F)),
    binary main_arg5 main_v85 main_v86 (cmpi .slt : (⟨S20480, .i32⟩ : BufTy).Contents (Elt F) → (⟨S20480, .i32⟩ : BufTy).Contents (Elt F) → (⟨S20480, .i1⟩ : BufTy).Contents (Elt F)),
    nullary main_c_16 (constantI S_ 32 4096#32),
    unary main_c_16 main_v87 (broadcastInDim S20480 ![] bcast_S_S20480 : (⟨S_, .i32⟩ : BufTy).Contents (Elt F) → (⟨S20480, .i32⟩ : BufTy).Contents (Elt F)),
    binary main_arg5 main_v87 main_v88 (addi : (⟨S20480, .i32⟩ : BufTy).Contents (Elt F) → (⟨S20480, .i32⟩ : BufTy).Contents (Elt F) → (⟨S20480, .i32⟩ : BufTy).Contents (Elt F)),
    ternary main_v86 main_v88 main_arg5 main_v89 (select : (⟨S20480, .i1⟩ : BufTy).Contents (Elt F) → (⟨S20480, .i32⟩ : BufTy).Contents (Elt F) → (⟨S20480, .i32⟩ : BufTy).Contents (Elt F) → (⟨S20480, .i32⟩ : BufTy).Contents (Elt F)),
    unary main_v89 main_v90 (broadcastInDim S20480x1 ![0] bcast_S20480_S20480x1_0 : (⟨S20480, .i32⟩ : BufTy).Contents (Elt F) → (⟨S20480x1, .i32⟩ : BufTy).Contents (Elt F)),
    binary main_v66 main_v90 main_v91 ((fun x i => Host.gather gather_S4096x256_S20480x1_S20480x256_1_0_n_n_0_1_1256 x i) : (⟨S4096x256, .f32⟩ : BufTy).Contents (Elt F) → (⟨S20480x1, .i32⟩ : BufTy).Contents (Elt F) → (⟨S20480x256, .f32⟩ : BufTy).Contents (Elt F)),
    unary main_v84 main_v92 (broadcastInDim S20480x256 ![0, 1] bcast_S20480x1_S20480x256_0_1 : (⟨S20480x1, .f32⟩ : BufTy).Contents (Elt F) → (⟨S20480x256, .f32⟩ : BufTy).Contents (Elt F)),
    binary main_v92 main_v91 main_v93 (mulf : (⟨S20480x256, .f32⟩ : BufTy).Contents (Elt F) → (⟨S20480x256, .f32⟩ : BufTy).Contents (Elt F) → (⟨S20480x256, .f32⟩ : BufTy).Contents (Elt F)),
    nullary main_cst_17 (constant S_ .f32 0x00000000#32),
    unary main_cst_17 main_v94 (broadcastInDim S4096x256 ![] bcast_S_S4096x256 : (⟨S_, .f32⟩ : BufTy).Contents (Elt F) → (⟨S4096x256, .f32⟩ : BufTy).Contents (Elt F)),
    unary main_arg6 main_v95 (broadcastInDim S20480x1 ![0] bcast_S20480_S20480x1_0 : (⟨S20480, .i32⟩ : BufTy).Contents (Elt F) → (⟨S20480x1, .i32⟩ : BufTy).Contents (Elt F)),
    ternary main_v94 main_v95 main_v93 main_v96 ((fun x i u => Host.scatterAdd scatter_S4096x256_S20480x1_S20480x256_1_0_0_1 x i u) : (⟨S4096x256, .f32⟩ : BufTy).Contents (Elt F) → (⟨S20480x1, .i32⟩ : BufTy).Contents (Elt F) → (⟨S20480x256, .f32⟩ : BufTy).Contents (Elt F) → (⟨S4096x256, .f32⟩ : BufTy).Contents (Elt F)),
    binary main_v83 main_v96 main_v97 (addf : (⟨S4096x256, .f32⟩ : BufTy).Contents (Elt F) → (⟨S4096x256, .f32⟩ : BufTy).Contents (Elt F) → (⟨S4096x256, .f32⟩ : BufTy).Contents (Elt F)),
    nullary main_cst_18 (constant S_ .f32 0x00000000#32),
    binary main_v97 main_cst_18 main_v98 ((fun x v => Host.reduceAdd x v reducesTo_S4096x256_S256_d0 h_S_) : (⟨S4096x256, .f32⟩ : BufTy).Contents (Elt F) → (⟨S_, .f32⟩ : BufTy).Contents (Elt F) → (⟨S256, .f32⟩ : BufTy).Contents (Elt F)),
    nullary main_cst_19 (constant S_ .f32 0x45800000#32),
    unary main_cst_19 main_v99 (broadcastInDim S256 ![] bcast_S_S256 : (⟨S_, .f32⟩ : BufTy).Contents (Elt F) → (⟨S256, .f32⟩ : BufTy).Contents (Elt F)),
    binary main_v98 main_v99 main_v100 (Host.divf : (⟨S256, .f32⟩ : BufTy).Contents (Elt F) → (⟨S256, .f32⟩ : BufTy).Contents (Elt F) → (⟨S256, .f32⟩ : BufTy).Contents (Elt F)),
    unary main_v100 main_v101 (broadcastInDim S1x256 ![1] bcast_S256_S1x256_1 : (⟨S256, .f32⟩ : BufTy).Contents (Elt F) → (⟨S1x256, .f32⟩ : BufTy).Contents (Elt F)),
    unary main_v101 main_v102 (broadcastInDim S4096x256 ![0, 1] bcast_S1x256_S4096x256_0_1 : (⟨S1x256, .f32⟩ : BufTy).Contents (Elt F) → (⟨S4096x256, .f32⟩ : BufTy).Contents (Elt F)),
    binary main_v97 main_v102 main_v103 (subf : (⟨S4096x256, .f32⟩ : BufTy).Contents (Elt F) → (⟨S4096x256, .f32⟩ : BufTy).Contents (Elt F) → (⟨S4096x256, .f32⟩ : BufTy).Contents (Elt F)),
    binary main_v103 main_v103 main_v104 (mulf : (⟨S4096x256, .f32⟩ : BufTy).Contents (Elt F) → (⟨S4096x256, .f32⟩ : BufTy).Contents (Elt F) → (⟨S4096x256, .f32⟩ : BufTy).Contents (Elt F)),
    nullary main_cst_20 (constant S_ .f32 0x00000000#32),
    binary main_v104 main_cst_20 main_v105 ((fun x v => Host.reduceAdd x v reducesTo_S4096x256_S256_d0 h_S_) : (⟨S4096x256, .f32⟩ : BufTy).Contents (Elt F) → (⟨S_, .f32⟩ : BufTy).Contents (Elt F) → (⟨S256, .f32⟩ : BufTy).Contents (Elt F)),
    nullary main_cst_21 (constant S_ .f32 0x45800000#32),
    unary main_cst_21 main_v106 (broadcastInDim S256 ![] bcast_S_S256 : (⟨S_, .f32⟩ : BufTy).Contents (Elt F) → (⟨S256, .f32⟩ : BufTy).Contents (Elt F)),
    binary main_v105 main_v106 main_v107 (Host.divf : (⟨S256, .f32⟩ : BufTy).Contents (Elt F) → (⟨S256, .f32⟩ : BufTy).Contents (Elt F) → (⟨S256, .f32⟩ : BufTy).Contents (Elt F)),
    unary main_v100 main_v108 (broadcastInDim S1x256 ![1] bcast_S256_S1x256_1 : (⟨S256, .f32⟩ : BufTy).Contents (Elt F) → (⟨S1x256, .f32⟩ : BufTy).Contents (Elt F)),
    unary main_v108 main_v109 (broadcastInDim S4096x256 ![0, 1] bcast_S1x256_S4096x256_0_1 : (⟨S1x256, .f32⟩ : BufTy).Contents (Elt F) → (⟨S4096x256, .f32⟩ : BufTy).Contents (Elt F)),
    binary main_v97 main_v109 main_v110 (subf : (⟨S4096x256, .f32⟩ : BufTy).Contents (Elt F) → (⟨S4096x256, .f32⟩ : BufTy).Contents (Elt F) → (⟨S4096x256, .f32⟩ : BufTy).Contents (Elt F)),
    nullary main_cst_22 (constant S_ .f32 0x3727C5AC#32),
    unary main_cst_22 main_v111 (broadcastInDim S256 ![] bcast_S_S256 : (⟨S_, .f32⟩ : BufTy).Contents (Elt F) → (⟨S256, .f32⟩ : BufTy).Contents (Elt F)),
    binary main_v107 main_v111 main_v112 (addf : (⟨S256, .f32⟩ : BufTy).Contents (Elt F) → (⟨S256, .f32⟩ : BufTy).Contents (Elt F) → (⟨S256, .f32⟩ : BufTy).Contents (Elt F)),
    unary main_v112 main_v113 (Host.rsqrt : (⟨S256, .f32⟩ : BufTy).Contents (Elt F) → (⟨S256, .f32⟩ : BufTy).Contents (Elt F)),
    unary main_v113 main_v114 (broadcastInDim S1x256 ![1] bcast_S256_S1x256_1 : (⟨S256, .f32⟩ : BufTy).Contents (Elt F) → (⟨S1x256, .f32⟩ : BufTy).Contents (Elt F)),
    unary main_v114 main_v115 (broadcastInDim S4096x256 ![0, 1] bcast_S1x256_S4096x256_0_1 : (⟨S1x256, .f32⟩ : BufTy).Contents (Elt F) → (⟨S4096x256, .f32⟩ : BufTy).Contents (Elt F)),
    binary main_v110 main_v115 main_v116 (mulf : (⟨S4096x256, .f32⟩ : BufTy).Contents (Elt F) → (⟨S4096x256, .f32⟩ : BufTy).Contents (Elt F) → (⟨S4096x256, .f32⟩ : BufTy).Contents (Elt F)),
    unary main_arg14 main_v117 (broadcastInDim S1x256 ![1] bcast_S256_S1x256_1 : (⟨S256, .f32⟩ : BufTy).Contents (Elt F) → (⟨S1x256, .f32⟩ : BufTy).Contents (Elt F)),
    unary main_v117 main_v118 (broadcastInDim S4096x256 ![0, 1] bcast_S1x256_S4096x256_0_1 : (⟨S1x256, .f32⟩ : BufTy).Contents (Elt F) → (⟨S4096x256, .f32⟩ : BufTy).Contents (Elt F)),
    binary main_v116 main_v118 main_v119 (mulf : (⟨S4096x256, .f32⟩ : BufTy).Contents (Elt F) → (⟨S4096x256, .f32⟩ : BufTy).Contents (Elt F) → (⟨S4096x256, .f32⟩ : BufTy).Contents (Elt F)),
    unary main_arg15 main_v120 (broadcastInDim S1x256 ![1] bcast_S256_S1x256_1 : (⟨S256, .f32⟩ : BufTy).Contents (Elt F) → (⟨S1x256, .f32⟩ : BufTy).Contents (Elt F)),
    unary main_v120 main_v121 (broadcastInDim S4096x256 ![0, 1] bcast_S1x256_S4096x256_0_1 : (⟨S1x256, .f32⟩ : BufTy).Contents (Elt F) → (⟨S4096x256, .f32⟩ : BufTy).Contents (Elt F)),
    binary main_v119 main_v121 main_v122 (addf : (⟨S4096x256, .f32⟩ : BufTy).Contents (Elt F) → (⟨S4096x256, .f32⟩ : BufTy).Contents (Elt F) → (⟨S4096x256, .f32⟩ : BufTy).Contents (Elt F)),
    nullary main_cst_23 (constant S_ .f32 0x00000000#32),
    unary main_cst_23 main_v123 (broadcastInDim S4096x256 ![] bcast_S_S4096x256 : (⟨S_, .f32⟩ : BufTy).Contents (Elt F) → (⟨S4096x256, .f32⟩ : BufTy).Contents (Elt F)),
    binary main_v122 main_v123 main_v124 (cmpf .oge : (⟨S4096x256, .f32⟩ : BufTy).Contents (Elt F) → (⟨S4096x256, .f32⟩ : BufTy).Contents (Elt F) → (⟨S4096x256, .i1⟩ : BufTy).Contents (Elt F)),
    nullary main_cst_24 (constant S_ .f32 0x3C23D70A#32),
    unary main_cst_24 main_v125 (broadcastInDim S4096x256 ![] bcast_S_S4096x256 : (⟨S_, .f32⟩ : BufTy).Contents (Elt F) → (⟨S4096x256, .f32⟩ : BufTy).Contents (Elt F)),
    binary main_v125 main_v122 main_v126 (mulf : (⟨S4096x256, .f32⟩ : BufTy).Contents (Elt F) → (⟨S4096x256, .f32⟩ : BufTy).Contents (Elt F) → (⟨S4096x256, .f32⟩ : BufTy).Contents (Elt F)),
    TRef.ternary (TRef.of (T := ⟨S4096x256, .i1⟩) main_v124) (TRef.of (T := ⟨S4096x256, .f32⟩) main_v122) (TRef.of (T := ⟨S4096x256, .f32⟩) main_v126) (TRef.of (T := ⟨S4096x256, .f32⟩) main_v127) select ]

/-- The final product: operation 156. -/
abbrev opsOut : List (HloOp τ sig (Elt F)) :=
  [ binary main_arg1 main_v127 main_v128 ((fun l r => Host.dotGeneral dot_S65536x4096_S4096x256_S65536x256_1_0_0_1_n_n none l r) : (⟨S65536x4096, .f32⟩ : BufTy).Contents (Elt F) → (⟨S4096x256, .f32⟩ : BufTy).Contents (Elt F) → (⟨S65536x256, .f32⟩ : BufTy).Contents (Elt F)) ]

/-- @main's 156 operations, in order (a called function's operation stands in its call's place). -/
abbrev ops : List (HloOp τ sig (Elt F)) :=
  [ nullary main_cst (constant S_ .f32 0x00000000#32),
    binary main_arg1 main_cst main_v0 ((fun x v => Host.reduceAdd x v reducesTo_S65536x4096_S4096_d0 h_S_) : (⟨S65536x4096, .f32⟩ : BufTy).Contents (Elt F) → (⟨S_, .f32⟩ : BufTy).Contents (Elt F) → (⟨S4096, .f32⟩ : BufTy).Contents (Elt F)),
    unary main_v0 main_v1 (broadcastInDim S1x4096 ![1] bcast_S4096_S1x4096_1 : (⟨S4096, .f32⟩ : BufTy).Contents (Elt F) → (⟨S1x4096, .f32⟩ : BufTy).Contents (Elt F)),
    unary main_v1 main_v2 (broadcastInDim S65536x4096 ![0, 1] bcast_S1x4096_S65536x4096_0_1 : (⟨S1x4096, .f32⟩ : BufTy).Contents (Elt F) → (⟨S65536x4096, .f32⟩ : BufTy).Contents (Elt F)),
    binary main_arg1 main_v2 main_v3 (Host.divf : (⟨S65536x4096, .f32⟩ : BufTy).Contents (Elt F) → (⟨S65536x4096, .f32⟩ : BufTy).Contents (Elt F) → (⟨S65536x4096, .f32⟩ : BufTy).Contents (Elt F)),
    unary main_v3 main_v4 ((transpose S4096x65536 [1, 0] · transposes_S65536x4096_S4096x65536_1_0) : (⟨S65536x4096, .f32⟩ : BufTy).Contents (Elt F) → (⟨S4096x65536, .f32⟩ : BufTy).Contents (Elt F)),
    binary main_v4 main_arg0 main_v5 ((fun l r => Host.dotGeneral dot_S4096x65536_S65536x256_S4096x256_1_0_0_1_n_n none l r) : (⟨S4096x65536, .f32⟩ : BufTy).Contents (Elt F) → (⟨S65536x256, .f32⟩ : BufTy).Contents (Elt F) → (⟨S4096x256, .f32⟩ : BufTy).Contents (Elt F)),
    binary main_v5 main_arg8 main_v6 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg9 main_v7 (broadcastInDim S1x256 ![1] bcast_S256_S1x256_1 : (⟨S256, .f32⟩ : BufTy).Contents (Elt F) → (⟨S1x256, .f32⟩ : BufTy).Contents (Elt F)),
    unary main_v7 main_v8 (broadcastInDim S4096x256 ![0, 1] bcast_S1x256_S4096x256_0_1 : (⟨S1x256, .f32⟩ : BufTy).Contents (Elt F) → (⟨S4096x256, .f32⟩ : BufTy).Contents (Elt F)),
    binary main_v6 main_v8 main_v9 (addf : (⟨S4096x256, .f32⟩ : BufTy).Contents (Elt F) → (⟨S4096x256, .f32⟩ : BufTy).Contents (Elt F) → (⟨S4096x256, .f32⟩ : BufTy).Contents (Elt F)),
    unary main_arg4 main_v10 (broadcastInDim S131072x1 ![0] bcast_S131072_S131072x1_0 : (⟨S131072, .f32⟩ : BufTy).Contents (Elt F) → (⟨S131072x1, .f32⟩ : BufTy).Contents (Elt F)),
    nullary main_c (constantI S_ 32 0#32),
    unary main_c main_v11 (broadcastInDim S131072 ![] bcast_S_S131072 : (⟨S_, .i32⟩ : BufTy).Contents (Elt F) → (⟨S131072, .i32⟩ : BufTy).Contents (Elt F)),
    binary main_arg2 main_v11 main_v12 (cmpi .slt : (⟨S131072, .i32⟩ : BufTy).Contents (Elt F) → (⟨S131072, .i32⟩ : BufTy).Contents (Elt F) → (⟨S131072, .i1⟩ : BufTy).Contents (Elt F)),
    nullary main_c_0 (constantI S_ 32 4096#32),
    unary main_c_0 main_v13 (broadcastInDim S131072 ![] bcast_S_S131072 : (⟨S_, .i32⟩ : BufTy).Contents (Elt F) → (⟨S131072, .i32⟩ : BufTy).Contents (Elt F)),
    binary main_arg2 main_v13 main_v14 (addi : (⟨S131072, .i32⟩ : BufTy).Contents (Elt F) → (⟨S131072, .i32⟩ : BufTy).Contents (Elt F) → (⟨S131072, .i32⟩ : BufTy).Contents (Elt F)),
    ternary main_v12 main_v14 main_arg2 main_v15 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v15 main_v16 (broadcastInDim S131072x1 ![0] bcast_S131072_S131072x1_0 : (⟨S131072, .i32⟩ : BufTy).Contents (Elt F) → (⟨S131072x1, .i32⟩ : BufTy).Contents (Elt F)),
    binary main_v9 main_v16 main_v17 ((fun x i => Host.gather gather_S4096x256_S131072x1_S131072x256_1_0_n_n_0_1_1256 x i) : (⟨S4096x256, .f32⟩ : BufTy).Contents (Elt F) → (⟨S131072x1, .i32⟩ : BufTy).Contents (Elt F) → (⟨S131072x256, .f32⟩ : BufTy).Contents (Elt F)),
    unary main_v10 main_v18 (broadcastInDim S131072x256 ![0, 1] bcast_S131072x1_S131072x256_0_1 : (⟨S131072x1, .f32⟩ : BufTy).Contents (Elt F) → (⟨S131072x256, .f32⟩ : BufTy).Contents (Elt F)),
    binary main_v18 main_v17 main_v19 (mulf : (⟨S131072x256, .f32⟩ : BufTy).Contents (Elt F) → (⟨S131072x256, .f32⟩ : BufTy).Contents (Elt F) → (⟨S131072x256, .f32⟩ : BufTy).Contents (Elt F)),
    nullary main_cst_1 (constant S_ .f32 0x00000000#32),
    unary main_cst_1 main_v20 (broadcastInDim S4096x256 ![] bcast_S_S4096x256 : (⟨S_, .f32⟩ : BufTy).Contents (Elt F) → (⟨S4096x256, .f32⟩ : BufTy).Contents (Elt F)),
    unary main_arg3 main_v21 (broadcastInDim S131072x1 ![0] bcast_S131072_S131072x1_0 : (⟨S131072, .i32⟩ : BufTy).Contents (Elt F) → (⟨S131072x1, .i32⟩ : BufTy).Contents (Elt F)),
    ternary main_v20 main_v21 main_v19 main_v22 ((fun x i u => Host.scatterAdd scatter_S4096x256_S131072x1_S131072x256_1_0_0_1 x i u) : (⟨S4096x256, .f32⟩ : BufTy).Contents (Elt F) → (⟨S131072x1, .i32⟩ : BufTy).Contents (Elt F) → (⟨S131072x256, .f32⟩ : BufTy).Contents (Elt F) → (⟨S4096x256, .f32⟩ : BufTy).Contents (Elt F)),
    unary main_arg7 main_v23 (broadcastInDim S20480x1 ![0] bcast_S20480_S20480x1_0 : (⟨S20480, .f32⟩ : BufTy).Contents (Elt F) → (⟨S20480x1, .f32⟩ : BufTy).Contents (Elt F)),
    nullary main_c_2 (constantI S_ 32 0#32),
    unary main_c_2 main_v24 (broadcastInDim S20480 ![] bcast_S_S20480 : (⟨S_, .i32⟩ : BufTy).Contents (Elt F) → (⟨S20480, .i32⟩ : BufTy).Contents (Elt F)),
    binary main_arg5 main_v24 main_v25 (cmpi .slt : (⟨S20480, .i32⟩ : BufTy).Contents (Elt F) → (⟨S20480, .i32⟩ : BufTy).Contents (Elt F) → (⟨S20480, .i1⟩ : BufTy).Contents (Elt F)),
    nullary main_c_3 (constantI S_ 32 4096#32),
    unary main_c_3 main_v26 (broadcastInDim S20480 ![] bcast_S_S20480 : (⟨S_, .i32⟩ : BufTy).Contents (Elt F) → (⟨S20480, .i32⟩ : BufTy).Contents (Elt F)),
    binary main_arg5 main_v26 main_v27 (addi : (⟨S20480, .i32⟩ : BufTy).Contents (Elt F) → (⟨S20480, .i32⟩ : BufTy).Contents (Elt F) → (⟨S20480, .i32⟩ : BufTy).Contents (Elt F)),
    ternary main_v25 main_v27 main_arg5 main_v28 (select : (⟨S20480, .i1⟩ : BufTy).Contents (Elt F) → (⟨S20480, .i32⟩ : BufTy).Contents (Elt F) → (⟨S20480, .i32⟩ : BufTy).Contents (Elt F) → (⟨S20480, .i32⟩ : BufTy).Contents (Elt F)),
    unary main_v28 main_v29 (broadcastInDim S20480x1 ![0] bcast_S20480_S20480x1_0 : (⟨S20480, .i32⟩ : BufTy).Contents (Elt F) → (⟨S20480x1, .i32⟩ : BufTy).Contents (Elt F)),
    binary main_v5 main_v29 main_v30 ((fun x i => Host.gather gather_S4096x256_S20480x1_S20480x256_1_0_n_n_0_1_1256 x i) : (⟨S4096x256, .f32⟩ : BufTy).Contents (Elt F) → (⟨S20480x1, .i32⟩ : BufTy).Contents (Elt F) → (⟨S20480x256, .f32⟩ : BufTy).Contents (Elt F)),
    unary main_v23 main_v31 (broadcastInDim S20480x256 ![0, 1] bcast_S20480x1_S20480x256_0_1 : (⟨S20480x1, .f32⟩ : BufTy).Contents (Elt F) → (⟨S20480x256, .f32⟩ : BufTy).Contents (Elt F)),
    binary main_v31 main_v30 main_v32 (mulf : (⟨S20480x256, .f32⟩ : BufTy).Contents (Elt F) → (⟨S20480x256, .f32⟩ : BufTy).Contents (Elt F) → (⟨S20480x256, .f32⟩ : BufTy).Contents (Elt F)),
    nullary main_cst_4 (constant S_ .f32 0x00000000#32),
    unary main_cst_4 main_v33 (broadcastInDim S4096x256 ![] bcast_S_S4096x256 : (⟨S_, .f32⟩ : BufTy).Contents (Elt F) → (⟨S4096x256, .f32⟩ : BufTy).Contents (Elt F)),
    unary main_arg6 main_v34 (broadcastInDim S20480x1 ![0] bcast_S20480_S20480x1_0 : (⟨S20480, .i32⟩ : BufTy).Contents (Elt F) → (⟨S20480x1, .i32⟩ : BufTy).Contents (Elt F)),
    ternary main_v33 main_v34 main_v32 main_v35 ((fun x i u => Host.scatterAdd scatter_S4096x256_S20480x1_S20480x256_1_0_0_1 x i u) : (⟨S4096x256, .f32⟩ : BufTy).Contents (Elt F) → (⟨S20480x1, .i32⟩ : BufTy).Contents (Elt F) → (⟨S20480x256, .f32⟩ : BufTy).Contents (Elt F) → (⟨S4096x256, .f32⟩ : BufTy).Contents (Elt F)),
    binary main_v22 main_v35 main_v36 (addf : (⟨S4096x256, .f32⟩ : BufTy).Contents (Elt F) → (⟨S4096x256, .f32⟩ : BufTy).Contents (Elt F) → (⟨S4096x256, .f32⟩ : BufTy).Contents (Elt F)),
    nullary main_cst_5 (constant S_ .f32 0x00000000#32),
    binary main_v36 main_cst_5 main_v37 ((fun x v => Host.reduceAdd x v reducesTo_S4096x256_S256_d0 h_S_) : (⟨S4096x256, .f32⟩ : BufTy).Contents (Elt F) → (⟨S_, .f32⟩ : BufTy).Contents (Elt F) → (⟨S256, .f32⟩ : BufTy).Contents (Elt F)),
    nullary main_cst_6 (constant S_ .f32 0x45800000#32),
    unary main_cst_6 main_v38 (broadcastInDim S256 ![] bcast_S_S256 : (⟨S_, .f32⟩ : BufTy).Contents (Elt F) → (⟨S256, .f32⟩ : BufTy).Contents (Elt F)),
    binary main_v37 main_v38 main_v39 (Host.divf : (⟨S256, .f32⟩ : BufTy).Contents (Elt F) → (⟨S256, .f32⟩ : BufTy).Contents (Elt F) → (⟨S256, .f32⟩ : BufTy).Contents (Elt F)),
    unary main_v39 main_v40 (broadcastInDim S1x256 ![1] bcast_S256_S1x256_1 : (⟨S256, .f32⟩ : BufTy).Contents (Elt F) → (⟨S1x256, .f32⟩ : BufTy).Contents (Elt F)),
    unary main_v40 main_v41 (broadcastInDim S4096x256 ![0, 1] bcast_S1x256_S4096x256_0_1 : (⟨S1x256, .f32⟩ : BufTy).Contents (Elt F) → (⟨S4096x256, .f32⟩ : BufTy).Contents (Elt F)),
    binary main_v36 main_v41 main_v42 (subf : (⟨S4096x256, .f32⟩ : BufTy).Contents (Elt F) → (⟨S4096x256, .f32⟩ : BufTy).Contents (Elt F) → (⟨S4096x256, .f32⟩ : BufTy).Contents (Elt F)),
    binary main_v42 main_v42 main_v43 (mulf : (⟨S4096x256, .f32⟩ : BufTy).Contents (Elt F) → (⟨S4096x256, .f32⟩ : BufTy).Contents (Elt F) → (⟨S4096x256, .f32⟩ : BufTy).Contents (Elt F)),
    nullary main_cst_7 (constant S_ .f32 0x00000000#32),
    binary main_v43 main_cst_7 main_v44 ((fun x v => Host.reduceAdd x v reducesTo_S4096x256_S256_d0 h_S_) : (⟨S4096x256, .f32⟩ : BufTy).Contents (Elt F) → (⟨S_, .f32⟩ : BufTy).Contents (Elt F) → (⟨S256, .f32⟩ : BufTy).Contents (Elt F)),
    nullary main_cst_8 (constant S_ .f32 0x45800000#32),
    unary main_cst_8 main_v45 (broadcastInDim S256 ![] bcast_S_S256 : (⟨S_, .f32⟩ : BufTy).Contents (Elt F) → (⟨S256, .f32⟩ : BufTy).Contents (Elt F)),
    binary main_v44 main_v45 main_v46 (Host.divf : (⟨S256, .f32⟩ : BufTy).Contents (Elt F) → (⟨S256, .f32⟩ : BufTy).Contents (Elt F) → (⟨S256, .f32⟩ : BufTy).Contents (Elt F)),
    unary main_v39 main_v47 (broadcastInDim S1x256 ![1] bcast_S256_S1x256_1 : (⟨S256, .f32⟩ : BufTy).Contents (Elt F) → (⟨S1x256, .f32⟩ : BufTy).Contents (Elt F)),
    unary main_v47 main_v48 (broadcastInDim S4096x256 ![0, 1] bcast_S1x256_S4096x256_0_1 : (⟨S1x256, .f32⟩ : BufTy).Contents (Elt F) → (⟨S4096x256, .f32⟩ : BufTy).Contents (Elt F)),
    binary main_v36 main_v48 main_v49 (subf : (⟨S4096x256, .f32⟩ : BufTy).Contents (Elt F) → (⟨S4096x256, .f32⟩ : BufTy).Contents (Elt F) → (⟨S4096x256, .f32⟩ : BufTy).Contents (Elt F)),
    nullary main_cst_9 (constant S_ .f32 0x3727C5AC#32),
    unary main_cst_9 main_v50 (broadcastInDim S256 ![] bcast_S_S256 : (⟨S_, .f32⟩ : BufTy).Contents (Elt F) → (⟨S256, .f32⟩ : BufTy).Contents (Elt F)),
    binary main_v46 main_v50 main_v51 (addf : (⟨S256, .f32⟩ : BufTy).Contents (Elt F) → (⟨S256, .f32⟩ : BufTy).Contents (Elt F) → (⟨S256, .f32⟩ : BufTy).Contents (Elt F)),
    unary main_v51 main_v52 (Host.rsqrt : (⟨S256, .f32⟩ : BufTy).Contents (Elt F) → (⟨S256, .f32⟩ : BufTy).Contents (Elt F)),
    unary main_v52 main_v53 (broadcastInDim S1x256 ![1] bcast_S256_S1x256_1 : (⟨S256, .f32⟩ : BufTy).Contents (Elt F) → (⟨S1x256, .f32⟩ : BufTy).Contents (Elt F)),
    unary main_v53 main_v54 (broadcastInDim S4096x256 ![0, 1] bcast_S1x256_S4096x256_0_1 : (⟨S1x256, .f32⟩ : BufTy).Contents (Elt F) → (⟨S4096x256, .f32⟩ : BufTy).Contents (Elt F)),
    binary main_v49 main_v54 main_v55 (mulf : (⟨S4096x256, .f32⟩ : BufTy).Contents (Elt F) → (⟨S4096x256, .f32⟩ : BufTy).Contents (Elt F) → (⟨S4096x256, .f32⟩ : BufTy).Contents (Elt F)),
    unary main_arg10 main_v56 (broadcastInDim S1x256 ![1] bcast_S256_S1x256_1 : (⟨S256, .f32⟩ : BufTy).Contents (Elt F) → (⟨S1x256, .f32⟩ : BufTy).Contents (Elt F)),
    unary main_v56 main_v57 (broadcastInDim S4096x256 ![0, 1] bcast_S1x256_S4096x256_0_1 : (⟨S1x256, .f32⟩ : BufTy).Contents (Elt F) → (⟨S4096x256, .f32⟩ : BufTy).Contents (Elt F)),
    binary main_v55 main_v57 main_v58 (mulf : (⟨S4096x256, .f32⟩ : BufTy).Contents (Elt F) → (⟨S4096x256, .f32⟩ : BufTy).Contents (Elt F) → (⟨S4096x256, .f32⟩ : BufTy).Contents (Elt F)),
    unary main_arg11 main_v59 (broadcastInDim S1x256 ![1] bcast_S256_S1x256_1 : (⟨S256, .f32⟩ : BufTy).Contents (Elt F) → (⟨S1x256, .f32⟩ : BufTy).Contents (Elt F)),
    unary main_v59 main_v60 (broadcastInDim S4096x256 ![0, 1] bcast_S1x256_S4096x256_0_1 : (⟨S1x256, .f32⟩ : BufTy).Contents (Elt F) → (⟨S4096x256, .f32⟩ : BufTy).Contents (Elt F)),
    binary main_v58 main_v60 main_v61 (addf : (⟨S4096x256, .f32⟩ : BufTy).Contents (Elt F) → (⟨S4096x256, .f32⟩ : BufTy).Contents (Elt F) → (⟨S4096x256, .f32⟩ : BufTy).Contents (Elt F)),
    nullary main_cst_10 (constant S_ .f32 0x00000000#32),
    unary main_cst_10 main_v62 (broadcastInDim S4096x256 ![] bcast_S_S4096x256 : (⟨S_, .f32⟩ : BufTy).Contents (Elt F) → (⟨S4096x256, .f32⟩ : BufTy).Contents (Elt F)),
    binary main_v61 main_v62 main_v63 (cmpf .oge : (⟨S4096x256, .f32⟩ : BufTy).Contents (Elt F) → (⟨S4096x256, .f32⟩ : BufTy).Contents (Elt F) → (⟨S4096x256, .i1⟩ : BufTy).Contents (Elt F)),
    nullary main_cst_11 (constant S_ .f32 0x3C23D70A#32),
    unary main_cst_11 main_v64 (broadcastInDim S4096x256 ![] bcast_S_S4096x256 : (⟨S_, .f32⟩ : BufTy).Contents (Elt F) → (⟨S4096x256, .f32⟩ : BufTy).Contents (Elt F)),
    binary main_v64 main_v61 main_v65 (mulf : (⟨S4096x256, .f32⟩ : BufTy).Contents (Elt F) → (⟨S4096x256, .f32⟩ : BufTy).Contents (Elt F) → (⟨S4096x256, .f32⟩ : BufTy).Contents (Elt F)),
    TRef.ternary (TRef.of (T := ⟨S4096x256, .i1⟩) main_v63) (TRef.of (T := ⟨S4096x256, .f32⟩) main_v61) (TRef.of (T := ⟨S4096x256, .f32⟩) main_v65) (TRef.of (T := ⟨S4096x256, .f32⟩) main_v66) select,
    binary main_v66 main_arg12 main_v67 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg13 main_v68 (broadcastInDim S1x256 ![1] bcast_S256_S1x256_1 : (⟨S256, .f32⟩ : BufTy).Contents (Elt F) → (⟨S1x256, .f32⟩ : BufTy).Contents (Elt F)),
    unary main_v68 main_v69 (broadcastInDim S4096x256 ![0, 1] bcast_S1x256_S4096x256_0_1 : (⟨S1x256, .f32⟩ : BufTy).Contents (Elt F) → (⟨S4096x256, .f32⟩ : BufTy).Contents (Elt F)),
    binary main_v67 main_v69 main_v70 (addf : (⟨S4096x256, .f32⟩ : BufTy).Contents (Elt F) → (⟨S4096x256, .f32⟩ : BufTy).Contents (Elt F) → (⟨S4096x256, .f32⟩ : BufTy).Contents (Elt F)),
    unary main_arg4 main_v71 (broadcastInDim S131072x1 ![0] bcast_S131072_S131072x1_0 : (⟨S131072, .f32⟩ : BufTy).Contents (Elt F) → (⟨S131072x1, .f32⟩ : BufTy).Contents (Elt F)),
    nullary main_c_12 (constantI S_ 32 0#32),
    unary main_c_12 main_v72 (broadcastInDim S131072 ![] bcast_S_S131072 : (⟨S_, .i32⟩ : BufTy).Contents (Elt F) → (⟨S131072, .i32⟩ : BufTy).Contents (Elt F)),
    binary main_arg2 main_v72 main_v73 (cmpi .slt : (⟨S131072, .i32⟩ : BufTy).Contents (Elt F) → (⟨S131072, .i32⟩ : BufTy).Contents (Elt F) → (⟨S131072, .i1⟩ : BufTy).Contents (Elt F)),
    nullary main_c_13 (constantI S_ 32 4096#32),
    unary main_c_13 main_v74 (broadcastInDim S131072 ![] bcast_S_S131072 : (⟨S_, .i32⟩ : BufTy).Contents (Elt F) → (⟨S131072, .i32⟩ : BufTy).Contents (Elt F)),
    binary main_arg2 main_v74 main_v75 (addi : (⟨S131072, .i32⟩ : BufTy).Contents (Elt F) → (⟨S131072, .i32⟩ : BufTy).Contents (Elt F) → (⟨S131072, .i32⟩ : BufTy).Contents (Elt F)),
    ternary main_v73 main_v75 main_arg2 main_v76 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v76 main_v77 (broadcastInDim S131072x1 ![0] bcast_S131072_S131072x1_0 : (⟨S131072, .i32⟩ : BufTy).Contents (Elt F) → (⟨S131072x1, .i32⟩ : BufTy).Contents (Elt F)),
    binary main_v70 main_v77 main_v78 ((fun x i => Host.gather gather_S4096x256_S131072x1_S131072x256_1_0_n_n_0_1_1256 x i) : (⟨S4096x256, .f32⟩ : BufTy).Contents (Elt F) → (⟨S131072x1, .i32⟩ : BufTy).Contents (Elt F) → (⟨S131072x256, .f32⟩ : BufTy).Contents (Elt F)),
    unary main_v71 main_v79 (broadcastInDim S131072x256 ![0, 1] bcast_S131072x1_S131072x256_0_1 : (⟨S131072x1, .f32⟩ : BufTy).Contents (Elt F) → (⟨S131072x256, .f32⟩ : BufTy).Contents (Elt F)),
    binary main_v79 main_v78 main_v80 (mulf : (⟨S131072x256, .f32⟩ : BufTy).Contents (Elt F) → (⟨S131072x256, .f32⟩ : BufTy).Contents (Elt F) → (⟨S131072x256, .f32⟩ : BufTy).Contents (Elt F)),
    nullary main_cst_14 (constant S_ .f32 0x00000000#32),
    unary main_cst_14 main_v81 (broadcastInDim S4096x256 ![] bcast_S_S4096x256 : (⟨S_, .f32⟩ : BufTy).Contents (Elt F) → (⟨S4096x256, .f32⟩ : BufTy).Contents (Elt F)),
    unary main_arg3 main_v82 (broadcastInDim S131072x1 ![0] bcast_S131072_S131072x1_0 : (⟨S131072, .i32⟩ : BufTy).Contents (Elt F) → (⟨S131072x1, .i32⟩ : BufTy).Contents (Elt F)),
    ternary main_v81 main_v82 main_v80 main_v83 ((fun x i u => Host.scatterAdd scatter_S4096x256_S131072x1_S131072x256_1_0_0_1 x i u) : (⟨S4096x256, .f32⟩ : BufTy).Contents (Elt F) → (⟨S131072x1, .i32⟩ : BufTy).Contents (Elt F) → (⟨S131072x256, .f32⟩ : BufTy).Contents (Elt F) → (⟨S4096x256, .f32⟩ : BufTy).Contents (Elt F)),
    unary main_arg7 main_v84 (broadcastInDim S20480x1 ![0] bcast_S20480_S20480x1_0 : (⟨S20480, .f32⟩ : BufTy).Contents (Elt F) → (⟨S20480x1, .f32⟩ : BufTy).Contents (Elt F)),
    nullary main_c_15 (constantI S_ 32 0#32),
    unary main_c_15 main_v85 (broadcastInDim S20480 ![] bcast_S_S20480 : (⟨S_, .i32⟩ : BufTy).Contents (Elt F) → (⟨S20480, .i32⟩ : BufTy).Contents (Elt F)),
    binary main_arg5 main_v85 main_v86 (cmpi .slt : (⟨S20480, .i32⟩ : BufTy).Contents (Elt F) → (⟨S20480, .i32⟩ : BufTy).Contents (Elt F) → (⟨S20480, .i1⟩ : BufTy).Contents (Elt F)),
    nullary main_c_16 (constantI S_ 32 4096#32),
    unary main_c_16 main_v87 (broadcastInDim S20480 ![] bcast_S_S20480 : (⟨S_, .i32⟩ : BufTy).Contents (Elt F) → (⟨S20480, .i32⟩ : BufTy).Contents (Elt F)),
    binary main_arg5 main_v87 main_v88 (addi : (⟨S20480, .i32⟩ : BufTy).Contents (Elt F) → (⟨S20480, .i32⟩ : BufTy).Contents (Elt F) → (⟨S20480, .i32⟩ : BufTy).Contents (Elt F)),
    ternary main_v86 main_v88 main_arg5 main_v89 (select : (⟨S20480, .i1⟩ : BufTy).Contents (Elt F) → (⟨S20480, .i32⟩ : BufTy).Contents (Elt F) → (⟨S20480, .i32⟩ : BufTy).Contents (Elt F) → (⟨S20480, .i32⟩ : BufTy).Contents (Elt F)),
    unary main_v89 main_v90 (broadcastInDim S20480x1 ![0] bcast_S20480_S20480x1_0 : (⟨S20480, .i32⟩ : BufTy).Contents (Elt F) → (⟨S20480x1, .i32⟩ : BufTy).Contents (Elt F)),
    binary main_v66 main_v90 main_v91 ((fun x i => Host.gather gather_S4096x256_S20480x1_S20480x256_1_0_n_n_0_1_1256 x i) : (⟨S4096x256, .f32⟩ : BufTy).Contents (Elt F) → (⟨S20480x1, .i32⟩ : BufTy).Contents (Elt F) → (⟨S20480x256, .f32⟩ : BufTy).Contents (Elt F)),
    unary main_v84 main_v92 (broadcastInDim S20480x256 ![0, 1] bcast_S20480x1_S20480x256_0_1 : (⟨S20480x1, .f32⟩ : BufTy).Contents (Elt F) → (⟨S20480x256, .f32⟩ : BufTy).Contents (Elt F)),
    binary main_v92 main_v91 main_v93 (mulf : (⟨S20480x256, .f32⟩ : BufTy).Contents (Elt F) → (⟨S20480x256, .f32⟩ : BufTy).Contents (Elt F) → (⟨S20480x256, .f32⟩ : BufTy).Contents (Elt F)),
    nullary main_cst_17 (constant S_ .f32 0x00000000#32),
    unary main_cst_17 main_v94 (broadcastInDim S4096x256 ![] bcast_S_S4096x256 : (⟨S_, .f32⟩ : BufTy).Contents (Elt F) → (⟨S4096x256, .f32⟩ : BufTy).Contents (Elt F)),
    unary main_arg6 main_v95 (broadcastInDim S20480x1 ![0] bcast_S20480_S20480x1_0 : (⟨S20480, .i32⟩ : BufTy).Contents (Elt F) → (⟨S20480x1, .i32⟩ : BufTy).Contents (Elt F)),
    ternary main_v94 main_v95 main_v93 main_v96 ((fun x i u => Host.scatterAdd scatter_S4096x256_S20480x1_S20480x256_1_0_0_1 x i u) : (⟨S4096x256, .f32⟩ : BufTy).Contents (Elt F) → (⟨S20480x1, .i32⟩ : BufTy).Contents (Elt F) → (⟨S20480x256, .f32⟩ : BufTy).Contents (Elt F) → (⟨S4096x256, .f32⟩ : BufTy).Contents (Elt F)),
    binary main_v83 main_v96 main_v97 (addf : (⟨S4096x256, .f32⟩ : BufTy).Contents (Elt F) → (⟨S4096x256, .f32⟩ : BufTy).Contents (Elt F) → (⟨S4096x256, .f32⟩ : BufTy).Contents (Elt F)),
    nullary main_cst_18 (constant S_ .f32 0x00000000#32),
    binary main_v97 main_cst_18 main_v98 ((fun x v => Host.reduceAdd x v reducesTo_S4096x256_S256_d0 h_S_) : (⟨S4096x256, .f32⟩ : BufTy).Contents (Elt F) → (⟨S_, .f32⟩ : BufTy).Contents (Elt F) → (⟨S256, .f32⟩ : BufTy).Contents (Elt F)),
    nullary main_cst_19 (constant S_ .f32 0x45800000#32),
    unary main_cst_19 main_v99 (broadcastInDim S256 ![] bcast_S_S256 : (⟨S_, .f32⟩ : BufTy).Contents (Elt F) → (⟨S256, .f32⟩ : BufTy).Contents (Elt F)),
    binary main_v98 main_v99 main_v100 (Host.divf : (⟨S256, .f32⟩ : BufTy).Contents (Elt F) → (⟨S256, .f32⟩ : BufTy).Contents (Elt F) → (⟨S256, .f32⟩ : BufTy).Contents (Elt F)),
    unary main_v100 main_v101 (broadcastInDim S1x256 ![1] bcast_S256_S1x256_1 : (⟨S256, .f32⟩ : BufTy).Contents (Elt F) → (⟨S1x256, .f32⟩ : BufTy).Contents (Elt F)),
    unary main_v101 main_v102 (broadcastInDim S4096x256 ![0, 1] bcast_S1x256_S4096x256_0_1 : (⟨S1x256, .f32⟩ : BufTy).Contents (Elt F) → (⟨S4096x256, .f32⟩ : BufTy).Contents (Elt F)),
    binary main_v97 main_v102 main_v103 (subf : (⟨S4096x256, .f32⟩ : BufTy).Contents (Elt F) → (⟨S4096x256, .f32⟩ : BufTy).Contents (Elt F) → (⟨S4096x256, .f32⟩ : BufTy).Contents (Elt F)),
    binary main_v103 main_v103 main_v104 (mulf : (⟨S4096x256, .f32⟩ : BufTy).Contents (Elt F) → (⟨S4096x256, .f32⟩ : BufTy).Contents (Elt F) → (⟨S4096x256, .f32⟩ : BufTy).Contents (Elt F)),
    nullary main_cst_20 (constant S_ .f32 0x00000000#32),
    binary main_v104 main_cst_20 main_v105 ((fun x v => Host.reduceAdd x v reducesTo_S4096x256_S256_d0 h_S_) : (⟨S4096x256, .f32⟩ : BufTy).Contents (Elt F) → (⟨S_, .f32⟩ : BufTy).Contents (Elt F) → (⟨S256, .f32⟩ : BufTy).Contents (Elt F)),
    nullary main_cst_21 (constant S_ .f32 0x45800000#32),
    unary main_cst_21 main_v106 (broadcastInDim S256 ![] bcast_S_S256 : (⟨S_, .f32⟩ : BufTy).Contents (Elt F) → (⟨S256, .f32⟩ : BufTy).Contents (Elt F)),
    binary main_v105 main_v106 main_v107 (Host.divf : (⟨S256, .f32⟩ : BufTy).Contents (Elt F) → (⟨S256, .f32⟩ : BufTy).Contents (Elt F) → (⟨S256, .f32⟩ : BufTy).Contents (Elt F)),
    unary main_v100 main_v108 (broadcastInDim S1x256 ![1] bcast_S256_S1x256_1 : (⟨S256, .f32⟩ : BufTy).Contents (Elt F) → (⟨S1x256, .f32⟩ : BufTy).Contents (Elt F)),
    unary main_v108 main_v109 (broadcastInDim S4096x256 ![0, 1] bcast_S1x256_S4096x256_0_1 : (⟨S1x256, .f32⟩ : BufTy).Contents (Elt F) → (⟨S4096x256, .f32⟩ : BufTy).Contents (Elt F)),
    binary main_v97 main_v109 main_v110 (subf : (⟨S4096x256, .f32⟩ : BufTy).Contents (Elt F) → (⟨S4096x256, .f32⟩ : BufTy).Contents (Elt F) → (⟨S4096x256, .f32⟩ : BufTy).Contents (Elt F)),
    nullary main_cst_22 (constant S_ .f32 0x3727C5AC#32),
    unary main_cst_22 main_v111 (broadcastInDim S256 ![] bcast_S_S256 : (⟨S_, .f32⟩ : BufTy).Contents (Elt F) → (⟨S256, .f32⟩ : BufTy).Contents (Elt F)),
    binary main_v107 main_v111 main_v112 (addf : (⟨S256, .f32⟩ : BufTy).Contents (Elt F) → (⟨S256, .f32⟩ : BufTy).Contents (Elt F) → (⟨S256, .f32⟩ : BufTy).Contents (Elt F)),
    unary main_v112 main_v113 (Host.rsqrt : (⟨S256, .f32⟩ : BufTy).Contents (Elt F) → (⟨S256, .f32⟩ : BufTy).Contents (Elt F)),
    unary main_v113 main_v114 (broadcastInDim S1x256 ![1] bcast_S256_S1x256_1 : (⟨S256, .f32⟩ : BufTy).Contents (Elt F) → (⟨S1x256, .f32⟩ : BufTy).Contents (Elt F)),
    unary main_v114 main_v115 (broadcastInDim S4096x256 ![0, 1] bcast_S1x256_S4096x256_0_1 : (⟨S1x256, .f32⟩ : BufTy).Contents (Elt F) → (⟨S4096x256, .f32⟩ : BufTy).Contents (Elt F)),
    binary main_v110 main_v115 main_v116 (mulf : (⟨S4096x256, .f32⟩ : BufTy).Contents (Elt F) → (⟨S4096x256, .f32⟩ : BufTy).Contents (Elt F) → (⟨S4096x256, .f32⟩ : BufTy).Contents (Elt F)),
    unary main_arg14 main_v117 (broadcastInDim S1x256 ![1] bcast_S256_S1x256_1 : (⟨S256, .f32⟩ : BufTy).Contents (Elt F) → (⟨S1x256, .f32⟩ : BufTy).Contents (Elt F)),
    unary main_v117 main_v118 (broadcastInDim S4096x256 ![0, 1] bcast_S1x256_S4096x256_0_1 : (⟨S1x256, .f32⟩ : BufTy).Contents (Elt F) → (⟨S4096x256, .f32⟩ : BufTy).Contents (Elt F)),
    binary main_v116 main_v118 main_v119 (mulf : (⟨S4096x256, .f32⟩ : BufTy).Contents (Elt F) → (⟨S4096x256, .f32⟩ : BufTy).Contents (Elt F) → (⟨S4096x256, .f32⟩ : BufTy).Contents (Elt F)),
    unary main_arg15 main_v120 (broadcastInDim S1x256 ![1] bcast_S256_S1x256_1 : (⟨S256, .f32⟩ : BufTy).Contents (Elt F) → (⟨S1x256, .f32⟩ : BufTy).Contents (Elt F)),
    unary main_v120 main_v121 (broadcastInDim S4096x256 ![0, 1] bcast_S1x256_S4096x256_0_1 : (⟨S1x256, .f32⟩ : BufTy).Contents (Elt F) → (⟨S4096x256, .f32⟩ : BufTy).Contents (Elt F)),
    binary main_v119 main_v121 main_v122 (addf : (⟨S4096x256, .f32⟩ : BufTy).Contents (Elt F) → (⟨S4096x256, .f32⟩ : BufTy).Contents (Elt F) → (⟨S4096x256, .f32⟩ : BufTy).Contents (Elt F)),
    nullary main_cst_23 (constant S_ .f32 0x00000000#32),
    unary main_cst_23 main_v123 (broadcastInDim S4096x256 ![] bcast_S_S4096x256 : (⟨S_, .f32⟩ : BufTy).Contents (Elt F) → (⟨S4096x256, .f32⟩ : BufTy).Contents (Elt F)),
    binary main_v122 main_v123 main_v124 (cmpf .oge : (⟨S4096x256, .f32⟩ : BufTy).Contents (Elt F) → (⟨S4096x256, .f32⟩ : BufTy).Contents (Elt F) → (⟨S4096x256, .i1⟩ : BufTy).Contents (Elt F)),
    nullary main_cst_24 (constant S_ .f32 0x3C23D70A#32),
    unary main_cst_24 main_v125 (broadcastInDim S4096x256 ![] bcast_S_S4096x256 : (⟨S_, .f32⟩ : BufTy).Contents (Elt F) → (⟨S4096x256, .f32⟩ : BufTy).Contents (Elt F)),
    binary main_v125 main_v122 main_v126 (mulf : (⟨S4096x256, .f32⟩ : BufTy).Contents (Elt F) → (⟨S4096x256, .f32⟩ : BufTy).Contents (Elt F) → (⟨S4096x256, .f32⟩ : BufTy).Contents (Elt F)),
    TRef.ternary (TRef.of (T := ⟨S4096x256, .i1⟩) main_v124) (TRef.of (T := ⟨S4096x256, .f32⟩) main_v122) (TRef.of (T := ⟨S4096x256, .f32⟩) main_v126) (TRef.of (T := ⟨S4096x256, .f32⟩) main_v127) select,
    binary main_arg1 main_v127 main_v128 ((fun l r => Host.dotGeneral dot_S65536x4096_S4096x256_S65536x256_1_0_0_1_n_n none l r) : (⟨S65536x4096, .f32⟩ : BufTy).Contents (Elt F) → (⟨S4096x256, .f32⟩ : BufTy).Contents (Elt F) → (⟨S65536x256, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., binary_bufs_sub .., unary_bufs_sub .., unary_bufs_sub .., binary_bufs_sub .., unary_bufs_sub .., binary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub ..⟩

set_option maxRecDepth 8192 in
/-- The line is its four blocks in a row. -/
theorem ops_split : (ops : List (HloOp τ sig (Elt F))) = opsPool ++ (opsLayer1 ++ (opsLayer2 ++ opsOut)) := rfl

/-! ## Each block from any contents -/

set_option maxRecDepth 8192 in
set_option maxHeartbeats 4000000 in
/-- The pooling leaves the pooled rows of W's Q and x. -/
theorem pool_result (W : Valuation τ sig (Elt F)) :
    after opsPool W (Proc.devRef .tc main_v5) = hpRef (W (Proc.devRef .tc main_arg1)) (W (Proc.devRef .tc main_arg0)) := by
  after_results_simp <;> rfl

set_option maxRecDepth 8192 in
set_option maxHeartbeats 4000000 in
/-- The first layer leaves the layer's map of W's pooled rows, with the first layer's parameters. -/
theorem layer1_result (W : Valuation τ sig (Elt F)) :
    after opsLayer1 W (Proc.devRef .tc main_v66)
      = layer (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_v5)) := by
  after_results_simp <;> rfl

set_option maxRecDepth 8192 in
set_option maxHeartbeats 4000000 in
/-- The second layer leaves the layer's map of the first layer's output, with the second layer's parameters. -/
theorem layer2_result (W : Valuation τ sig (Elt F)) :
    after opsLayer2 W (Proc.devRef .tc main_v127)
      = layer (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg12)) (W (Proc.devRef .tc main_arg13)) (W (Proc.devRef .tc main_arg14)) (W (Proc.devRef .tc main_arg15)) (W (Proc.devRef .tc main_v66)) := by
  after_results_simp <;> rfl

/-- The final product leaves Q times the second layer's output. -/
theorem out_result (W : Valuation τ sig (Elt F)) :
    after opsOut W (Proc.devRef .tc main_v128) = finalDot (W (Proc.devRef .tc main_arg1)) (W (Proc.devRef .tc main_v127)) := by
  after_results_simp <;> rfl

/-! ## The whole line -/

set_option maxRecDepth 8192 in
set_option maxHeartbeats 4000000 in
/-- The result buffer after the whole line, from any contents W. -/
theorem result_eq (W : Valuation τ sig (Elt F)) :
    after ops W (Proc.devRef .tc main_v128)
      = finalDot (W (Proc.devRef .tc main_arg1)) (layers (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15))
          (hpRef (W (Proc.devRef .tc main_arg1)) (W (Proc.devRef .tc main_arg0)))) := by
  rw [ops_split, StableHlo.after_append, StableHlo.after_append, StableHlo.after_append, out_result, layer2_result,
    layer1_result, pool_result]
  unfold layers
  after_results_simp <;> rfl

set_option maxRecDepth 8192 in
set_option maxHeartbeats 62400000 in
/-- On every device, for any float values, from any memory with zero counters: every weakly fair execution of
    @main terminates with the result at finalDot Q (layers ... (hpRef Q x)) of the arguments' launch contents and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v128)
        = finalDot (m ((c.tc : Thread nD τ).loc main_arg1)) (layers (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
            (hpRef (m ((c.tc : Thread nD τ).loc main_arg1)) (m ((c.tc : Thread nD τ).loc main_arg0))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v128).trans (result_eq (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl),
      (h c main_arg15).trans (by after_results_simp <;> rfl)⟩)
    (run_seq scopedRefs_eq scopedSems_eq defs main (fun _ => ops) main_eq (fun _ => ops_sub) m ρ)

end Cert.Bridge.Ref

end
-- ==== Proof.KIBridge.lean ====
/-
  The kernel's result is the reference's. The first region leaves raw (s, d) = Σ_p Q (p, s) · x (p, d) and
  cs (0, s) = Σ_p Q (p, s); the host divides: hpK (s, d) = raw (s, d) / cs (0, s). The reference forms
  hpR (s, d) = Σ_p (Q (p, s) / cs (s)) · x (p, d). With every entry of Q and x a real number and every column sum
  of Q nonzero (the precondition), dividing a finite sum of real products by a nonzero real is dividing each term:
  hpK = hpR. From there both programs apply the same two message-passing layers to equal arguments, and the final
  product, computed by the second region one row block at a time, is the reference's whole product entry by entry.
-/
import proofs.«165815_j54073638257172_1_alg».proof.Defs
import proofs.«165815_j54073638257172_1_alg».proof.Proof.KIMain
import proofs.«165815_j54073638257172_1_alg».proof.Proof.KIFold0
import proofs.«165815_j54073638257172_1_alg».proof.Proof.KIFinal1
import proofs.«165815_j54073638257172_1_alg».proof.Proof.KIHost
import proofs.«165815_j54073638257172_1_alg».proof.Proof.RefHp
import proofs.«165815_j54073638257172_1_alg».proof.Proof.FinalDot
import proofs.«165815_j54073638257172_1_alg».proof.Proof.PreFacts
import proofs.«165815_j54073638257172_1_alg».proof.Proof.RefRun
import proofs.«165815_j54073638257172_1_alg».proof.Proof.Gen.KernelIdeal
import proofs.«165815_j54073638257172_1_alg».proof.Proof.Gen.ReferenceIdeal
import proofs.«165815_j54073638257172_1_alg».proof.Proof.Gen.Pre_finite_inputs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

open Cert.Bridge

variable (m : (ℓ : Loc nD τ sig) → Buf (Elt Ideal) ℓ) (ρ : Dev nD → PrngReg)

/-- The arguments reach the host stretch as launched. -/
theorem W1_arg (c : Dev nD) (b : Ref sig .tc) (hb : ∀ w, Pipeline.arrRef spec0 w ≠ b) : W1 m ρ c (Proc.devRef .tc b) = m ((c.tc : Thread nD τ).loc b) :=
  W1_other m ρ c b hb

/-- The quotient the host forms from the first region's two results is the reference's normalised product. -/
theorem hpK_eq (hpre : Cert.Pre_KernelIdeal m) (c : Dev nD) :
    Host.divf (W1 m ρ c (Proc.devRef .tc main_v0_0)) (broadcastInDim S4096x256 ![0, 1] bcast_S4096x1_S4096x256_0_1
        (transpose S4096x1 [1, 0] (W1 m ρ c (Proc.devRef .tc main_v0_1)) transposes_S1x4096_S4096x1_1_0))
      = hpRef (F := Ideal) (m ((c.tc : Thread nD τ).loc main_arg1)) (m ((c.tc : Thread nD τ).loc main_arg0)) := by
  have e0 : W1 m ρ c (Proc.devRef .tc main_v0_0) = rawRes (V0 m ρ) c := (W1_arr m ρ c 2).trans (final0_2 (V0 m ρ) c)
  have e1 : W1 m ρ c (Proc.devRef .tc main_v0_1) = csRes (V0 m ρ) c := (W1_arr m ρ c 3).trans (final0_3 (V0 m ρ) c)
  rw [e0, e1]
  obtain ⟨hx, hQ, hcs⟩ := pre_facts _ _ _ _ _ _ _ _ _ _ _ _ _ _ _ _ (hpre c)
  funext i
  obtain ⟨s, d, rfl⟩ : ∃ (s : Fin 4096) (d : Fin 256), i = ix2 s d := ⟨i 0, i 1, eq_ix2 i⟩
  refine (hpKer_apply (rawRes (V0 m ρ) c) (csRes (V0 m ρ) c) transposes_S1x4096_S4096x1_1_0 bcast_S4096x1_S4096x256_0_1 s d).trans ?_
  rw [rawRes_apply, csRes_apply]
  exact (hpKerAt_eq_hpRefAt (m ((c.tc : Thread nD τ).loc main_arg1)) (m ((c.tc : Thread nD τ).loc main_arg0)) hQ hx hcs s d).trans
    (hpRef_apply (m ((c.tc : Thread nD τ).loc main_arg1)) (m ((c.tc : Thread nD τ).loc main_arg0)) s d).symm

/-- What the second region finds in h: the two layers applied to the reference's normalised product. -/
theorem h_eq (hpre : Cert.Pre_KernelIdeal m) (c : Dev nD) :
    V5 m ρ c main_v125 = layers (F := Ideal) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      (hpRef (F := Ideal) (m ((c.tc : Thread nD τ).loc main_arg1)) (m ((c.tc : Thread nD τ).loc main_arg0))) := by
  show StableHlo.after hostOps1_3 (StableHlo.after hostOps1_2 (StableHlo.after hostOps1_1 (StableHlo.after hostOps1 (W1 m ρ c)))) (Proc.devRef .tc main_v125) = _
  rw [Cert.Bridge.Ker.host_result, hpK_eq m ρ hpre c]
  rw [W1_arg m ρ c main_arg2 (by decide), W1_arg m ρ c main_arg3 (by decide), W1_arg m ρ c main_arg4 (by decide), W1_arg m ρ c main_arg5 (by decide), W1_arg m ρ c main_arg6 (by decide), W1_arg m ρ c main_arg7 (by decide), W1_arg m ρ c main_arg8 (by decide), W1_arg m ρ c main_arg9 (by decide), W1_arg m ρ c main_arg10 (by decide), W1_arg m ρ c main_arg11 (by decide), W1_arg m ρ c main_arg12 (by decide), W1_arg m ρ c main_arg13 (by decide), W1_arg m ρ c main_arg14 (by decide), W1_arg m ρ c main_arg15 (by decide)]

/-- THE RESULT: the kernel's output array ends at the reference's value. -/
theorem result_eq (hpre : Cert.Pre_KernelIdeal m) (c : Dev nD) :
    (dat1 (V5 m ρ) c).arrAt 2 cfg1.N = finalDot (F := Ideal) (m ((c.tc : Thread nD τ).loc main_arg1))
      (layers (F := Ideal) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
        (hpRef (F := Ideal) (m ((c.tc : Thread nD τ).loc main_arg1)) (m ((c.tc : Thread nD τ).loc main_arg0)))) := by
  rw [final1]
  have eQ : Qb (V5 m ρ) c = m ((c.tc : Thread nD τ).loc main_arg1) :=
    (W5_arg m ρ c main_arg1 (by decide)).trans (W1_main_arg1 m ρ c)
  have eH : Hb (V5 m ρ) c = _ := h_eq m ρ hpre c
  rw [eQ, eH]
  funext i
  obtain ⟨p, d, rfl⟩ : ∃ (p : Fin 65536) (d : Fin 256), i = ix2 p d := ⟨i 0, i 1, eq_ix2 i⟩
  exact (finalDot_apply _ _ p d).symm

/-- The value claim: both programs run to the end, from memories agreeing on the arguments, with equal results. -/
theorem algebraic : Cert.algebraic_KernelIdeal_ReferenceIdeal := by
  intro m ρ m' ρ' hpre hagree
  refine ⟨fun c => finalDot (F := Ideal) (m ((c.tc : Thread nD τ).loc main_arg1))
      (layers (F := Ideal) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
        (hpRef (F := Ideal) (m ((c.tc : Thread nD τ).loc main_arg1)) (m ((c.tc : Thread nD τ).loc main_arg0)))), ?_, ?_⟩
  · exact (θ_run defs _ _).mono (fun r h c => ⟨(h c).1.trans (result_eq m ρ hpre c), (h c).2⟩) (run_value m ρ)
  · refine (θ_run Cert.ReferenceIdeal.defs _ _).mono (fun r h c => ⟨(h c).1.trans ?_, (h c).2⟩) (Cert.Bridge.Ref.run (F := Ideal) m' ρ')
    obtain ⟨a0, a1, a2, a3, a4, a5, a6, a7, a8, a9, a10, a11, a12, a13, a14, a15⟩ := hagree c
    rw [a0, a1, a2, a3, a4, a5, a6, a7, a8, a9, a10, a11, a12, a13, a14, a15]

end Cert.KernelIdeal.Hand

end
-- ==== Proof.lean ====
/-
  The certificate of the hyperpixel message-passing kernel against its jnp reference.

  The kernel pools pixel features into superpixels in one pass over Q — a Pallas region accumulating, over 128 row
  blocks, the transposed product raw = Qᵀ·x and the column sums cs = Σ_p Q (p, ·) —, divides raw by cs on the host,
  runs two message-passing layers (a linear map, two gather / scatter-add aggregations, a batch normalisation, a leaky
  rectifier) as host operations, and projects back with a second Pallas region computing Q·h one row block at a time.
  The reference normalises the columns of Q first, Q / cs, then forms (Q / cs)ᵀ·x, the same two layers, and Q·h.

  On the extended reals the two agree when every entry of x and Q is a real number and no column of Q sums to
  zero (the precondition: dividing by a zero column sum is where the reference itself is undefined): then
  (Σ_p Q (p, s)·x (p, d)) / cs (s) = Σ_p (Q (p, s) / cs (s))·x (p, d), a finite sum of real products divided by a
  nonzero real. A change of float format is the identity there, a matrix product on the matrix unit and the host's
  dot_general are the same sum of products, and sums regroup freely, so the blocked accumulation is the whole sum and
  the blocked final product the whole product. The layers are the same operations of equal arguments.

  The three frames: each kernel program (at any float instance) is run as its two regions and the host stretches
  between them, every buffer's contents followed from the launch memory; the reference is its host operations in
  order. No step writes an argument array. The ideal pass rewrote nothing, so the idealization conjunct is trivial.
-/
import proofs.«165815_j54073638257172_1_alg».proof.Defs
import proofs.«165815_j54073638257172_1_alg».proof.Proof.Gen.Kernel
import proofs.«165815_j54073638257172_1_alg».proof.Proof.Gen.KernelIdeal
import proofs.«165815_j54073638257172_1_alg».proof.Proof.Gen.ReferenceIdeal
import proofs.«165815_j54073638257172_1_alg».proof.Proof.Gen.Pre_finite_inputs
import proofs.«165815_j54073638257172_1_alg».proof.Proof.KMain
import proofs.«165815_j54073638257172_1_alg».proof.Proof.KIMain
import proofs.«165815_j54073638257172_1_alg».proof.Proof.KIBridge
import proofs.«165815_j54073638257172_1_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.Bridge.Ref.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.KernelIdeal.Hand.algebraic⟩

end Cert.Proof

end
